-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x15 : Shape := ⟨2, ![2097152, 15]⟩
abbrev S2097152x14 : Shape := ⟨2, ![2097152, 14]⟩
abbrev S2097152x13 : Shape := ⟨2, ![2097152, 13]⟩
abbrev S45x15 : Shape := ⟨2, ![45, 15]⟩
abbrev S45 : Shape := ⟨1, ![45]⟩
abbrev S15x15 : Shape := ⟨2, ![15, 15]⟩
abbrev S15 : Shape := ⟨1, ![15]⟩
abbrev S15x42 : Shape := ⟨2, ![15, 42]⟩
abbrev S42x14 : Shape := ⟨2, ![42, 14]⟩
abbrev S42 : Shape := ⟨1, ![42]⟩
abbrev S14x14 : Shape := ⟨2, ![14, 14]⟩
abbrev S14 : Shape := ⟨1, ![14]⟩
abbrev S14x42 : Shape := ⟨2, ![14, 42]⟩
abbrev S39x13 : Shape := ⟨2, ![39, 13]⟩
abbrev S39 : Shape := ⟨1, ![39]⟩
abbrev S13x13 : Shape := ⟨2, ![13, 13]⟩
abbrev S13 : Shape := ⟨1, ![13]⟩
abbrev S13x42 : Shape := ⟨2, ![13, 42]⟩
abbrev S_ : Shape := ⟨0, ![]⟩

class Facts : Prop where
  bcast_S_S2097152x15 : S_.BroadcastsInDim S2097152x15 (![] : Fin 0 → Fin S2097152x15.rank)
  reducesTo_S2097152x15_S_d0_1 : S2097152x15.ReducesTo [0, 1] S_
  h_S_ : 0 < S_.numel
  bcast_S_S2097152x14 : S_.BroadcastsInDim S2097152x14 (![] : Fin 0 → Fin S2097152x14.rank)
  reducesTo_S2097152x14_S_d0_1 : S2097152x14.ReducesTo [0, 1] S_
  bcast_S_S2097152x13 : S_.BroadcastsInDim S2097152x13 (![] : Fin 0 → Fin S2097152x13.rank)
  reducesTo_S2097152x13_S_d0_1 : S2097152x13.ReducesTo [0, 1] S_
  bcast_S_S45x15 : S_.BroadcastsInDim S45x15 (![] : Fin 0 → Fin S45x15.rank)
  reducesTo_S45x15_S_d0_1 : S45x15.ReducesTo [0, 1] S_
  bcast_S_S45 : S_.BroadcastsInDim S45 (![] : Fin 0 → Fin S45.rank)
  reducesTo_S45_S_d0 : S45.ReducesTo [0] S_
  bcast_S_S15x15 : S_.BroadcastsInDim S15x15 (![] : Fin 0 → Fin S15x15.rank)
  reducesTo_S15x15_S_d0_1 : S15x15.ReducesTo [0, 1] S_
  bcast_S_S15 : S_.BroadcastsInDim S15 (![] : Fin 0 → Fin S15.rank)
  reducesTo_S15_S_d0 : S15.ReducesTo [0] S_
  bcast_S_S15x42 : S_.BroadcastsInDim S15x42 (![] : Fin 0 → Fin S15x42.rank)
  reducesTo_S15x42_S_d0_1 : S15x42.ReducesTo [0, 1] S_
  bcast_S_S42x14 : S_.BroadcastsInDim S42x14 (![] : Fin 0 → Fin S42x14.rank)
  reducesTo_S42x14_S_d0_1 : S42x14.ReducesTo [0, 1] S_
  bcast_S_S42 : S_.BroadcastsInDim S42 (![] : Fin 0 → Fin S42.rank)
  reducesTo_S42_S_d0 : S42.ReducesTo [0] S_
  bcast_S_S14x14 : S_.BroadcastsInDim S14x14 (![] : Fin 0 → Fin S14x14.rank)
  reducesTo_S14x14_S_d0_1 : S14x14.ReducesTo [0, 1] S_
  bcast_S_S14 : S_.BroadcastsInDim S14 (![] : Fin 0 → Fin S14.rank)
  reducesTo_S14_S_d0 : S14.ReducesTo [0] S_
  bcast_S_S14x42 : S_.BroadcastsInDim S14x42 (![] : Fin 0 → Fin S14x42.rank)
  reducesTo_S14x42_S_d0_1 : S14x42.ReducesTo [0, 1] S_
  bcast_S_S39x13 : S_.BroadcastsInDim S39x13 (![] : Fin 0 → Fin S39x13.rank)
  reducesTo_S39x13_S_d0_1 : S39x13.ReducesTo [0, 1] S_
  bcast_S_S39 : S_.BroadcastsInDim S39 (![] : Fin 0 → Fin S39.rank)
  reducesTo_S39_S_d0 : S39.ReducesTo [0] S_
  bcast_S_S13x13 : S_.BroadcastsInDim S13x13 (![] : Fin 0 → Fin S13x13.rank)
  reducesTo_S13x13_S_d0_1 : S13x13.ReducesTo [0, 1] S_
  bcast_S_S13 : S_.BroadcastsInDim S13 (![] : Fin 0 → Fin S13.rank)
  reducesTo_S13_S_d0 : S13.ReducesTo [0] S_
  bcast_S_S13x42 : S_.BroadcastsInDim S13x42 (![] : Fin 0 → Fin S13x42.rank)
  reducesTo_S13x42_S_d0_1 : S13x42.ReducesTo [0, 1] S_

variable [Facts]

def fn_part7 {F : FTy → Type} [FloatOps F] (main_arg25 : FVec F S13 .f32) (main_arg26 : FVec F S13 .f32) (main_v118 : IVec S_ 1) (main_v119 : FVec F S13 .f32) : IVec S_ 1 :=
  let main_cst_46 : FVec F S_ .f32 := constant S_ .f32 0x7F800000#32
  let main_v120 : FVec F S13 .f32 := broadcastInDim S13 ![] bcast_S_S13 main_cst_46
  let main_v121 : IVec S13 1 := cmpf .olt main_v119 main_v120
  let main_c_47 : IVec S_ 1 := constantI S_ 1 1#1
  let main_v122 : IVec S_ 1 := (fun x v => Host.reduce IntOp.andi x v reducesTo_S13_S_d0 h_S_) main_v121 main_c_47
  let main_v123 : IVec S_ 1 := andi main_v118 main_v122
  let main_v124 : FVec F S13 .f32 := Host.absf main_arg25
  let main_cst_48 : FVec F S_ .f32 := constant S_ .f32 0x7F800000#32
  let main_v125 : FVec F S13 .f32 := broadcastInDim S13 ![] bcast_S_S13 main_cst_48
  let main_v126 : IVec S13 1 := cmpf .olt main_v124 main_v125
  let main_c_49 : IVec S_ 1 := constantI S_ 1 1#1
  let main_v127 : IVec S_ 1 := (fun x v => Host.reduce IntOp.andi x v reducesTo_S13_S_d0 h_S_) main_v126 main_c_49
  let main_v128 : IVec S_ 1 := andi main_v123 main_v127
  let main_v129 : FVec F S13 .f32 := Host.absf main_arg26
  let main_cst_50 : FVec F S_ .f32 := constant S_ .f32 0x7F800000#32
  let main_v130 : FVec F S13 .f32 := broadcastInDim S13 ![] bcast_S_S13 main_cst_50
  let main_v131 : IVec S13 1 := cmpf .olt main_v129 main_v130
  let main_c_51 : IVec S_ 1 := constantI S_ 1 1#1
  let main_v132 : IVec S_ 1 := (fun x v => Host.reduce IntOp.andi x v reducesTo_S13_S_d0 h_S_) main_v131 main_c_51
  let main_v133 : IVec S_ 1 := andi main_v128 main_v132
  main_v133

def fn_part6 {F : FTy → Type} [FloatOps F] (main_arg21 : FVec F S13x13 .f32) (main_arg22 : FVec F S13 .f32) (main_arg23 : FVec F S13x42 .f32) (main_arg24 : FVec F S13 .f32) (main_arg25 : FVec F S13 .f32) (main_arg26 : FVec F S13 .f32) (main_v98 : IVec S_ 1) (main_v101 : IVec S39 1) (main_c_39 : IVec S_ 1) : IVec S_ 1 :=
  let main_v102 : IVec S_ 1 := (fun x v => Host.reduce IntOp.andi x v reducesTo_S39_S_d0 h_S_) main_v101 main_c_39
  let main_v103 : IVec S_ 1 := andi main_v98 main_v102
  let main_v104 : FVec F S13x13 .f32 := Host.absf main_arg21
  let main_cst_40 : FVec F S_ .f32 := constant S_ .f32 0x7F800000#32
  let main_v105 : FVec F S13x13 .f32 := broadcastInDim S13x13 ![] bcast_S_S13x13 main_cst_40
  let main_v106 : IVec S13x13 1 := cmpf .olt main_v104 main_v105
  let main_c_41 : IVec S_ 1 := constantI S_ 1 1#1
  let main_v107 : IVec S_ 1 := (fun x v => Host.reduce IntOp.andi x v reducesTo_S13x13_S_d0_1 h_S_) main_v106 main_c_41
  let main_v108 : IVec S_ 1 := andi main_v103 main_v107
  let main_v109 : FVec F S13 .f32 := Host.absf main_arg22
  let main_cst_42 : FVec F S_ .f32 := constant S_ .f32 0x7F800000#32
  let main_v110 : FVec F S13 .f32 := broadcastInDim S13 ![] bcast_S_S13 main_cst_42
  let main_v111 : IVec S13 1 := cmpf .olt main_v109 main_v110
  let main_c_43 : IVec S_ 1 := constantI S_ 1 1#1
  let main_v112 : IVec S_ 1 := (fun x v => Host.reduce IntOp.andi x v reducesTo_S13_S_d0 h_S_) main_v111 main_c_43
  let main_v113 : IVec S_ 1 := andi main_v108 main_v112
  let main_v114 : FVec F S13x42 .f32 := Host.absf main_arg23
  let main_cst_44 : FVec F S_ .f32 := constant S_ .f32 0x7F800000#32
  let main_v115 : FVec F S13x42 .f32 := broadcastInDim S13x42 ![] bcast_S_S13x42 main_cst_44
  let main_v116 : IVec S13x42 1 := cmpf .olt main_v114 main_v115
  let main_c_45 : IVec S_ 1 := constantI S_ 1 1#1
  let main_v117 : IVec S_ 1 := (fun x v => Host.reduce IntOp.andi x v reducesTo_S13x42_S_d0_1 h_S_) main_v116 main_c_45
  let main_v118 : IVec S_ 1 := andi main_v113 main_v117
  let main_v119 : FVec F S13 .f32 := Host.absf main_arg24
  fn_part7 (F := F) main_arg25 main_arg26 main_v118 main_v119

def fn_part5 {F : FTy → Type} [FloatOps F] (main_arg18 : FVec F S14 .f32) (main_arg19 : FVec F S39x13 .f32) (main_arg20 : FVec F S39 .f32) (main_arg21 : FVec F S13x13 .f32) (main_arg22 : FVec F S13 .f32) (main_arg23 : FVec F S13x42 .f32) (main_arg24 : FVec F S13 .f32) (main_arg25 : FVec F S13 .f32) (main_arg26 : FVec F S13 .f32) (main_v83 : IVec S_ 1) (main_v84 : FVec F S14 .f32) (main_cst_32 : FVec F S_ .f32) : IVec S_ 1 :=
  let main_v85 : FVec F S14 .f32 := broadcastInDim S14 ![] bcast_S_S14 main_cst_32
  let main_v86 : IVec S14 1 := cmpf .olt main_v84 main_v85
  let main_c_33 : IVec S_ 1 := constantI S_ 1 1#1
  let main_v87 : IVec S_ 1 := (fun x v => Host.reduce IntOp.andi x v reducesTo_S14_S_d0 h_S_) main_v86 main_c_33
  let main_v88 : IVec S_ 1 := andi main_v83 main_v87
  let main_v89 : FVec F S14 .f32 := Host.absf main_arg18
  let main_cst_34 : FVec F S_ .f32 := constant S_ .f32 0x7F800000#32
  let main_v90 : FVec F S14 .f32 := broadcastInDim S14 ![] bcast_S_S14 main_cst_34
  let main_v91 : IVec S14 1 := cmpf .olt main_v89 main_v90
  let main_c_35 : IVec S_ 1 := constantI S_ 1 1#1
  let main_v92 : IVec S_ 1 := (fun x v => Host.reduce IntOp.andi x v reducesTo_S14_S_d0 h_S_) main_v91 main_c_35
  let main_v93 : IVec S_ 1 := andi main_v88 main_v92
  let main_v94 : FVec F S39x13 .f32 := Host.absf main_arg19
  let main_cst_36 : FVec F S_ .f32 := constant S_ .f32 0x7F800000#32
  let main_v95 : FVec F S39x13 .f32 := broadcastInDim S39x13 ![] bcast_S_S39x13 main_cst_36
  let main_v96 : IVec S39x13 1 := cmpf .olt main_v94 main_v95
  let main_c_37 : IVec S_ 1 := constantI S_ 1 1#1
  let main_v97 : IVec S_ 1 := (fun x v => Host.reduce IntOp.andi x v reducesTo_S39x13_S_d0_1 h_S_) main_v96 main_c_37
  let main_v98 : IVec S_ 1 := andi main_v93 main_v97
  let main_v99 : FVec F S39 .f32 := Host.absf main_arg20
  let main_cst_38 : FVec F S_ .f32 := constant S_ .f32 0x7F800000#32
  let main_v100 : FVec F S39 .f32 := broadcastInDim S39 ![] bcast_S_S39 main_cst_38
  let main_v101 : IVec S39 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S14 .f32) (main_arg15 : FVec F S14x42 .f32) (main_arg16 : FVec F S14 .f32) (main_arg17 : FVec F S14 .f32) (main_arg18 : FVec F S14 .f32) (main_arg19 : FVec F S39x13 .f32) (main_arg20 : FVec F S39 .f32) (main_arg21 : FVec F S13x13 .f32) (main_arg22 : FVec F S13 .f32) (main_arg23 : FVec F S13x42 .f32) (main_arg24 : FVec F S13 .f32) (main_arg25 : FVec F S13 .f32) (main_arg26 : FVec F S13 .f32) (main_v63 : IVec S_ 1) (main_v67 : IVec S_ 1) : IVec S_ 1 :=
  let main_v68 : IVec S_ 1 := andi main_v63 main_v67
  let main_v69 : FVec F S14 .f32 := Host.absf main_arg14
  let main_cst_26 : FVec F S_ .f32 := constant S_ .f32 0x7F800000#32
  let main_v70 : FVec F S14 .f32 := broadcastInDim S14 ![] bcast_S_S14 main_cst_26
  let main_v71 : IVec S14 1 := cmpf .olt main_v69 main_v70
  let main_c_27 : IVec S_ 1 := constantI S_ 1 1#1
  let main_v72 : IVec S_ 1 := (fun x v => Host.reduce IntOp.andi x v reducesTo_S14_S_d0 h_S_) main_v71 main_c_27
  let main_v73 : IVec S_ 1 := andi main_v68 main_v72
  let main_v74 : FVec F S14x42 .f32 := Host.absf main_arg15
  let main_cst_28 : FVec F S_ .f32 := constant S_ .f32 0x7F800000#32
  let main_v75 : FVec F S14x42 .f32 := broadcastInDim S14x42 ![] bcast_S_S14x42 main_cst_28
  let main_v76 : IVec S14x42 1 := cmpf .olt main_v74 main_v75
  let main_c_29 : IVec S_ 1 := constantI S_ 1 1#1
  let main_v77 : IVec S_ 1 := (fun x v => Host.reduce IntOp.andi x v reducesTo_S14x42_S_d0_1 h_S_) main_v76 main_c_29
  let main_v78 : IVec S_ 1 := andi main_v73 main_v77
  let main_v79 : FVec F S14 .f32 := Host.absf main_arg16
  let main_cst_30 : FVec F S_ .f32 := constant S_ .f32 0x7F800000#32
  let main_v80 : FVec F S14 .f32 := broadcastInDim S14 ![] bcast_S_S14 main_cst_30
  let main_v81 : IVec S14 1 := cmpf .olt main_v79 main_v80
  let main_c_31 : IVec S_ 1 := constantI S_ 1 1#1
  let main_v82 : IVec S_ 1 := (fun x v => Host.reduce IntOp.andi x v reducesTo_S14_S_d0 h_S_) main_v81 main_c_31
  let main_v83 : IVec S_ 1 := andi main_v78 main_v82
  let main_v84 : FVec F S14 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S42x14 .f32) (main_arg12 : FVec F S42 .f32) (main_arg13 : FVec F S14x14 .f32) (main_arg14 : FVec F S14 .f32) (main_arg15 : FVec F S14x42 .f32) (main_arg16 : FVec F S14 .f32) (main_arg17 : FVec F S14 .f32) (main_arg18 : FVec F S14 .f32) (main_arg19 : FVec F S39x13 .f32) (main_arg20 : FVec F S39 .f32) (main_arg21 : FVec F S13x13 .f32) (main_arg22 : FVec F S13 .f32) (main_arg23 : FVec F S13x42 .f32) (main_arg24 : FVec F S13 .f32) (main_arg25 : FVec F S13 .f32) (main_arg26 : FVec F S13 .f32) (main_v48 : IVec S_ 1) (main_v49 : FVec F S15 .f32) (main_v50 : FVec F S15 .f32) : IVec S_ 1 :=
  let main_v51 : IVec S15 1 := cmpf .olt main_v49 main_v50
  let main_c_19 : IVec S_ 1 := constantI S_ 1 1#1
  let main_v52 : IVec S_ 1 := (fun x v => Host.reduce IntOp.andi x v reducesTo_S15_S_d0 h_S_) main_v51 main_c_19
  let main_v53 : IVec S_ 1 := andi main_v48 main_v52
  let main_v54 : FVec F S42x14 .f32 := Host.absf main_arg11
  let main_cst_20 : FVec F S_ .f32 := constant S_ .f32 0x7F800000#32
  let main_v55 : FVec F S42x14 .f32 := broadcastInDim S42x14 ![] bcast_S_S42x14 main_cst_20
  let main_v56 : IVec S42x14 1 := cmpf .olt main_v54 main_v55
  let main_c_21 : IVec S_ 1 := constantI S_ 1 1#1
  let main_v57 : IVec S_ 1 := (fun x v => Host.reduce IntOp.andi x v reducesTo_S42x14_S_d0_1 h_S_) main_v56 main_c_21
  let main_v58 : IVec S_ 1 := andi main_v53 main_v57
  let main_v59 : FVec F S42 .f32 := Host.absf main_arg12
  let main_cst_22 : FVec F S_ .f32 := constant S_ .f32 0x7F800000#32
  let main_v60 : FVec F S42 .f32 := broadcastInDim S42 ![] bcast_S_S42 main_cst_22
  let main_v61 : IVec S42 1 := cmpf .olt main_v59 main_v60
  let main_c_23 : IVec S_ 1 := constantI S_ 1 1#1
  let main_v62 : IVec S_ 1 := (fun x v => Host.reduce IntOp.andi x v reducesTo_S42_S_d0 h_S_) main_v61 main_c_23
  let main_v63 : IVec S_ 1 := andi main_v58 main_v62
  let main_v64 : FVec F S14x14 .f32 := Host.absf main_arg13
  let main_cst_24 : FVec F S_ .f32 := constant S_ .f32 0x7F800000#32
  let main_v65 : FVec F S14x14 .f32 := broadcastInDim S14x14 ![] bcast_S_S14x14 main_cst_24
  let main_v66 : IVec S14x14 1 := cmpf .olt main_v64 main_v65
  let main_c_25 : IVec S_ 1 := constantI S_ 1 1#1
  let main_v67 : IVec S_ 1 := (fun x v => Host.reduce IntOp.andi x v reducesTo_S14x14_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S15x42 .f32) (main_arg8 : FVec F S15 .f32) (main_arg9 : FVec F S15 .f32) (main_arg10 : FVec F S15 .f32) (main_arg11 : FVec F S42x14 .f32) (main_arg12 : FVec F S42 .f32) (main_arg13 : FVec F S14x14 .f32) (main_arg14 : FVec F S14 .f32) (main_arg15 : FVec F S14x42 .f32) (main_arg16 : FVec F S14 .f32) (main_arg17 : FVec F S14 .f32) (main_arg18 : FVec F S14 .f32) (main_arg19 : FVec F S39x13 .f32) (main_arg20 : FVec F S39 .f32) (main_arg21 : FVec F S13x13 .f32) (main_arg22 : FVec F S13 .f32) (main_arg23 : FVec F S13x42 .f32) (main_arg24 : FVec F S13 .f32) (main_arg25 : FVec F S13 .f32) (main_arg26 : FVec F S13 .f32) (main_v33 : IVec S_ 1) : IVec S_ 1 :=
  let main_v34 : FVec F S15x42 .f32 := Host.absf main_arg7
  let main_cst_12 : FVec F S_ .f32 := constant S_ .f32 0x7F800000#32
  let main_v35 : FVec F S15x42 .f32 := broadcastInDim S15x42 ![] bcast_S_S15x42 main_cst_12
  let main_v36 : IVec S15x42 1 := cmpf .olt main_v34 main_v35
  let main_c_13 : IVec S_ 1 := constantI S_ 1 1#1
  let main_v37 : IVec S_ 1 := (fun x v => Host.reduce IntOp.andi x v reducesTo_S15x42_S_d0_1 h_S_) main_v36 main_c_13
  let main_v38 : IVec S_ 1 := andi main_v33 main_v37
  let main_v39 : FVec F S15 .f32 := Host.absf main_arg8
  let main_cst_14 : FVec F S_ .f32 := constant S_ .f32 0x7F800000#32
  let main_v40 : FVec F S15 .f32 := broadcastInDim S15 ![] bcast_S_S15 main_cst_14
  let main_v41 : IVec S15 1 := cmpf .olt main_v39 main_v40
  let main_c_15 : IVec S_ 1 := constantI S_ 1 1#1
  let main_v42 : IVec S_ 1 := (fun x v => Host.reduce IntOp.andi x v reducesTo_S15_S_d0 h_S_) main_v41 main_c_15
  let main_v43 : IVec S_ 1 := andi main_v38 main_v42
  let main_v44 : FVec F S15 .f32 := Host.absf main_arg9
  let main_cst_16 : FVec F S_ .f32 := constant S_ .f32 0x7F800000#32
  let main_v45 : FVec F S15 .f32 := broadcastInDim S15 ![] bcast_S_S15 main_cst_16
  let main_v46 : IVec S15 1 := cmpf .olt main_v44 main_v45
  let main_c_17 : IVec S_ 1 := constantI S_ 1 1#1
  let main_v47 : IVec S_ 1 := (fun x v => Host.reduce IntOp.andi x v reducesTo_S15_S_d0 h_S_) main_v46 main_c_17
  let main_v48 : IVec S_ 1 := andi main_v43 main_v47
  let main_v49 : FVec F S15 .f32 := Host.absf main_arg10
  let main_cst_18 : FVec F S_ .f32 := constant S_ .f32 0x7F800000#32
  let main_v50 : FVec F S15 .f32 := broadcastInDim S15 ![] bcast_S_S15 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S45 .f32) (main_arg5 : FVec F S15x15 .f32) (main_arg6 : FVec F S15 .f32) (main_arg7 : FVec F S15x42 .f32) (main_arg8 : FVec F S15 .f32) (main_arg9 : FVec F S15 .f32) (main_arg10 : FVec F S15 .f32) (main_arg11 : FVec F S42x14 .f32) (main_arg12 : FVec F S42 .f32) (main_arg13 : FVec F S14x14 .f32) (main_arg14 : FVec F S14 .f32) (main_arg15 : FVec F S14x42 .f32) (main_arg16 : FVec F S14 .f32) (main_arg17 : FVec F S14 .f32) (main_arg18 : FVec F S14 .f32) (main_arg19 : FVec F S39x13 .f32) (main_arg20 : FVec F S39 .f32) (main_arg21 : FVec F S13x13 .f32) (main_arg22 : FVec F S13 .f32) (main_arg23 : FVec F S13x42 .f32) (main_arg24 : FVec F S13 .f32) (main_arg25 : FVec F S13 .f32) (main_arg26 : FVec F S13 .f32) (main_v13 : IVec S_ 1) (main_v16 : IVec S45x15 1) : IVec S_ 1 :=
  let main_c_5 : IVec S_ 1 := constantI S_ 1 1#1
  let main_v17 : IVec S_ 1 := (fun x v => Host.reduce IntOp.andi x v reducesTo_S45x15_S_d0_1 h_S_) main_v16 main_c_5
  let main_v18 : IVec S_ 1 := andi main_v13 main_v17
  let main_v19 : FVec F S45 .f32 := Host.absf main_arg4
  let main_cst_6 : FVec F S_ .f32 := constant S_ .f32 0x7F800000#32
  let main_v20 : FVec F S45 .f32 := broadcastInDim S45 ![] bcast_S_S45 main_cst_6
  let main_v21 : IVec S45 1 := cmpf .olt main_v19 main_v20
  let main_c_7 : IVec S_ 1 := constantI S_ 1 1#1
  let main_v22 : IVec S_ 1 := (fun x v => Host.reduce IntOp.andi x v reducesTo_S45_S_d0 h_S_) main_v21 main_c_7
  let main_v23 : IVec S_ 1 := andi main_v18 main_v22
  let main_v24 : FVec F S15x15 .f32 := Host.absf main_arg5
  let main_cst_8 : FVec F S_ .f32 := constant S_ .f32 0x7F800000#32
  let main_v25 : FVec F S15x15 .f32 := broadcastInDim S15x15 ![] bcast_S_S15x15 main_cst_8
  let main_v26 : IVec S15x15 1 := cmpf .olt main_v24 main_v25
  let main_c_9 : IVec S_ 1 := constantI S_ 1 1#1
  let main_v27 : IVec S_ 1 := (fun x v => Host.reduce IntOp.andi x v reducesTo_S15x15_S_d0_1 h_S_) main_v26 main_c_9
  let main_v28 : IVec S_ 1 := andi main_v23 main_v27
  let main_v29 : FVec F S15 .f32 := Host.absf main_arg6
  let main_cst_10 : FVec F S_ .f32 := constant S_ .f32 0x7F800000#32
  let main_v30 : FVec F S15 .f32 := broadcastInDim S15 ![] bcast_S_S15 main_cst_10
  let main_v31 : IVec S15 1 := cmpf .olt main_v29 main_v30
  let main_c_11 : IVec S_ 1 := constantI S_ 1 1#1
  let main_v32 : IVec S_ 1 := (fun x v => Host.reduce IntOp.andi x v reducesTo_S15_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S2097152x15 .f32) (main_arg1 : FVec F S2097152x14 .f32) (main_arg2 : FVec F S2097152x13 .f32) (main_arg3 : FVec F S45x15 .f32) (main_arg4 : FVec F S45 .f32) (main_arg5 : FVec F S15x15 .f32) (main_arg6 : FVec F S15 .f32) (main_arg7 : FVec F S15x42 .f32) (main_arg8 : FVec F S15 .f32) (main_arg9 : FVec F S15 .f32) (main_arg10 : FVec F S15 .f32) (main_arg11 : FVec F S42x14 .f32) (main_arg12 : FVec F S42 .f32) (main_arg13 : FVec F S14x14 .f32) (main_arg14 : FVec F S14 .f32) (main_arg15 : FVec F S14x42 .f32) (main_arg16 : FVec F S14 .f32) (main_arg17 : FVec F S14 .f32) (main_arg18 : FVec F S14 .f32) (main_arg19 : FVec F S39x13 .f32) (main_arg20 : FVec F S39 .f32) (main_arg21 : FVec F S13x13 .f32) (main_arg22 : FVec F S13 .f32) (main_arg23 : FVec F S13x42 .f32) (main_arg24 : FVec F S13 .f32) (main_arg25 : FVec F S13 .f32) (main_arg26 : FVec F S13 .f32) : IVec S_ 1 :=
  let main_v0 : FVec F S2097152x15 .f32 := Host.absf main_arg0
  let main_cst : FVec F S_ .f32 := constant S_ .f32 0x7F800000#32
  let main_v1 : FVec F S2097152x15 .f32 := broadcastInDim S2097152x15 ![] bcast_S_S2097152x15 main_cst
  let main_v2 : IVec S2097152x15 1 := cmpf .olt main_v0 main_v1
  let main_c : IVec S_ 1 := constantI S_ 1 1#1
  let main_v3 : IVec S_ 1 := (fun x v => Host.reduce IntOp.andi x v reducesTo_S2097152x15_S_d0_1 h_S_) main_v2 main_c
  let main_v4 : FVec F S2097152x14 .f32 := Host.absf main_arg1
  let main_cst_0 : FVec F S_ .f32 := constant S_ .f32 0x7F800000#32
  let main_v5 : FVec F S2097152x14 .f32 := broadcastInDim S2097152x14 ![] bcast_S_S2097152x14 main_cst_0
  let main_v6 : IVec S2097152x14 1 := cmpf .olt main_v4 main_v5
  let main_c_1 : IVec S_ 1 := constantI S_ 1 1#1
  let main_v7 : IVec S_ 1 := (fun x v => Host.reduce IntOp.andi x v reducesTo_S2097152x14_S_d0_1 h_S_) main_v6 main_c_1
  let main_v8 : IVec S_ 1 := andi main_v3 main_v7
  let main_v9 : FVec F S2097152x13 .f32 := Host.absf main_arg2
  let main_cst_2 : FVec F S_ .f32 := constant S_ .f32 0x7F800000#32
  let main_v10 : FVec F S2097152x13 .f32 := broadcastInDim S2097152x13 ![] bcast_S_S2097152x13 main_cst_2
  let main_v11 : IVec S2097152x13 1 := cmpf .olt main_v9 main_v10
  let main_c_3 : IVec S_ 1 := constantI S_ 1 1#1
  let main_v12 : IVec S_ 1 := (fun x v => Host.reduce IntOp.andi x v reducesTo_S2097152x13_S_d0_1 h_S_) main_v11 main_c_3
  let main_v13 : IVec S_ 1 := andi main_v8 main_v12
  let main_v14 : FVec F S45x15 .f32 := Host.absf main_arg3
  let main_cst_4 : FVec F S_ .f32 := constant S_ .f32 0x7F800000#32
  let main_v15 : FVec F S45x15 .f32 := broadcastInDim S45x15 ![] bcast_S_S45x15 main_cst_4
  let main_v16 : IVec S45x15 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S2097152x15 : Shape := ⟨2, ![2097152, 15]⟩
abbrev S2097152x14 : Shape := ⟨2, ![2097152, 14]⟩
abbrev S2097152x13 : Shape := ⟨2, ![2097152, 13]⟩
abbrev S45x15 : Shape := ⟨2, ![45, 15]⟩
abbrev S45 : Shape := ⟨1, ![45]⟩
abbrev S15x15 : Shape := ⟨2, ![15, 15]⟩
abbrev S15 : Shape := ⟨1, ![15]⟩
abbrev S15x42 : Shape := ⟨2, ![15, 42]⟩
abbrev S42x14 : Shape := ⟨2, ![42, 14]⟩
abbrev S42 : Shape := ⟨1, ![42]⟩
abbrev S14x14 : Shape := ⟨2, ![14, 14]⟩
abbrev S14 : Shape := ⟨1, ![14]⟩
abbrev S14x42 : Shape := ⟨2, ![14, 42]⟩
abbrev S39x13 : Shape := ⟨2, ![39, 13]⟩
abbrev S39 : Shape := ⟨1, ![39]⟩
abbrev S13x13 : Shape := ⟨2, ![13, 13]⟩
abbrev S13 : Shape := ⟨1, ![13]⟩
abbrev S13x42 : Shape := ⟨2, ![13, 42]⟩
abbrev S1x15 : Shape := ⟨2, ![1, 15]⟩
abbrev S15x14 : Shape := ⟨2, ![15, 14]⟩
abbrev S15x13 : Shape := ⟨2, ![15, 13]⟩
abbrev S1x14 : Shape := ⟨2, ![1, 14]⟩
abbrev S14x15 : Shape := ⟨2, ![14, 15]⟩
abbrev S14x13 : Shape := ⟨2, ![14, 13]⟩
abbrev S1x13 : Shape := ⟨2, ![1, 13]⟩
abbrev S13x15 : Shape := ⟨2, ![13, 15]⟩
abbrev S13x14 : Shape := ⟨2, ![13, 14]⟩
abbrev S2048x15 : Shape := ⟨2, ![2048, 15]⟩
abbrev S2048x14 : Shape := ⟨2, ![2048, 14]⟩
abbrev S2048x13 : Shape := ⟨2, ![2048, 13]⟩
abbrev S2048 : Shape := ⟨1, ![2048]⟩
abbrev S2048x1 : Shape := ⟨2, ![2048, 1]⟩

abbrev nBuf : Space → Nat
  | .hbm => 60
  | .vmem => 42
  | .smem => 0
  | _ => 0

abbrev bufTy : (tb : Table) → Fin (tcTables nBuf tb) → BufTy
  | .hbm, ⟨0, _⟩ => ⟨S2097152x15, .f32⟩
  | .hbm, ⟨1, _⟩ => ⟨S2097152x14, .f32⟩
  | .hbm, ⟨2, _⟩ => ⟨S2097152x13, .f32⟩
  | .hbm, ⟨3, _⟩ => ⟨S45x15, .f32⟩
  | .hbm, ⟨4, _⟩ => ⟨S45, .f32⟩
  | .hbm, ⟨5, _⟩ => ⟨S15x15, .f32⟩
  | .hbm, ⟨6, _⟩ => ⟨S15, .f32⟩
  | .hbm, ⟨7, _⟩ => ⟨S15x42, .f32⟩
  | .hbm, ⟨8, _⟩ => ⟨S15, .f32⟩
  | .hbm, ⟨9, _⟩ => ⟨S15, .f32⟩
  | .hbm, ⟨10, _⟩ => ⟨S15, .f32⟩
  | .hbm, ⟨11, _⟩ => ⟨S42x14, .f32⟩
  | .hbm, ⟨12, _⟩ => ⟨S42, .f32⟩
  | .hbm, ⟨13, _⟩ => ⟨S14x14, .f32⟩
  | .hbm, ⟨14, _⟩ => ⟨S14, .f32⟩
  | .hbm, ⟨15, _⟩ => ⟨S14x42, .f32⟩
  | .hbm, ⟨16, _⟩ => ⟨S14, .f32⟩
  | .hbm, ⟨17, _⟩ => ⟨S14, .f32⟩
  | .hbm, ⟨18, _⟩ => ⟨S14, .f32⟩
  | .hbm, ⟨19, _⟩ => ⟨S39x13, .f32⟩
  | .hbm, ⟨20, _⟩ => ⟨S39, .f32⟩
  | .hbm, ⟨21, _⟩ => ⟨S13x13, .f32⟩
  | .hbm, ⟨22, _⟩ => ⟨S13, .f32⟩
  | .hbm, ⟨23, _⟩ => ⟨S13x42, .f32⟩
  | .hbm, ⟨24, _⟩ => ⟨S13, .f32⟩
  | .hbm, ⟨25, _⟩ => ⟨S13, .f32⟩
  | .hbm, ⟨26, _⟩ => ⟨S13, .f32⟩
  | .hbm, ⟨27, _⟩ => ⟨S15x15, .f32⟩
  | .hbm, ⟨28, _⟩ => ⟨S15, .f32⟩
  | .hbm, ⟨29, _⟩ => ⟨S1x15, .f32⟩
  | .hbm, ⟨30, _⟩ => ⟨S15x15, .f32⟩
  | .hbm, ⟨31, _⟩ => ⟨S15x14, .f32⟩
  | .hbm, ⟨32, _⟩ => ⟨S15x13, .f32⟩
  | .hbm, ⟨33, _⟩ => ⟨S1x15, .f32⟩
  | .hbm, ⟨34, _⟩ => ⟨S1x15, .f32⟩
  | .hbm, ⟨35, _⟩ => ⟨S1x15, .f32⟩
  | .hbm, ⟨36, _⟩ => ⟨S1x15, .f32⟩
  | .hbm, ⟨37, _⟩ => ⟨S14x14, .f32⟩
  | .hbm, ⟨38, _⟩ => ⟨S14, .f32⟩
  | .hbm, ⟨39, _⟩ => ⟨S1x14, .f32⟩
  | .hbm, ⟨40, _⟩ => ⟨S14x15, .f32⟩
  | .hbm, ⟨41, _⟩ => ⟨S14x14, .f32⟩
  | .hbm, ⟨42, _⟩ => ⟨S14x13, .f32⟩
  | .hbm, ⟨43, _⟩ => ⟨S1x14, .f32⟩
  | .hbm, ⟨44, _⟩ => ⟨S1x14, .f32⟩
  | .hbm, ⟨45, _⟩ => ⟨S1x14, .f32⟩
  | .hbm, ⟨46, _⟩ => ⟨S1x14, .f32⟩
  | .hbm, ⟨47, _⟩ => ⟨S13x13, .f32⟩
  | .hbm, ⟨48, _⟩ => ⟨S13, .f32⟩
  | .hbm, ⟨49, _⟩ => ⟨S1x13, .f32⟩
  | .hbm, ⟨50, _⟩ => ⟨S13x15, .f32⟩
  | .hbm, ⟨51, _⟩ => ⟨S13x14, .f32⟩
  | .hbm, ⟨52, _⟩ => ⟨S13x13, .f32⟩
  | .hbm, ⟨53, _⟩ => ⟨S1x13, .f32⟩
  | .hbm, ⟨54, _⟩ => ⟨S1x13, .f32⟩
  | .hbm, ⟨55, _⟩ => ⟨S1x13, .f32⟩
  | .hbm, ⟨56, _⟩ => ⟨S1x13, .f32⟩
  | .hbm, ⟨57, _⟩ => ⟨S2097152x15, .f32⟩
  | .hbm, ⟨58, _⟩ => ⟨S2097152x14, .f32⟩
  | .hbm, ⟨59, _⟩ => ⟨S2097152x13, .f32⟩
  | .local _ .vmem, ⟨0, _⟩ => ⟨S2048x15, .f32⟩
  | .local _ .vmem, ⟨1, _⟩ => ⟨S2048x15, .f32⟩
  | .local _ .vmem, ⟨2, _⟩ => ⟨S2048x14, .f32⟩
  | .local _ .vmem, ⟨3, _⟩ => ⟨S2048x14, .f32⟩
  | .local _ .vmem, ⟨4, _⟩ => ⟨S2048x13, .f32⟩
  | .local _ .vmem, ⟨5, _⟩ => ⟨S2048x13, .f32⟩
  | .local _ .vmem, ⟨6, _⟩ => ⟨S15x15, .f32⟩
  | .local _ .vmem, ⟨7, _⟩ => ⟨S1x15, .f32⟩
  | .local _ .vmem, ⟨8, _⟩ => ⟨S15x15, .f32⟩
  | .local _ .vmem, ⟨9, _⟩ => ⟨S1x15, .f32⟩
  | .local _ .vmem, ⟨10, _⟩ => ⟨S15x15, .f32⟩
  | .local _ .vmem, ⟨11, _⟩ => ⟨S15x14, .f32⟩
  | .local _ .vmem, ⟨12, _⟩ => ⟨S15x13, .f32⟩
  | .local _ .vmem, ⟨13, _⟩ => ⟨S1x15, .f32⟩
  | .local _ .vmem, ⟨14, _⟩ => ⟨S1x15, .f32⟩
  | .local _ .vmem, ⟨15, _⟩ => ⟨S1x15, .f32⟩
  | .local _ .vmem, ⟨16, _⟩ => ⟨S14x14, .f32⟩
  | .local _ .vmem, ⟨17, _⟩ => ⟨S1x14, .f32⟩
  | .local _ .vmem, ⟨18, _⟩ => ⟨S14x14, .f32⟩
  | .local _ .vmem, ⟨19, _⟩ => ⟨S1x14, .f32⟩
  | .local _ .vmem, ⟨20, _⟩ => ⟨S14x15, .f32⟩
  | .local _ .vmem, ⟨21, _⟩ => ⟨S14x14, .f32⟩
  | .local _ .vmem, ⟨22, _⟩ => ⟨S14x13, .f32⟩
  | .local _ .vmem, ⟨23, _⟩ => ⟨S1x14, .f32⟩
  | .local _ .vmem, ⟨24, _⟩ => ⟨S1x14, .f32⟩
  | .local _ .vmem, ⟨25, _⟩ => ⟨S1x14, .f32⟩
  | .local _ .vmem, ⟨26, _⟩ => ⟨S13x13, .f32⟩
  | .local _ .vmem, ⟨27, _⟩ => ⟨S1x13, .f32⟩
  | .local _ .vmem, ⟨28, _⟩ => ⟨S13x13, .f32⟩
  | .local _ .vmem, ⟨29, _⟩ => ⟨S1x13, .f32⟩
  | .local _ .vmem, ⟨30, _⟩ => ⟨S13x15, .f32⟩
  | .local _ .vmem, ⟨31, _⟩ => ⟨S13x14, .f32⟩
  | .local _ .vmem, ⟨32, _⟩ => ⟨S13x13, .f32⟩
  | .local _ .vmem, ⟨33, _⟩ => ⟨S1x13, .f32⟩
  | .local _ .vmem, ⟨34, _⟩ => ⟨S1x13, .f32⟩
  | .local _ .vmem, ⟨35, _⟩ => ⟨S1x13, .f32⟩
  | .local _ .vmem, ⟨36, _⟩ => ⟨S2048x15, .f32⟩
  | .local _ .vmem, ⟨37, _⟩ => ⟨S2048x15, .f32⟩
  | .local _ .vmem, ⟨38, _⟩ => ⟨S2048x14, .f32⟩
  | .local _ .vmem, ⟨39, _⟩ => ⟨S2048x14, .f32⟩
  | .local _ .vmem, ⟨40, _⟩ => ⟨S2048x13, .f32⟩
  | .local _ .vmem, ⟨41, _⟩ => ⟨S2048x13, .f32⟩
  | _, _ => ⟨S2097152x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30_0 : Ref sig .tc := ⟨.hbm, 57, rfl⟩
abbrev main_v30_1 : Ref sig .tc := ⟨.hbm, 58, rfl⟩
abbrev main_v30_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg26_0 : Ref sig .tc := ⟨.vmem, 29, rfl⟩
abbrev cc0_stg27_0 : Ref sig .tc := ⟨.vmem, 30, rfl⟩
abbrev cc0_stg28_0 : Ref sig .tc := ⟨.vmem, 31, rfl⟩
abbrev cc0_stg29_0 : Ref sig .tc := ⟨.vmem, 32, rfl⟩
abbrev cc0_stg30_0 : Ref sig .tc := ⟨.vmem, 33, rfl⟩
abbrev cc0_stg31_0 : Ref sig .tc := ⟨.vmem, 34, rfl⟩
abbrev cc0_stg32_0 : Ref sig .tc := ⟨.vmem, 35, rfl⟩
abbrev cc0_stg33_0 : Ref sig .tc := ⟨.vmem, 36, rfl⟩
abbrev cc0_stg33_1 : Ref sig .tc := ⟨.vmem, 37, rfl⟩
abbrev cc0_stg34_0 : Ref sig .tc := ⟨.vmem, 38, rfl⟩
abbrev cc0_stg34_1 : Ref sig .tc := ⟨.vmem, 39, rfl⟩
abbrev cc0_stg35_0 : Ref sig .tc := ⟨.vmem, 40, rfl⟩
abbrev cc0_stg35_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem26_0 : DmaSem sig := 29
abbrev cc0_sem27_0 : DmaSem sig := 30
abbrev cc0_sem28_0 : DmaSem sig := 31
abbrev cc0_sem29_0 : DmaSem sig := 32
abbrev cc0_sem30_0 : DmaSem sig := 33
abbrev cc0_sem31_0 : DmaSem sig := 34
abbrev cc0_sem32_0 : DmaSem sig := 35
abbrev cc0_sem33_0 : DmaSem sig := 36
abbrev cc0_sem33_1 : DmaSem sig := 37
abbrev cc0_sem34_0 : DmaSem sig := 38
abbrev cc0_sem34_1 : DmaSem sig := 39
abbrev cc0_sem35_0 : DmaSem sig := 40
abbrev cc0_sem35_1 : DmaSem sig := 41

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S15x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x15 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x15 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x15 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x15 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S15x14 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S15x13 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x15 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x15 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x15 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S14x14 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x14 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S14x14 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x14 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S14x15 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S14x14 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S14x13 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x14 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x14 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x14 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S13x13 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x13 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S13x13 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x13 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S13x15 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S13x14 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S13x13 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x13 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x13 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x13 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 2 → Memref sig .tc .vmem S2048x15 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S2048x14 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S2048x13 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

class Facts₀ : Prop where
  slices_S45x15_S15x15_30_0 : S45x15.Slices ![30, 0] S15x15
  slices_S45_S15_30 : S45.Slices ![30] S15
  shapeCasts_S15_S1x15 : S15.ShapeCasts S1x15
  slices_S15x42_S15x15_0_0 : S15x42.Slices ![0, 0] S15x15
  slices_S15x42_S15x14_0_15 : S15x42.Slices ![0, 15] S15x14
  slices_S15x42_S15x13_0_29 : S15x42.Slices ![0, 29] S15x13
  slices_S42x14_S14x14_28_0 : S42x14.Slices ![28, 0] S14x14
  slices_S42_S14_28 : S42.Slices ![28] S14
  shapeCasts_S14_S1x14 : S14.ShapeCasts S1x14
  slices_S14x42_S14x15_0_0 : S14x42.Slices ![0, 0] S14x15
  slices_S14x42_S14x14_0_15 : S14x42.Slices ![0, 15] S14x14
  slices_S14x42_S14x13_0_29 : S14x42.Slices ![0, 29] S14x13
  slices_S39x13_S13x13_26_0 : S39x13.Slices ![26, 0] S13x13
  slices_S39_S13_26 : S39.Slices ![26] S13
  shapeCasts_S13_S1x13 : S13.ShapeCasts S1x13
  slices_S13x42_S13x15_0_0 : S13x42.Slices ![0, 0] S13x15
  slices_S13x42_S13x14_0_15 : S13x42.Slices ![0, 15] S13x14
  slices_S13x42_S13x13_0_29 : S13x42.Slices ![0, 29] S13x13
  inb_S2048x15_S2048x15_0_0 : ∀ a, (![0, 0] : Fin 2 → Nat) a + S2048x15.size a ≤ S2048x15.size a
  h_S2048x15 : 0 < S2048x15.numel
  inb_S2048x14_S2048x14_0_0 : ∀ a, (![0, 0] : Fin 2 → Nat) a + S2048x14.size a ≤ S2048x14.size a
  h_S2048x14 : 0 < S2048x14.numel
  inb_S2048x13_S2048x13_0_0 : ∀ a, (![0, 0] : Fin 2 → Nat) a + S2048x13.size a ≤ S2048x13.size a
  h_S2048x13 : 0 < S2048x13.numel
  inb_S15x15_S15x15_0_0 : ∀ a, (![0, 0] : Fin 2 → Nat) a + S15x15.size a ≤ S15x15.size a
  h_S15x15 : 0 < S15x15.numel
  shapeCasts_S15x15_S15x15 : S15x15.ShapeCasts S15x15
  transposes_S15x15_p1_0_S15x15 : S15x15.Transposes [1, 0] S15x15
  inb_S15x14_S15x14_0_0 : ∀ a, (![0, 0] : Fin 2 → Nat) a + S15x14.size a ≤ S15x14.size a
  h_S15x14 : 0 < S15x14.numel
  shapeCasts_S15x14_S15x14 : S15x14.ShapeCasts S15x14
  transposes_S15x14_p1_0_S14x15 : S15x14.Transposes [1, 0] S14x15
  inb_S15x13_S15x13_0_0 : ∀ a, (![0, 0] : Fin 2 → Nat) a + S15x13.size a ≤ S15x13.size a
  h_S15x13 : 0 < S15x13.numel
  shapeCasts_S15x13_S15x13 : S15x13.ShapeCasts S15x13
  transposes_S15x13_p1_0_S13x15 : S15x13.Transposes [1, 0] S13x15
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S1x15_S2048x15 : S1x15.Broadcasts S2048x15
  reduces_S2048x15_S2048 : S2048x15.Reduces [1] S2048
  shapeCasts_S2048_S2048x1 : S2048.ShapeCasts S2048x1
  broadcasts_S2048x1_S2048x15 : S2048x1.Broadcasts S2048x15
  inb_S14x15_S14x15_0_0 : ∀ a, (![0, 0] : Fin 2 → Nat) a + S14x15.size a ≤ S14x15.size a
  h_S14x15 : 0 < S14x15.numel
  shapeCasts_S14x15_S14x15 : S14x15.ShapeCasts S14x15
  transposes_S14x15_p1_0_S15x14 : S14x15.Transposes [1, 0] S15x14
  inb_S14x14_S14x14_0_0 : ∀ a, (![0, 0] : Fin 2 → Nat) a + S14x14.size a ≤ S14x14.size a
  h_S14x14 : 0 < S14x14.numel
  shapeCasts_S14x14_S14x14 : S14x14.ShapeCasts S14x14
  transposes_S14x14_p1_0_S14x14 : S14x14.Transposes [1, 0] S14x14
  inb_S14x13_S14x13_0_0 : ∀ a, (![0, 0] : Fin 2 → Nat) a + S14x13.size a ≤ S14x13.size a
  h_S14x13 : 0 < S14x13.numel
  shapeCasts_S14x13_S14x13 : S14x13.ShapeCasts S14x13
  transposes_S14x13_p1_0_S13x14 : S14x13.Transposes [1, 0] S13x14
  inb_S1x14_S1x14_0_0 : ∀ a, (![0, 0] : Fin 2 → Nat) a + S1x14.size a ≤ S1x14.size a
  h_S1x14 : 0 < S1x14.numel
  shapeCasts_S1x14_S1x14 : S1x14.ShapeCasts S1x14
  broadcasts_S1x14_S2048x14 : S1x14.Broadcasts S2048x14
  reduces_S2048x14_S2048 : S2048x14.Reduces [1] S2048
  broadcasts_S2048x1_S2048x14 : S2048x1.Broadcasts S2048x14
  inb_S13x15_S13x15_0_0 : ∀ a, (![0, 0] : Fin 2 → Nat) a + S13x15.size a ≤ S13x15.size a
  h_S13x15 : 0 < S13x15.numel
  shapeCasts_S13x15_S13x15 : S13x15.ShapeCasts S13x15
  transposes_S13x15_p1_0_S15x13 : S13x15.Transposes [1, 0] S15x13
  inb_S13x14_S13x14_0_0 : ∀ a, (![0, 0] : Fin 2 → Nat) a + S13x14.size a ≤ S13x14.size a
  h_S13x14 : 0 < S13x14.numel
  shapeCasts_S13x14_S13x14 : S13x14.ShapeCasts S13x14
  transposes_S13x14_p1_0_S14x13 : S13x14.Transposes [1, 0] S14x13
  inb_S13x13_S13x13_0_0 : ∀ a, (![0, 0] : Fin 2 → Nat) a + S13x13.size a ≤ S13x13.size a
  h_S13x13 : 0 < S13x13.numel
  shapeCasts_S13x13_S13x13 : S13x13.ShapeCasts S13x13
  transposes_S13x13_p1_0_S13x13 : S13x13.Transposes [1, 0] S13x13
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S2048x13 : S1x13.Broadcasts S2048x13
  reduces_S2048x13_S2048 : S2048x13.Reduces [1] S2048
  broadcasts_S2048x1_S2048x13 : S2048x1.Broadcasts S2048x13
  dot_S2048x15_S15x15_S2048x15_1_0_0_1_n_n_wf : DotDims.WF S2048x15 S15x15 S2048x15 [1] [0] [0] [1] [] []
  dot_S2048x14_S14x15_S2048x15_1_0_0_1_n_n_wf : DotDims.WF S2048x14 S14x15 S2048x15 [1] [0] [0] [1] [] []
  dot_S2048x13_S13x15_S2048x15_1_0_0_1_n_n_wf : DotDims.WF S2048x13 S13x15 S2048x15 [1] [0] [0] [1] [] []
  dot_S2048x15_S15x14_S2048x14_1_0_0_1_n_n_wf : DotDims.WF S2048x15 S15x14 S2048x14 [1] [0] [0] [1] [] []
  dot_S2048x14_S14x14_S2048x14_1_0_0_1_n_n_wf : DotDims.WF S2048x14 S14x14 S2048x14 [1] [0] [0] [1] [] []
  dot_S2048x13_S13x14_S2048x14_1_0_0_1_n_n_wf : DotDims.WF S2048x13 S13x14 S2048x14 [1] [0] [0] [1] [] []
  dot_S2048x15_S15x13_S2048x13_1_0_0_1_n_n_wf : DotDims.WF S2048x15 S15x13 S2048x13 [1] [0] [0] [1] [] []
  dot_S2048x14_S14x13_S2048x13_1_0_0_1_n_n_wf : DotDims.WF S2048x14 S14x13 S2048x13 [1] [0] [0] [1] [] []
  dot_S2048x13_S13x13_S2048x13_1_0_0_1_n_n_wf : DotDims.WF S2048x13 S13x13 S2048x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x15.size a ≤ S2097152x15.size a
  hwx0_0 : ∀ i : grid0.Coords, EltTy.bits .f32 = 32 ∨ (Rect.block (s := S2097152x15) S2048x15.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x14.size a ≤ S2097152x14.size a
  hwx0_1 : ∀ i : grid0.Coords, EltTy.bits .f32 = 32 ∨ (Rect.block (s := S2097152x14) S2048x14.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x13.size a ≤ S2097152x13.size a
  hwx0_2 : ∀ i : grid0.Coords, EltTy.bits .f32 = 32 ∨ (Rect.block (s := S2097152x13) S2048x13.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x15.size a ≤ S15x15.size a
  hwx0_3 : ∀ i : grid0.Coords, EltTy.bits .f32 = 32 ∨ (Rect.block (s := S15x15) S15x15.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x15.size a ≤ S1x15.size a
  hwx0_4 : ∀ i : grid0.Coords, EltTy.bits .f32 = 32 ∨ (Rect.block (s := S1x15) S1x15.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x15.size a ≤ S15x15.size a
  hwx0_5 : ∀ i : grid0.Coords, EltTy.bits .f32 = 32 ∨ (Rect.block (s := S15x15) S15x15.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x15.size a ≤ S1x15.size a
  hwx0_6 : ∀ i : grid0.Coords, EltTy.bits .f32 = 32 ∨ (Rect.block (s := S1x15) S1x15.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x15.size a ≤ S15x15.size a
  hwx0_7 : ∀ i : grid0.Coords, EltTy.bits .f32 = 32 ∨ (Rect.block (s := S15x15) S15x15.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S15x14.size a ≤ S15x14.size a
  hwx0_8 : ∀ i : grid0.Coords, EltTy.bits .f32 = 32 ∨ (Rect.block (s := S15x14) S15x14.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S15x13.size a ≤ S15x13.size a
  hwx0_9 : ∀ i : grid0.Coords, EltTy.bits .f32 = 32 ∨ (Rect.block (s := S15x13) S15x13.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x15.size a ≤ S1x15.size a
  hwx0_10 : ∀ i : grid0.Coords, EltTy.bits .f32 = 32 ∨ (Rect.block (s := S1x15) S1x15.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x15.size a ≤ S1x15.size a
  hwx0_11 : ∀ i : grid0.Coords, EltTy.bits .f32 = 32 ∨ (Rect.block (s := S1x15) S1x15.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x15.size a ≤ S1x15.size a
  hwx0_12 : ∀ i : grid0.Coords, EltTy.bits .f32 = 32 ∨ (Rect.block (s := S1x15) S1x15.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S14x14.size a ≤ S14x14.size a
  hwx0_13 : ∀ i : grid0.Coords, EltTy.bits .f32 = 32 ∨ (Rect.block (s := S14x14) S14x14.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x14.size a ≤ S1x14.size a
  hwx0_14 : ∀ i : grid0.Coords, EltTy.bits .f32 = 32 ∨ (Rect.block (s := S1x14) S1x14.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S14x14.size a ≤ S14x14.size a
  hwx0_15 : ∀ i : grid0.Coords, EltTy.bits .f32 = 32 ∨ (Rect.block (s := S14x14) S14x14.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x14.size a ≤ S1x14.size a
  hwx0_16 : ∀ i : grid0.Coords, EltTy.bits .f32 = 32 ∨ (Rect.block (s := S1x14) S1x14.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S14x15.size a ≤ S14x15.size a
  hwx0_17 : ∀ i : grid0.Coords, EltTy.bits .f32 = 32 ∨ (Rect.block (s := S14x15) S14x15.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S14x14.size a ≤ S14x14.size a
  hwx0_18 : ∀ i : grid0.Coords, EltTy.bits .f32 = 32 ∨ (Rect.block (s := S14x14) S14x14.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S14x13.size a ≤ S14x13.size a
  hwx0_19 : ∀ i : grid0.Coords, EltTy.bits .f32 = 32 ∨ (Rect.block (s := S14x13) S14x13.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x14.size a ≤ S1x14.size a
  hwx0_20 : ∀ i : grid0.Coords, EltTy.bits .f32 = 32 ∨ (Rect.block (s := S1x14) S1x14.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x14.size a ≤ S1x14.size a
  hwx0_21 : ∀ i : grid0.Coords, EltTy.bits .f32 = 32 ∨ (Rect.block (s := S1x14) S1x14.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x14.size a ≤ S1x14.size a
  hwx0_22 : ∀ i : grid0.Coords, EltTy.bits .f32 = 32 ∨ (Rect.block (s := S1x14) S1x14.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S13x13.size a ≤ S13x13.size a
  hwx0_23 : ∀ i : grid0.Coords, EltTy.bits .f32 = 32 ∨ (Rect.block (s := S13x13) S13x13.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x13.size a ≤ S1x13.size a
  hwx0_24 : ∀ i : grid0.Coords, EltTy.bits .f32 = 32 ∨ (Rect.block (s := S1x13) S1x13.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S13x13.size a ≤ S13x13.size a
  hwx0_25 : ∀ i : grid0.Coords, EltTy.bits .f32 = 32 ∨ (Rect.block (s := S13x13) S13x13.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x13.size a ≤ S1x13.size a
  hwx0_26 : ∀ i : grid0.Coords, EltTy.bits .f32 = 32 ∨ (Rect.block (s := S1x13) S1x13.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S13x15.size a ≤ S13x15.size a
  hwx0_27 : ∀ i : grid0.Coords, EltTy.bits .f32 = 32 ∨ (Rect.block (s := S13x15) S13x15.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S13x14.size a ≤ S13x14.size a
  hwx0_28 : ∀ i : grid0.Coords, EltTy.bits .f32 = 32 ∨ (Rect.block (s := S13x14) S13x14.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S13x13.size a ≤ S13x13.size a
  hwx0_29 : ∀ i : grid0.Coords, EltTy.bits .f32 = 32 ∨ (Rect.block (s := S13x13) S13x13.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S1x13.size a ≤ S1x13.size a
  hwx0_30 : ∀ i : grid0.Coords, EltTy.bits .f32 = 32 ∨ (Rect.block (s := S1x13) S1x13.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S1x13.size a ≤ S1x13.size a
  hwx0_31 : ∀ i : grid0.Coords, EltTy.bits .f32 = 32 ∨ (Rect.block (s := S1x13) S1x13.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S1x13.size a ≤ S1x13.size a
  hwx0_32 : ∀ i : grid0.Coords, EltTy.bits .f32 = 32 ∨ (Rect.block (s := S1x13) S1x13.size (cc0_transform_32 i) (hinb0_32 i)).WholeWords (EltTy.packing .f32)
  hstage0_33 : ∀ j, (stage0_33 j).IsWhole
  nbuf0_33 : grid0.bufCount reads0_33 false = 2
  hreads0_33 : ∀ i i' : grid0.Coords, (∀ a, reads0_33 a = true → i a = i' a) → cc0_transform_33 i = cc0_transform_33 i'
  hinb0_33 : ∀ (i : grid0.Coords) a, (cc0_transform_33 i a + 1) * S2048x15.size a ≤ S2097152x15.size a
  hwx0_33 : ∀ i : grid0.Coords, EltTy.bits .f32 = 32 ∨ (Rect.block (s := S2097152x15) S2048x15.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S2048x14.size a ≤ S2097152x14.size a
  hwx0_34 : ∀ i : grid0.Coords, EltTy.bits .f32 = 32 ∨ (Rect.block (s := S2097152x14) S2048x14.size (cc0_transform_34 i) (hinb0_34 i)).WholeWords (EltTy.packing .f32)
  hstage0_35 : ∀ j, (stage0_35 j).IsWhole
  nbuf0_35 : grid0.bufCount reads0_35 false = 2
  hreads0_35 : ∀ i i' : grid0.Coords, (∀ a, reads0_35 a = true → i a = i' a) → cc0_transform_35 i = cc0_transform_35 i'
  hinb0_35 : ∀ (i : grid0.Coords) a, (cc0_transform_35 i a + 1) * S2048x13.size a ≤ S2097152x13.size a
  hwx0_35 : ∀ i : grid0.Coords, EltTy.bits .f32 = 32 ∨ (Rect.block (s := S2097152x13) S2048x13.size (cc0_transform_35 i) (hinb0_35 i)).WholeWords (EltTy.packing .f32)

variable [Facts₀]

def dot_S2048x15_S15x15_S2048x15_1_0_0_1_n_n : DotDims S2048x15 S15x15 S2048x15 where
  lhsContracting := [1]
  rhsContracting := [0]
  lhsNonContracting := [0]
  rhsNonContracting := [1]
  lhsBatch := []
  rhsBatch := []
  wf := dot_S2048x15_S15x15_S2048x15_1_0_0_1_n_n_wf
def dot_S2048x14_S14x15_S2048x15_1_0_0_1_n_n : DotDims S2048x14 S14x15 S2048x15 where
  lhsContracting := [1]
  rhsContracting := [0]
  lhsNonContracting := [0]
  rhsNonContracting := [1]
  lhsBatch := []
  rhsBatch := []
  wf := dot_S2048x14_S14x15_S2048x15_1_0_0_1_n_n_wf
def dot_S2048x13_S13x15_S2048x15_1_0_0_1_n_n : DotDims S2048x13 S13x15 S2048x15 where
  lhsContracting := [1]
  rhsContracting := [0]
  lhsNonContracting := [0]
  rhsNonContracting := [1]
  lhsBatch := []
  rhsBatch := []
  wf := dot_S2048x13_S13x15_S2048x15_1_0_0_1_n_n_wf
def dot_S2048x15_S15x14_S2048x14_1_0_0_1_n_n : DotDims S2048x15 S15x14 S2048x14 where
  lhsContracting := [1]
  rhsContracting := [0]
  lhsNonContracting := [0]
  rhsNonContracting := [1]
  lhsBatch := []
  rhsBatch := []
  wf := dot_S2048x15_S15x14_S2048x14_1_0_0_1_n_n_wf
def dot_S2048x14_S14x14_S2048x14_1_0_0_1_n_n : DotDims S2048x14 S14x14 S2048x14 where
  lhsContracting := [1]
  rhsContracting := [0]
  lhsNonContracting := [0]
  rhsNonContracting := [1]
  lhsBatch := []
  rhsBatch := []
  wf := dot_S2048x14_S14x14_S2048x14_1_0_0_1_n_n_wf
def dot_S2048x13_S13x14_S2048x14_1_0_0_1_n_n : DotDims S2048x13 S13x14 S2048x14 where
  lhsContracting := [1]
  rhsContracting := [0]
  lhsNonContracting := [0]
  rhsNonContracting := [1]
  lhsBatch := []
  rhsBatch := []
  wf := dot_S2048x13_S13x14_S2048x14_1_0_0_1_n_n_wf
def dot_S2048x15_S15x13_S2048x13_1_0_0_1_n_n : DotDims S2048x15 S15x13 S2048x13 where
  lhsContracting := [1]
  rhsContracting := [0]
  lhsNonContracting := [0]
  rhsNonContracting := [1]
  lhsBatch := []
  rhsBatch := []
  wf := dot_S2048x15_S15x13_S2048x13_1_0_0_1_n_n_wf
def dot_S2048x14_S14x13_S2048x13_1_0_0_1_n_n : DotDims S2048x14 S14x13 S2048x13 where
  lhsContracting := [1]
  rhsContracting := [0]
  lhsNonContracting := [0]
  rhsNonContracting := [1]
  lhsBatch := []
  rhsBatch := []
  wf := dot_S2048x14_S14x13_S2048x13_1_0_0_1_n_n_wf
def dot_S2048x13_S13x13_S2048x13_1_0_0_1_n_n : DotDims S2048x13 S13x13 S2048x13 where
  lhsContracting := [1]
  rhsContracting := [0]
  lhsNonContracting := [0]
  rhsNonContracting := [1]
  lhsBatch := []
  rhsBatch := []
  wf := dot_S2048x13_S13x13_S2048x13_1_0_0_1_n_n_wf

abbrev win0_0 : Pipeline.Window sig grid0 :=
  Pipeline.Window.ofSpec (Memref.whole main_arg0) S2048x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S15x15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x15.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S15x15.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x15.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S15x15.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S15x14.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S15x13.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x15.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x15.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x15.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S14x14.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x14.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S14x14.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v17) S1x14.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v13) S14x15.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v14) S14x14.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v15) S14x13.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v16) S1x14.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v18) S1x14.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v19) S1x14.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v20) S13x13.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v22) S1x13.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg21) S13x13.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v27) S1x13.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v23) S13x15.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v24) S13x14.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v25) S13x13.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v26) S1x13.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v28) S1x13.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v29) S1x13.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v30_0) S2048x15.size cc0_transform_33 reads0_33 true false 2 stage0_33 sem0_33
    hrank0 hreads0_33 hinb0_33 nbuf0_33 (Memref.isWhole_whole _) hwx0_33 hstage0_33

abbrev win0_34 : Pipeline.Window sig grid0 :=
  Pipeline.Window.ofSpec (Memref.whole main_v30_1) S2048x14.size cc0_transform_34 reads0_34 true false 2 stage0_34 sem0_34
    hrank0 hreads0_34 hinb0_34 nbuf0_34 (Memref.isWhole_whole _) hwx0_34 hstage0_34

abbrev win0_35 : Pipeline.Window sig grid0 :=
  Pipeline.Window.ofSpec (Memref.whole main_v30_2) S2048x13.size cc0_transform_35 reads0_35 true false 2 stage0_35 sem0_35
    hrank0 hreads0_35 hinb0_35 nbuf0_35 (Memref.isWhole_whole _) hwx0_35 hstage0_35

abbrev win0 : Fin 36 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | ⟨_ + 36, h⟩ => absurd h (Nat.not_lt.2 (Nat.le_add_left _ _))
abbrev spec0 : Fin 36 → Pipeline.WinSpec sig grid0.rank := fun w => (win0 w).toWinSpec

class Facts : Prop extends Facts₀ where

variable [Facts]
-- ==== ReferenceIdeal.lean ====
abbrev S2097152x15 : Shape := ⟨2, ![2097152, 15]⟩
abbrev S2097152x14 : Shape := ⟨2, ![2097152, 14]⟩
abbrev S2097152x13 : Shape := ⟨2, ![2097152, 13]⟩
abbrev S45x15 : Shape := ⟨2, ![45, 15]⟩
abbrev S45 : Shape := ⟨1, ![45]⟩
abbrev S15x15 : Shape := ⟨2, ![15, 15]⟩
abbrev S15 : Shape := ⟨1, ![15]⟩
abbrev S15x42 : Shape := ⟨2, ![15, 42]⟩
abbrev S42x14 : Shape := ⟨2, ![42, 14]⟩
abbrev S42 : Shape := ⟨1, ![42]⟩
abbrev S14x14 : Shape := ⟨2, ![14, 14]⟩
abbrev S14 : Shape := ⟨1, ![14]⟩
abbrev S14x42 : Shape := ⟨2, ![14, 42]⟩
abbrev S39x13 : Shape := ⟨2, ![39, 13]⟩
abbrev S39 : Shape := ⟨1, ![39]⟩
abbrev S13x13 : Shape := ⟨2, ![13, 13]⟩
abbrev S13 : Shape := ⟨1, ![13]⟩
abbrev S13x42 : Shape := ⟨2, ![13, 42]⟩
abbrev S2097152x42 : Shape := ⟨2, ![2097152, 42]⟩
abbrev S42x15 : Shape := ⟨2, ![42, 15]⟩
abbrev S1x15 : Shape := ⟨2, ![1, 15]⟩
abbrev S_ : Shape := ⟨0, ![]⟩
abbrev S2097152 : Shape := ⟨1, ![2097152]⟩
abbrev S2097152x1 : Shape := ⟨2, ![2097152, 1]⟩
abbrev S1x14 : Shape := ⟨2, ![1, 14]⟩
abbrev S42x13 : Shape := ⟨2, ![42, 13]⟩
abbrev S1x13 : Shape := ⟨2, ![1, 13]⟩

abbrev nBuf : Space → Nat
  | .hbm => 169
  | .vmem => 0
  | .smem => 0
  | _ => 0

abbrev hbmTy0_0 (i : Nat) : BufTy := match i % 128 with
  | 0 => ⟨S2097152x15, .f32⟩
  | 1 => ⟨S2097152x14, .f32⟩
  | 2 => ⟨S2097152x13, .f32⟩
  | 3 => ⟨S45x15, .f32⟩
  | 4 => ⟨S45, .f32⟩
  | 5 => ⟨S15x15, .f32⟩
  | 6 => ⟨S15, .f32⟩
  | 7 => ⟨S15x42, .f32⟩
  | 8 => ⟨S15, .f32⟩
  | 9 => ⟨S15, .f32⟩
  | 10 => ⟨S15, .f32⟩
  | 11 => ⟨S42x14, .f32⟩
  | 12 => ⟨S42, .f32⟩
  | 13 => ⟨S14x14, .f32⟩
  | 14 => ⟨S14, .f32⟩
  | 15 => ⟨S14x42, .f32⟩
  | 16 => ⟨S14, .f32⟩
  | 17 => ⟨S14, .f32⟩
  | 18 => ⟨S14, .f32⟩
  | 19 => ⟨S39x13, .f32⟩
  | 20 => ⟨S39, .f32⟩
  | 21 => ⟨S13x13, .f32⟩
  | 22 => ⟨S13, .f32⟩
  | 23 => ⟨S13x42, .f32⟩
  | 24 => ⟨S13, .f32⟩
  | 25 => ⟨S13, .f32⟩
  | 26 => ⟨S13, .f32⟩
  | 27 => ⟨S2097152x42, .f32⟩
  | 28 => ⟨S42x15, .f32⟩
  | 29 => ⟨S2097152x15, .f32⟩
  | 30 => ⟨S1x15, .f32⟩
  | 31 => ⟨S2097152x15, .f32⟩
  | 32 => ⟨S2097152x15, .f32⟩
  | 33 => ⟨S15x15, .f32⟩
  | 34 => ⟨S15, .f32⟩
  | 35 => ⟨S15x15, .f32⟩
  | 36 => ⟨S2097152x15, .f32⟩
  | 37 => ⟨S1x15, .f32⟩
  | 38 => ⟨S2097152x15, .f32⟩
  | 39 => ⟨S2097152x15, .f32⟩
  | 40 => ⟨S15x15, .f32⟩
  | 41 => ⟨S2097152x15, .f32⟩
  | 42 => ⟨S1x15, .f32⟩
  | 43 => ⟨S2097152x15, .f32⟩
  | 44 => ⟨S2097152x15, .f32⟩
  | 45 => ⟨S2097152x15, .f32⟩
  | 46 => ⟨S_, .f32⟩
  | 47 => ⟨S2097152, .f32⟩
  | 48 => ⟨S2097152x1, .f32⟩
  | 49 => ⟨S_, .f32⟩
  | 50 => ⟨S2097152x1, .f32⟩
  | 51 => ⟨S2097152x1, .f32⟩
  | 52 => ⟨S2097152x15, .f32⟩
  | 53 => ⟨S2097152x15, .f32⟩
  | 54 => ⟨S2097152x15, .f32⟩
  | 55 => ⟨S_, .f32⟩
  | 56 => ⟨S2097152, .f32⟩
  | 57 => ⟨S2097152x1, .f32⟩
  | 58 => ⟨S_, .f32⟩
  | 59 => ⟨S2097152x1, .f32⟩
  | 60 => ⟨S2097152x1, .f32⟩
  | 61 => ⟨S2097152x15, .f32⟩
  | 62 => ⟨S2097152x15, .f32⟩
  | 63 => ⟨S_, .f32⟩
  | 64 => ⟨S2097152x1, .f32⟩
  | 65 => ⟨S2097152x1, .f32⟩
  | 66 => ⟨S2097152x1, .f32⟩
  | 67 => ⟨S2097152x15, .f32⟩
  | 68 => ⟨S2097152x15, .f32⟩
  | 69 => ⟨S1x15, .f32⟩
  | 70 => ⟨S2097152x15, .f32⟩
  | 71 => ⟨S2097152x15, .f32⟩
  | 72 => ⟨S1x15, .f32⟩
  | 73 => ⟨S2097152x15, .f32⟩
  | 74 => ⟨S2097152x15, .f32⟩
  | 75 => ⟨S42x14, .f32⟩
  | 76 => ⟨S2097152x14, .f32⟩
  | 77 => ⟨S1x14, .f32⟩
  | 78 => ⟨S2097152x14, .f32⟩
  | 79 => ⟨S2097152x14, .f32⟩
  | 80 => ⟨S14x14, .f32⟩
  | 81 => ⟨S14, .f32⟩
  | 82 => ⟨S14x14, .f32⟩
  | 83 => ⟨S2097152x14, .f32⟩
  | 84 => ⟨S1x14, .f32⟩
  | 85 => ⟨S2097152x14, .f32⟩
  | 86 => ⟨S2097152x14, .f32⟩
  | 87 => ⟨S14x14, .f32⟩
  | 88 => ⟨S2097152x14, .f32⟩
  | 89 => ⟨S1x14, .f32⟩
  | 90 => ⟨S2097152x14, .f32⟩
  | 91 => ⟨S2097152x14, .f32⟩
  | 92 => ⟨S2097152x14, .f32⟩
  | 93 => ⟨S_, .f32⟩
  | 94 => ⟨S2097152, .f32⟩
  | 95 => ⟨S2097152x1, .f32⟩
  | 96 => ⟨S_, .f32⟩
  | 97 => ⟨S2097152x1, .f32⟩
  | 98 => ⟨S2097152x1, .f32⟩
  | 99 => ⟨S2097152x14, .f32⟩
  | 100 => ⟨S2097152x14, .f32⟩
  | 101 => ⟨S2097152x14, .f32⟩
  | 102 => ⟨S_, .f32⟩
  | 103 => ⟨S2097152, .f32⟩
  | 104 => ⟨S2097152x1, .f32⟩
  | 105 => ⟨S_, .f32⟩
  | 106 => ⟨S2097152x1, .f32⟩
  | 107 => ⟨S2097152x1, .f32⟩
  | 108 => ⟨S2097152x14, .f32⟩
  | 109 => ⟨S2097152x14, .f32⟩
  | 110 => ⟨S_, .f32⟩
  | 111 => ⟨S2097152x1, .f32⟩
  | 112 => ⟨S2097152x1, .f32⟩
  | 113 => ⟨S2097152x1, .f32⟩
  | 114 => ⟨S2097152x14, .f32⟩
  | 115 => ⟨S2097152x14, .f32⟩
  | 116 => ⟨S1x14, .f32⟩
  | 117 => ⟨S2097152x14, .f32⟩
  | 118 => ⟨S2097152x14, .f32⟩
  | 119 => ⟨S1x14, .f32⟩
  | 120 => ⟨S2097152x14, .f32⟩
  | 121 => ⟨S2097152x14, .f32⟩
  | 122 => ⟨S42x13, .f32⟩
  | 123 => ⟨S2097152x13, .f32⟩
  | 124 => ⟨S1x13, .f32⟩
  | 125 => ⟨S2097152x13, .f32⟩
  | 126 => ⟨S2097152x13, .f32⟩
  | 127 => ⟨S13x13, .f32⟩
  | _ => ⟨S2097152x15, .f32⟩

abbrev hbmTy0_1 (i : Nat) : BufTy := match i % 128 with
  | 0 => ⟨S13, .f32⟩
  | 1 => ⟨S13x13, .f32⟩
  | 2 => ⟨S2097152x13, .f32⟩
  | 3 => ⟨S1x13, .f32⟩
  | 4 => ⟨S2097152x13, .f32⟩
  | 5 => ⟨S2097152x13, .f32⟩
  | 6 => ⟨S13x13, .f32⟩
  | 7 => ⟨S2097152x13, .f32⟩
  | 8 => ⟨S1x13, .f32⟩
  | 9 => ⟨S2097152x13, .f32⟩
  | 10 => ⟨S2097152x13, .f32⟩
  | 11 => ⟨S2097152x13, .f32⟩
  | 12 => ⟨S_, .f32⟩
  | 13 => ⟨S2097152, .f32⟩
  | 14 => ⟨S2097152x1, .f32⟩
  | 15 => ⟨S_, .f32⟩
  | 16 => ⟨S2097152x1, .f32⟩
  | 17 => ⟨S2097152x1, .f32⟩
  | 18 => ⟨S2097152x13, .f32⟩
  | 19 => ⟨S2097152x13, .f32⟩
  | 20 => ⟨S2097152x13, .f32⟩
  | 21 => ⟨S_, .f32⟩
  | 22 => ⟨S2097152, .f32⟩
  | 23 => ⟨S2097152x1, .f32⟩
  | 24 => ⟨S_, .f32⟩
  | 25 => ⟨S2097152x1, .f32⟩
  | 26 => ⟨S2097152x1, .f32⟩
  | 27 => ⟨S2097152x13, .f32⟩
  | 28 => ⟨S2097152x13, .f32⟩
  | 29 => ⟨S_, .f32⟩
  | 30 => ⟨S2097152x1, .f32⟩
  | 31 => ⟨S2097152x1, .f32⟩
  | 32 => ⟨S2097152x1, .f32⟩
  | 33 => ⟨S2097152x13, .f32⟩
  | 34 => ⟨S2097152x13, .f32⟩
  | 35 => ⟨S1x13, .f32⟩
  | 36 => ⟨S2097152x13, .f32⟩
  | 37 => ⟨S2097152x13, .f32⟩
  | 38 => ⟨S1x13, .f32⟩
  | 39 => ⟨S2097152x13, .f32⟩
  | 40 => ⟨S2097152x13, .f32⟩
  | _ => ⟨S2097152x15, .f32⟩

abbrev hbmTy (i : Nat) : BufTy := match i / 128 with
  | 0 => hbmTy0_0 i
  | 1 => hbmTy0_1 i
  | _ => ⟨S2097152x15, .f32⟩

abbrev bufTy : (tb : Table) → Fin (tcTables nBuf tb) → BufTy
  | .hbm, ⟨i, _⟩ => hbmTy i
  | _, _ => ⟨S2097152x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst : Ref sig .tc := ⟨.hbm, 46, rfl⟩
abbrev main_v19 : Ref sig .tc := ⟨.hbm, 47, rfl⟩
abbrev main_v20 : Ref sig .tc := ⟨.hbm, 48, rfl⟩
abbrev main_cst_0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_1 : Ref sig .tc := ⟨.hbm, 55, rfl⟩
abbrev main_v26 : Ref sig .tc := ⟨.hbm, 56, rfl⟩
abbrev main_v27 : Ref sig .tc := ⟨.hbm, 57, rfl⟩
abbrev main_cst_2 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_4 : Ref sig .tc := ⟨.hbm, 93, rfl⟩
abbrev main_v61 : Ref sig .tc := ⟨.hbm, 94, rfl⟩
abbrev main_v62 : Ref sig .tc := ⟨.hbm, 95, rfl⟩
abbrev main_cst_5 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_6 : Ref sig .tc := ⟨.hbm, 102, rfl⟩
abbrev main_v68 : Ref sig .tc := ⟨.hbm, 103, rfl⟩
abbrev main_v69 : Ref sig .tc := ⟨.hbm, 104, rfl⟩
abbrev main_cst_7 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_8 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_9 : Ref sig .tc := ⟨.hbm, 140, rfl⟩
abbrev main_v103 : Ref sig .tc := ⟨.hbm, 141, rfl⟩
abbrev main_v104 : Ref sig .tc := ⟨.hbm, 142, rfl⟩
abbrev main_cst_10 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_11 : Ref sig .tc := ⟨.hbm, 149, rfl⟩
abbrev main_v110 : Ref sig .tc := ⟨.hbm, 150, rfl⟩
abbrev main_v111 : Ref sig .tc := ⟨.hbm, 151, rfl⟩
abbrev main_cst_12 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_13 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩

abbrev nD : Nat := 1
abbrev τ : Topo := Topo.v7x

variable {F : FTy → Type} [FloatOps F]

class Facts₀ : Prop where
  concatenates_S2097152x15_S2097152x14_S2097152x13_S2097152x42_d1 : Shape.Concatenates [S2097152x15, S2097152x14, S2097152x13] S2097152x42 1
  transposes_S15x42_S42x15_1_0 : S15x42.Transposes [1, 0] S42x15
  bcast_S15_S1x15_1 : S15.BroadcastsInDim S1x15 (![1] : Fin 1 → Fin S1x15.rank)
  bcast_S1x15_S2097152x15_0_1 : S1x15.BroadcastsInDim S2097152x15 (![0, 1] : Fin 2 → Fin S2097152x15.rank)
  slices_S45x15_S15x15_30_0 : S45x15.Slices ![30, 0] S15x15
  slices_S45_S15_30 : S45.Slices ![30] S15
  transposes_S15x15_S15x15_1_0 : S15x15.Transposes [1, 0] S15x15
  reducesTo_S2097152x15_S2097152_d1 : S2097152x15.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x15_0_1 : S2097152x1.BroadcastsInDim S2097152x15 (![0, 1] : Fin 2 → Fin S2097152x15.rank)
  transposes_S14x42_S42x14_1_0 : S14x42.Transposes [1, 0] S42x14
  bcast_S14_S1x14_1 : S14.BroadcastsInDim S1x14 (![1] : Fin 1 → Fin S1x14.rank)
  bcast_S1x14_S2097152x14_0_1 : S1x14.BroadcastsInDim S2097152x14 (![0, 1] : Fin 2 → Fin S2097152x14.rank)
  slices_S42x14_S14x14_28_0 : S42x14.Slices ![28, 0] S14x14
  slices_S42_S14_28 : S42.Slices ![28] S14
  transposes_S14x14_S14x14_1_0 : S14x14.Transposes [1, 0] S14x14
  reducesTo_S2097152x14_S2097152_d1 : S2097152x14.ReducesTo [1] S2097152
  bcast_S2097152x1_S2097152x14_0_1 : S2097152x1.BroadcastsInDim S2097152x14 (![0, 1] : Fin 2 → Fin S2097152x14.rank)
  transposes_S13x42_S42x13_1_0 : S13x42.Transposes [1, 0] S42x13
  bcast_S13_S1x13_1 : S13.BroadcastsInDim S1x13 (![1] : Fin 1 → Fin S1x13.rank)
  bcast_S1x13_S2097152x13_0_1 : S1x13.BroadcastsInDim S2097152x13 (![0, 1] : Fin 2 → Fin S2097152x13.rank)
  slices_S39x13_S13x13_26_0 : S39x13.Slices ![26, 0] S13x13
  slices_S39_S13_26 : S39.Slices ![26] S13
  transposes_S13x13_S13x13_1_0 : S13x13.Transposes [1, 0] S13x13
  reducesTo_S2097152x13_S2097152_d1 : S2097152x13.ReducesTo [1] S2097152
  bcast_S2097152x1_S2097152x13_0_1 : S2097152x1.BroadcastsInDim S2097152x13 (![0, 1] : Fin 2 → Fin S2097152x13.rank)
  dot_S2097152x42_S42x15_S2097152x15_1_0_0_1_n_n_wf : DotDims.WF S2097152x42 S42x15 S2097152x15 [1] [0] [0] [1] [] []
  dot_S2097152x15_S15x15_S2097152x15_1_0_0_1_n_n_wf : DotDims.WF S2097152x15 S15x15 S2097152x15 [1] [0] [0] [1] [] []
  dot_S2097152x42_S42x14_S2097152x14_1_0_0_1_n_n_wf : DotDims.WF S2097152x42 S42x14 S2097152x14 [1] [0] [0] [1] [] []
  dot_S2097152x14_S14x14_S2097152x14_1_0_0_1_n_n_wf : DotDims.WF S2097152x14 S14x14 S2097152x14 [1] [0] [0] [1] [] []
  dot_S2097152x42_S42x13_S2097152x13_1_0_0_1_n_n_wf : DotDims.WF S2097152x42 S42x13 S2097152x13 [1] [0] [0] [1] [] []
  dot_S2097152x13_S13x13_S2097152x13_1_0_0_1_n_n_wf : DotDims.WF S2097152x13 S13x13 S2097152x13 [1] [0] [0] [1] [] []

variable [Facts₀]

def dot_S2097152x42_S42x15_S2097152x15_1_0_0_1_n_n : DotDims S2097152x42 S42x15 S2097152x15 where
  lhsContracting := [1]
  rhsContracting := [0]
  lhsNonContracting := [0]
  rhsNonContracting := [1]
  lhsBatch := []
  rhsBatch := []
  wf := dot_S2097152x42_S42x15_S2097152x15_1_0_0_1_n_n_wf
def dot_S2097152x15_S15x15_S2097152x15_1_0_0_1_n_n : DotDims S2097152x15 S15x15 S2097152x15 where
  lhsContracting := [1]
  rhsContracting := [0]
  lhsNonContracting := [0]
  rhsNonContracting := [1]
  lhsBatch := []
  rhsBatch := []
  wf := dot_S2097152x15_S15x15_S2097152x15_1_0_0_1_n_n_wf
def dot_S2097152x42_S42x14_S2097152x14_1_0_0_1_n_n : DotDims S2097152x42 S42x14 S2097152x14 where
  lhsContracting := [1]
  rhsContracting := [0]
  lhsNonContracting := [0]
  rhsNonContracting := [1]
  lhsBatch := []
  rhsBatch := []
  wf := dot_S2097152x42_S42x14_S2097152x14_1_0_0_1_n_n_wf
def dot_S2097152x14_S14x14_S2097152x14_1_0_0_1_n_n : DotDims S2097152x14 S14x14 S2097152x14 where
  lhsContracting := [1]
  rhsContracting := [0]
  lhsNonContracting := [0]
  rhsNonContracting := [1]
  lhsBatch := []
  rhsBatch := []
  wf := dot_S2097152x14_S14x14_S2097152x14_1_0_0_1_n_n_wf
def dot_S2097152x42_S42x13_S2097152x13_1_0_0_1_n_n : DotDims S2097152x42 S42x13 S2097152x13 where
  lhsContracting := [1]
  rhsContracting := [0]
  lhsNonContracting := [0]
  rhsNonContracting := [1]
  lhsBatch := []
  rhsBatch := []
  wf := dot_S2097152x42_S42x13_S2097152x13_1_0_0_1_n_n_wf
def dot_S2097152x13_S13x13_S2097152x13_1_0_0_1_n_n : DotDims S2097152x13 S13x13 S2097152x13 where
  lhsContracting := [1]
  rhsContracting := [0]
  lhsNonContracting := [0]
  rhsNonContracting := [1]
  lhsBatch := []
  rhsBatch := []
  wf := dot_S2097152x13_S13x13_S2097152x13_1_0_0_1_n_n_wf

class Facts : Prop extends Facts₀ where

variable [Facts]
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibDenseRow.lean ====
/-
  A dense layer on one row of features, and its two spellings read at an entry.

  `denseRow x w b` is the affine image of a row `x` of `K` features under a `K x N` weight matrix `w` and a bias
  `b` of `N` entries: lane `c` holds the sum over `k` of `x k * w k c`, plus `b c`, on the extended reals.

  Two programs spell it differently.
  * A kernel multiplies a block `[B, K]` by the weights `[K, N]` in the matrix unit, into the zero accumulator, and
    adds a bias kept as one row `[1, N]` broadcast down the `B` rows.
  * A host program contracts `[B, K]` with `[K, N]` and adds a flat bias `[N]` laid first as a row `[1, N]` and
    then down the `B` rows.
  Row `p` of either result is `denseRow` of row `p` of the left operand: no entry of another row enters it. The
  products' dimension records enter only through how they place coordinates (the left operand read at (row, k), the
  right one at (k, column)); those placement facts are hypotheses, so the lemmas serve any record of that pattern.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«137668_j54631984005204_1_alg».proof.Proof.LibPlainMatmul
import proofs.«137668_j54631984005204_1_alg».proof.Proof.LibHostRowOps
import proofs.«137668_j54631984005204_1_alg».proof.Proof.LibRowBias

noncomputable section

open scoped BigOperators

namespace Cert.DenseRow

open Idealize.ShloMosaic Idealize.ShloMosaic.ValueIdx

/-- The affine image of a row: lane `c` is the sum over `k` of `x k * w k c`, plus `b c`. -/
def denseRow {K N : Nat} (x : Fin K → EReal) (w : Fin K → Fin N → EReal) (b : Fin N → EReal) : Fin N → EReal :=
  fun c => (∑ k : Fin K, x k * w k c) + b c

variable {α : Type}

/-- A flat vector laid as a single row by the host's broadcast holds, in lane `j`, the vector's entry `j`. -/
theorem hostFlatRow_apply {n : Nat} (v : (⟨1, ![n]⟩ : Shape).Idx → α)
    (h : (⟨1, ![n]⟩ : Shape).BroadcastsInDim (⟨2, ![1, n]⟩ : Shape) ![1]) (j : Fin n) :
    broadcastInDim (⟨2, ![1, n]⟩ : Shape) ![1] h v (ix2 (0 : Fin 1) j) = v (ix1 j) :=
  broadcastInDim_apply _ h v (ix2 (0 : Fin 1) j) (ix1 j) (fun a => match a with
    | ⟨0, _⟩ => by
        show j.val = if n = 1 then 0 else j.val
        split
        · have := j.isLt; omega
        · rfl)

/-- A single row laid down `B` rows by the host's broadcast holds the row's lane `j` in lane `j` of every row. -/
theorem hostRowDown_apply {B n : Nat} (y : (⟨2, ![1, n]⟩ : Shape).Idx → α)
    (h : (⟨2, ![1, n]⟩ : Shape).BroadcastsInDim (⟨2, ![B, n]⟩ : Shape) ![0, 1]) (p : Fin B) (j : Fin n) :
    broadcastInDim (⟨2, ![B, n]⟩ : Shape) ![0, 1] h y (ix2 p j) = y (ix2 (0 : Fin 1) j) :=
  broadcastInDim_apply _ h y (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

/-- The kernel's spelling: a matrix-unit product into the zero accumulator plus a bias row broadcast down the rows, read
    at entry `(p, c)`, is lane `c` of `denseRow` of row `p` of the left operand. -/
theorem kernelDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul D prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c := by
  show matmul D prec l r (constant (F := Ideal) (⟨2, ![B, N]⟩ : Shape) .f32 0x00000000#32) (ix2 p c)
      + broadcastTo (⟨2, ![B, N]⟩ : Shape) bias hb (ix2 p c) = _
  rw [Cert.PlainMatmul.matmul_zero_apply D hr hs hl0 hl1 hr0 hr1 prec l r p c, Cert.RowBias.bcastRow_apply bias hb p c]
  rfl

/-- The host's spelling: a contraction plus a flat bias laid as a row and then down the rows, read at entry `(p, c)`,
    is lane `c` of `denseRow` of row `p` of the left operand. -/
theorem hostDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) D prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c := by
  show Host.dotGeneral (F := Ideal) D prec l r (ix2 p c)
      + broadcastInDim (⟨2, ![B, N]⟩ : Shape) ![0, 1] h2 (broadcastInDim (⟨2, ![1, N]⟩ : Shape) ![1] h1 bias) (ix2 p c) = _
  rw [Cert.HostRowOps.hostDot_apply D hr hs hl0 hl1 hr0 hr1 prec l r p c, hostRowDown_apply _ h2 p c,
    hostFlatRow_apply bias h1 c]
  rfl

/-! ## The plain product `M x K` by `K x N`

  The library's record `DotDims.plain M K N` contracts the left operand's axis 1 with the right operand's axis 0 and has no
  batch axes. Its placement facts hold whatever the extents are, so the two spellings above need no hypotheses for it. A
  printed record with the same six lists is this record. -/

section Plain

variable (M K N : Nat)

theorem plain_rank : (DotDims.plain M K N).contr.rank = 1 := rfl

theorem plain_size : (DotDims.plain M K N).contr.size ⟨0, by rw [plain_rank]; exact Nat.one_pos⟩ = K := rfl

theorem plain_lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

theorem plain_rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

end Plain

/-- The kernel's spelling of a dense layer over the plain product. -/
theorem kernelDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul (DotDims.plain B K N) prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c :=
  kernelDense_apply (DotDims.plain B K N) (plain_rank B K N) (plain_size B K N) (plain_lhs0 B K N) (plain_lhs1 B K N)
    (plain_rhs0 B K N) (plain_rhs1 B K N) prec l r bias hb p c

/-- The host's spelling of a dense layer over the plain product. -/
theorem hostDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c :=
  hostDense_apply (DotDims.plain B K N) (plain_rank B K N) (plain_size B K N) (plain_lhs0 B K N) (plain_lhs1 B K N)
    (plain_rhs0 B K N) (plain_rhs1 B K N) prec l r bias h1 h2 p c

end Cert.DenseRow

end
-- ==== Proof.LibNormRow.lean ====
/-
  Rows through affine layers and a layer normalisation, read at an entry.

  A row-wise network keeps each weight matrix as `[N, K]` (one row per output lane) and multiplies a row of `K` features
  by its transpose; it adds a bias lane by lane; and it normalises a row: it subtracts the row's mean, divides by the
  square root of the row's variance plus a small constant, scales lane by lane and shifts lane by lane. On the exact
  extended reals each of these is a function of ONE row: no entry of another row enters it.

  * `projT x w` — lane `c` is the sum over `k` of `x k * w c k`.
  * `lnRow d e y g b` — lane `q` is `(y q - mean) * rsqrt (var + e) * g q + b q`, the mean the row's sum divided by `d`,
    the variance the sum of the squared deviations divided by `d`.

  A kernel spells them with the matrix unit, the vector unit's lane sum, casts between `[B]` and `[B, 1]` and
  broadcasts along the lanes; a host program with `dot_general`, its own sum (which starts from an initial value),
  and `broadcast_in_dim`. Both spellings read at entry `(p, q)` are the same function of row `p`. A host program may
  also contract against the join of three arrays along the lanes where a kernel adds three products: the sum over the
  joined lanes is the three sums added. Slices of a weight array are read at the sliced coordinates.

  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«137668_j54631984005204_1_alg».proof.Proof.LibPlainMatmul
import proofs.«137668_j54631984005204_1_alg».proof.Proof.LibHostRowOps
import proofs.«137668_j54631984005204_1_alg».proof.Proof.LibRowBias
import proofs.«137668_j54631984005204_1_alg».proof.Proof.LibRowLayout
import proofs.«137668_j54631984005204_1_alg».proof.Proof.LibDenseRow

noncomputable section

open scoped BigOperators

namespace Cert.NormRow

open Idealize.ShloMosaic Idealize.ShloMosaic.ValueIdx

variable {α : Type}

/-! ## The two row functions -/

/-- A row of `K` features against the transpose of an `[N, K]` weight matrix: lane `c` is the sum over `k` of
    `x k * w c k`. -/
def projT {K N : Nat} (x : Fin K → EReal) (w : Fin N → Fin K → EReal) : Fin N → EReal :=
  fun c => ∑ k : Fin K, x k * w c k

/-- The layer normalisation of a row `y`, with the count `d`, the stabiliser `e`, the scale `g` and the shift `b`. -/
def lnRow {n : Nat} (d e : EReal) (y g b : Fin n → EReal) : Fin n → EReal :=
  fun q => (y q - Ideal.div (∑ k : Fin n, y k) d)
      * Ideal.rsqrt (Ideal.div (∑ k : Fin n, (y k - Ideal.div (∑ j : Fin n, y j) d) * (y k - Ideal.div (∑ j : Fin n, y j) d)) d + e)
      * g q + b q

/-! ## Layouts read at an entry -/

/-- A matrix kept as `[N, K]` and used transposed: entry `(k, c)` of the transpose is entry `(c, k)`. -/
theorem transposeMat_apply {N K : Nat} (w : (⟨2, ![N, K]⟩ : Shape).Idx → α)
    (h : (⟨2, ![N, K]⟩ : Shape).Transposes [1, 0] (⟨2, ![K, N]⟩ : Shape)) (k : Fin K) (c : Fin N) :
    transpose (⟨2, ![K, N]⟩ : Shape) [1, 0] w h (ix2 k c) = w (ix2 c k) :=
  transpose_apply [1, 0] w h (ix2 k c) (ix2 c k) (fun b => match b with
    | ⟨0, _⟩ => rfl
    | ⟨1, _⟩ => rfl)

/-- Rows `off ..` of a matrix: entry `(c, k)` of the slice is entry `(c', k)`, `c'` the row `off + c`. -/
theorem sliceRows_apply {R N K : Nat} (off : Nat) (x : (⟨2, ![R, K]⟩ : Shape).Idx → α)
    (h : Shape.Slices (⟨2, ![R, K]⟩ : Shape) ![off, 0] (⟨2, ![N, K]⟩ : Shape)) (c : Fin N) (k : Fin K)
    (c' : Fin R) (hc : c'.val = off + c.val) :
    extractStridedSlice (⟨2, ![N, K]⟩ : Shape) ![off, 0] x h (ix2 c k) = x (ix2 c' k) :=
  extractStridedSlice_apply ![off, 0] x h (ix2 c k) (ix2 c' k) (fun a => match a with
    | ⟨0, _⟩ => hc
    | ⟨1, _⟩ => by show k.val = 0 + k.val; omega)

/-- Lanes `off ..` of a matrix: entry `(c, k)` of the slice is entry `(c, k')`, `k'` the lane `off + k`. -/
theorem sliceCols_apply {N K n : Nat} (off : Nat) (x : (⟨2, ![N, K]⟩ : Shape).Idx → α)
    (h : Shape.Slices (⟨2, ![N, K]⟩ : Shape) ![0, off] (⟨2, ![N, n]⟩ : Shape)) (c : Fin N) (k : Fin n)
    (k' : Fin K) (hk : k'.val = off + k.val) :
    extractStridedSlice (⟨2, ![N, n]⟩ : Shape) ![0, off] x h (ix2 c k) = x (ix2 c k') :=
  extractStridedSlice_apply ![0, off] x h (ix2 c k) (ix2 c k') (fun a => match a with
    | ⟨0, _⟩ => by show c.val = 0 + c.val; omega
    | ⟨1, _⟩ => hk)

/-- Entries `off ..` of a flat vector. -/
theorem sliceFlat_apply {R N : Nat} (off : Nat) (x : (⟨1, ![R]⟩ : Shape).Idx → α)
    (h : Shape.Slices (⟨1, ![R]⟩ : Shape) ![off] (⟨1, ![N]⟩ : Shape)) (c : Fin N) (c' : Fin R) (hc : c'.val = off + c.val) :
    extractStridedSlice (⟨1, ![N]⟩ : Shape) ![off] x h (ix1 c) = x (ix1 c') :=
  extractStridedSlice_apply ![off] x h (ix1 c) (ix1 c') (fun a => match a with
    | ⟨0, _⟩ => hc)

/-- A bias kept as one row `[1, N]` (cast to its own shape) and broadcast down the rows: lane `c` of every row. -/
theorem kernelBias_apply {B N : Nat} (b : (⟨2, ![1, N]⟩ : Shape).Idx → α)
    (hsc : Shape.ShapeCasts (⟨2, ![1, N]⟩ : Shape) (⟨2, ![1, N]⟩ : Shape))
    (hb : Shape.Broadcasts (⟨2, ![1, N]⟩ : Shape) (⟨2, ![B, N]⟩ : Shape)) (p : Fin B) (c : Fin N) :
    broadcastTo (⟨2, ![B, N]⟩ : Shape) (shapeCast (⟨2, ![1, N]⟩ : Shape) b hsc) hb (ix2 p c) = b (ix2 (0 : Fin 1) c) := by
  rw [Cert.RowBias.bcastRow_apply, shapeCast_self]

/-- A flat bias `[N]` laid as a row and then down the rows by the host: lane `c` of every row. -/
theorem hostBias_apply {B N : Nat} (b : (⟨1, ![N]⟩ : Shape).Idx → α)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    broadcastInDim (⟨2, ![B, N]⟩ : Shape) ![0, 1] h2 (broadcastInDim (⟨2, ![1, N]⟩ : Shape) ![1] h1 b) (ix2 p c) = b (ix1 c) :=
  (Cert.DenseRow.hostRowDown_apply _ h2 p c).trans (Cert.DenseRow.hostFlatRow_apply b h1 c)

/-- A flat vector `[B]` laid as a column `[B, 1]` by the host: row `p` holds entry `p`. -/
theorem hostFlatCol_apply {B : Nat} (v : (⟨1, ![B]⟩ : Shape).Idx → α)
    (h : (⟨1, ![B]⟩ : Shape).BroadcastsInDim (⟨2, ![B, 1]⟩ : Shape) ![0]) (p : Fin B) :
    broadcastInDim (⟨2, ![B, 1]⟩ : Shape) ![0] h v (ix2 p (0 : Fin 1)) = v (ix1 p) :=
  broadcastInDim_apply _ h v (ix2 p (0 : Fin 1)) (ix1 p) (fun a => match a with
    | ⟨0, _⟩ => by
        show p.val = if B = 1 then 0 else p.val
        split
        · have := p.isLt; omega
        · rfl)

/-- A scalar laid over a column `[B, 1]` by the host: every row holds it. -/
theorem hostScalarCol_apply {B : Nat} (v : (⟨0, ![]⟩ : Shape).Idx → α)
    (h : (⟨0, ![]⟩ : Shape).BroadcastsInDim (⟨2, ![B, 1]⟩ : Shape) ![]) (p : Fin B) :
    broadcastInDim (⟨2, ![B, 1]⟩ : Shape) ![] h v (ix2 p (0 : Fin 1)) = v (fun a => a.elim0) :=
  broadcastInDim_apply _ h v (ix2 p (0 : Fin 1)) (fun a => a.elim0) (fun a => a.elim0)

/-! ## A product with transposed weights -/

/-- The kernel's spelling: the matrix unit's product of a block `[B, K]` by the transpose of `[N, K]` weights into the zero
    accumulator, at entry `(p, c)`, is lane `c` of `projT` of row `p`. -/
theorem kernelProjT_apply {B K N : Nat} {φ₁ : FTy} (prec : Option ContractPrecision)
    (l : FVec Ideal (⟨2, ![B, K]⟩ : Shape) φ₁) (w : FVec Ideal (⟨2, ![N, K]⟩ : Shape) .f32)
    (htr : (⟨2, ![N, K]⟩ : Shape).Transposes [1, 0] (⟨2, ![K, N]⟩ : Shape)) (p : Fin B) (c : Fin N) :
    matmul (DotDims.plain B K N) prec l (transpose (⟨2, ![K, N]⟩ : Shape) [1, 0] w htr)
        (constant (F := Ideal) (⟨2, ![B, N]⟩ : Shape) .f32 0x00000000#32) (ix2 p c)
      = projT (fun k => l (ix2 p k)) (fun c k => w (ix2 c k)) c := by
  refine (Cert.PlainMatmul.matmul_zero_apply (DotDims.plain B K N) (Cert.DenseRow.plain_rank B K N)
    (Cert.DenseRow.plain_size B K N) (Cert.DenseRow.plain_lhs0 B K N) (Cert.DenseRow.plain_lhs1 B K N)
    (Cert.DenseRow.plain_rhs0 B K N) (Cert.DenseRow.plain_rhs1 B K N) prec l _ p c).trans ?_
  exact Finset.sum_congr rfl fun k _ => congrArg (l (ix2 p k) * ·) (transposeMat_apply w htr k c)

/-- The host's spelling: `dot_general` of `[B, K]` with the transpose of `[N, K]` weights, at entry `(p, c)`. -/
theorem hostProjT_apply {B K N : Nat} {φ₁ : FTy} (prec : Option ContractPrecision)
    (l : FVec Ideal (⟨2, ![B, K]⟩ : Shape) φ₁) (w : FVec Ideal (⟨2, ![N, K]⟩ : Shape) .f32)
    (htr : (⟨2, ![N, K]⟩ : Shape).Transposes [1, 0] (⟨2, ![K, N]⟩ : Shape)) (p : Fin B) (c : Fin N) :
    Host.dotGeneral (F := Ideal) (DotDims.plain B K N) prec l (transpose (⟨2, ![K, N]⟩ : Shape) [1, 0] w htr) (ix2 p c)
      = projT (fun k => l (ix2 p k)) (fun c k => w (ix2 c k)) c := by
  refine (Cert.HostRowOps.hostDot_apply (DotDims.plain B K N) (Cert.DenseRow.plain_rank B K N)
    (Cert.DenseRow.plain_size B K N) (Cert.DenseRow.plain_lhs0 B K N) (Cert.DenseRow.plain_lhs1 B K N)
    (Cert.DenseRow.plain_rhs0 B K N) (Cert.DenseRow.plain_rhs1 B K N) prec l _ p c).trans ?_
  exact Finset.sum_congr rfl fun k _ => congrArg (l (ix2 p k) * ·) (transposeMat_apply w htr k c)

/-! ## Three arrays joined along the lanes -/

section Join

variable {B n0 n1 n2 : Nat}

/-- A lane of the first of three joined arrays. -/
theorem join3_first (x0 : (⟨2, ![B, n0]⟩ : Shape).Idx → α) (x1 : (⟨2, ![B, n1]⟩ : Shape).Idx → α)
    (x2 : (⟨2, ![B, n2]⟩ : Shape).Idx → α)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2)) (p : Fin B) (k : Fin n0) :
    concatenate (⟨2, ![B, n0 + n1 + n2]⟩ : Shape) (1 : Fin 2)
        [⟨(⟨2, ![B, n0]⟩ : Shape), x0⟩, ⟨(⟨2, ![B, n1]⟩ : Shape), x1⟩, ⟨(⟨2, ![B, n2]⟩ : Shape), x2⟩] hc
        (ix2 p (Fin.castAdd n2 (Fin.castAdd n1 k))) = x0 (ix2 p k) :=
  concatenate_apply_piece (t := (⟨2, ![B, n0 + n1 + n2]⟩ : Shape)) (1 : Fin 2) [⟨(⟨2, ![B, n0]⟩ : Shape), x0⟩, ⟨(⟨2, ![B, n1]⟩ : Shape), x1⟩, ⟨(⟨2, ![B, n2]⟩ : Shape), x2⟩] hc
    (ix2 p (Fin.castAdd n2 (Fin.castAdd n1 k))) 0 (by simp) (⟨2, ![B, n0]⟩ : Shape) x0 rfl rfl 0 rfl (ix2 p k)
    (fun b => match b with
      | ⟨0, _⟩ => fun _ => rfl
      | ⟨1, _⟩ => fun hne => absurd (Fin.ext rfl) hne)
    (by show 0 + k.val = k.val; omega)

/-- A lane of the second. -/
theorem join3_second (x0 : (⟨2, ![B, n0]⟩ : Shape).Idx → α) (x1 : (⟨2, ![B, n1]⟩ : Shape).Idx → α)
    (x2 : (⟨2, ![B, n2]⟩ : Shape).Idx → α)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2)) (p : Fin B) (k : Fin n1) :
    concatenate (⟨2, ![B, n0 + n1 + n2]⟩ : Shape) (1 : Fin 2)
        [⟨(⟨2, ![B, n0]⟩ : Shape), x0⟩, ⟨(⟨2, ![B, n1]⟩ : Shape), x1⟩, ⟨(⟨2, ![B, n2]⟩ : Shape), x2⟩] hc
        (ix2 p (Fin.castAdd n2 (Fin.natAdd n0 k))) = x1 (ix2 p k) :=
  concatenate_apply_piece (t := (⟨2, ![B, n0 + n1 + n2]⟩ : Shape)) (1 : Fin 2) [⟨(⟨2, ![B, n0]⟩ : Shape), x0⟩, ⟨(⟨2, ![B, n1]⟩ : Shape), x1⟩, ⟨(⟨2, ![B, n2]⟩ : Shape), x2⟩] hc
    (ix2 p (Fin.castAdd n2 (Fin.natAdd n0 k))) 1 (by simp) (⟨2, ![B, n1]⟩ : Shape) x1 rfl rfl n0 (by simp) (ix2 p k)
    (fun b => match b with
      | ⟨0, _⟩ => fun _ => rfl
      | ⟨1, _⟩ => fun hne => absurd (Fin.ext rfl) hne)
    (by show n0 + k.val = n0 + k.val; rfl)

/-- A lane of the third. -/
theorem join3_third (x0 : (⟨2, ![B, n0]⟩ : Shape).Idx → α) (x1 : (⟨2, ![B, n1]⟩ : Shape).Idx → α)
    (x2 : (⟨2, ![B, n2]⟩ : Shape).Idx → α)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2)) (p : Fin B) (k : Fin n2) :
    concatenate (⟨2, ![B, n0 + n1 + n2]⟩ : Shape) (1 : Fin 2)
        [⟨(⟨2, ![B, n0]⟩ : Shape), x0⟩, ⟨(⟨2, ![B, n1]⟩ : Shape), x1⟩, ⟨(⟨2, ![B, n2]⟩ : Shape), x2⟩] hc
        (ix2 p (Fin.natAdd (n0 + n1) k)) = x2 (ix2 p k) :=
  concatenate_apply_piece (t := (⟨2, ![B, n0 + n1 + n2]⟩ : Shape)) (1 : Fin 2) [⟨(⟨2, ![B, n0]⟩ : Shape), x0⟩, ⟨(⟨2, ![B, n1]⟩ : Shape), x1⟩, ⟨(⟨2, ![B, n2]⟩ : Shape), x2⟩] hc
    (ix2 p (Fin.natAdd (n0 + n1) k)) 2 (by simp) (⟨2, ![B, n2]⟩ : Shape) x2 rfl rfl (n0 + n1) (by simp) (ix2 p k)
    (fun b => match b with
      | ⟨0, _⟩ => fun _ => rfl
      | ⟨1, _⟩ => fun hne => absurd (Fin.ext rfl) hne)
    (by show n0 + n1 + k.val = n0 + n1 + k.val; rfl)

/-- A row of the join against `[N, n0 + n1 + n2]` weights is the three rows against the three lane ranges of the
    weights, added: only the order and grouping of a finite sum changes. -/
theorem projT_join3 {N : Nat} (x0 : (⟨2, ![B, n0]⟩ : Shape).Idx → EReal) (x1 : (⟨2, ![B, n1]⟩ : Shape).Idx → EReal)
    (x2 : (⟨2, ![B, n2]⟩ : Shape).Idx → EReal)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2))
    (w : Fin N → Fin (n0 + n1 + n2) → EReal) (p : Fin B) (c : Fin N) :
    projT (fun k => concatenate (⟨2, ![B, n0 + n1 + n2]⟩ : Shape) (1 : Fin 2)
        [⟨(⟨2, ![B, n0]⟩ : Shape), x0⟩, ⟨(⟨2, ![B, n1]⟩ : Shape), x1⟩, ⟨(⟨2, ![B, n2]⟩ : Shape), x2⟩] hc (ix2 p k)) w c
      = (projT (fun k => x0 (ix2 p k)) (fun c k => w c (Fin.castAdd n2 (Fin.castAdd n1 k))) c
          + projT (fun k => x1 (ix2 p k)) (fun c k => w c (Fin.castAdd n2 (Fin.natAdd n0 k))) c)
        + projT (fun k => x2 (ix2 p k)) (fun c k => w c (Fin.natAdd (n0 + n1) k)) c := by
  unfold projT
  rw [Fin.sum_univ_add, Fin.sum_univ_add]
  simp only [join3_first, join3_second, join3_third]

end Join

/-! ## The layer normalisation of a row -/

/-- The kernel's column of row means: the lane sum cast to a column, divided by the count. -/
abbrev kernelMeanCol {B n : Nat} (y : FVec Ideal (⟨2, ![B, n]⟩ : Shape) .f32) (dw : BitVec 32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape)) : FVec Ideal (⟨2, ![B, 1]⟩ : Shape) .f32 :=
  divf (shapeCast (⟨2, ![B, 1]⟩ : Shape) (multiReduction .add [(1 : Fin 2)] (⟨1, ![B]⟩ : Shape) y 0x00000000#32 hred hφ hacc) hcast)
    (broadcast (⟨2, ![B, 1]⟩ : Shape) (Scalar.ofBits (F := Ideal) .f32 dw))

theorem kernelMeanCol_apply {B n : Nat} (y : FVec Ideal (⟨2, ![B, n]⟩ : Shape) .f32) (dw : BitVec 32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape)) (p : Fin B) :
    kernelMeanCol y dw hred hφ hacc hcast (ix2 p (0 : Fin 1))
      = Ideal.div (∑ k : Fin n, y (ix2 p k)) (Ideal.ofBits .f32 dw) := by
  show Ideal.div (shapeCast (⟨2, ![B, 1]⟩ : Shape) _ hcast (ix2 p (0 : Fin 1))) _ = _
  rw [Cert.RowLayout.castCol_apply, Cert.RowLayout.laneSum_apply]
  rfl

/-- THE KERNEL'S SPELLING of the layer normalisation, read at entry `(p, q)`: `lnRow` of row `p`. -/
theorem kernelLN_apply {B n : Nat} (y : FVec Ideal (⟨2, ![B, n]⟩ : Shape) .f32)
    (g b : FVec Ideal (⟨2, ![1, n]⟩ : Shape) .f32) (dw ew : BitVec 32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape))
    (hsc : Shape.ShapeCasts (⟨2, ![1, n]⟩ : Shape) (⟨2, ![1, n]⟩ : Shape))
    (hbr : Shape.Broadcasts (⟨2, ![1, n]⟩ : Shape) (⟨2, ![B, n]⟩ : Shape)) (p : Fin B) (q : Fin n) :
    addf (mulf (mulf
        (subf y (broadcastTo (⟨2, ![B, n]⟩ : Shape) (kernelMeanCol y dw hred hφ hacc hcast) hbc))
        (broadcastTo (⟨2, ![B, n]⟩ : Shape) (rsqrt (addf
          (divf (shapeCast (⟨2, ![B, 1]⟩ : Shape) (multiReduction .add [(1 : Fin 2)] (⟨1, ![B]⟩ : Shape)
              (mulf (subf y (broadcastTo (⟨2, ![B, n]⟩ : Shape) (kernelMeanCol y dw hred hφ hacc hcast) hbc))
                    (subf y (broadcastTo (⟨2, ![B, n]⟩ : Shape) (kernelMeanCol y dw hred hφ hacc hcast) hbc)))
              0x00000000#32 hred hφ hacc) hcast)
            (broadcast (⟨2, ![B, 1]⟩ : Shape) (Scalar.ofBits (F := Ideal) .f32 dw)))
          (broadcast (⟨2, ![B, 1]⟩ : Shape) (Scalar.ofBits (F := Ideal) .f32 ew)))) hbc))
        (broadcastTo (⟨2, ![B, n]⟩ : Shape) (shapeCast (⟨2, ![1, n]⟩ : Shape) g hsc) hbr))
      (broadcastTo (⟨2, ![B, n]⟩ : Shape) (shapeCast (⟨2, ![1, n]⟩ : Shape) b hsc) hbr) (ix2 p q)
      = lnRow (Ideal.ofBits .f32 dw) (Ideal.ofBits .f32 ew) (fun k => y (ix2 p k)) (fun k => g (ix2 (0 : Fin 1) k))
          (fun k => b (ix2 (0 : Fin 1) k)) q := by
  have hD : ∀ k : Fin n, subf y (broadcastTo (⟨2, ![B, n]⟩ : Shape) (kernelMeanCol y dw hred hφ hacc hcast) hbc) (ix2 p k)
      = y (ix2 p k) - Ideal.div (∑ j : Fin n, y (ix2 p j)) (Ideal.ofBits .f32 dw) := fun k => by
    show y (ix2 p k) - broadcastTo (⟨2, ![B, n]⟩ : Shape) (kernelMeanCol y dw hred hφ hacc hcast) hbc (ix2 p k) = _
    rw [Cert.RowLayout.bcastCol_apply, kernelMeanCol_apply]
  show (subf y (broadcastTo (⟨2, ![B, n]⟩ : Shape) (kernelMeanCol y dw hred hφ hacc hcast) hbc) (ix2 p q)
      * broadcastTo (⟨2, ![B, n]⟩ : Shape) _ hbc (ix2 p q))
      * broadcastTo (⟨2, ![B, n]⟩ : Shape) (shapeCast (⟨2, ![1, n]⟩ : Shape) g hsc) hbr (ix2 p q)
      + broadcastTo (⟨2, ![B, n]⟩ : Shape) (shapeCast (⟨2, ![1, n]⟩ : Shape) b hsc) hbr (ix2 p q) = _
  rw [hD q, Cert.RowLayout.bcastCol_apply, kernelBias_apply g hsc hbr p q, kernelBias_apply b hsc hbr p q]
  show _ * Ideal.rsqrt (Ideal.div (shapeCast (⟨2, ![B, 1]⟩ : Shape) _ hcast (ix2 p (0 : Fin 1))) (Ideal.ofBits .f32 dw)
      + Ideal.ofBits .f32 ew) * _ + _ = _
  rw [Cert.RowLayout.castCol_apply, Cert.RowLayout.laneSum_apply]
  unfold lnRow
  have hs : (∑ k : Fin n, mulf (subf y (broadcastTo (⟨2, ![B, n]⟩ : Shape) (kernelMeanCol y dw hred hφ hacc hcast) hbc))
        (subf y (broadcastTo (⟨2, ![B, n]⟩ : Shape) (kernelMeanCol y dw hred hφ hacc hcast) hbc)) (ix2 p k))
      = ∑ k : Fin n, (y (ix2 p k) - Ideal.div (∑ j : Fin n, y (ix2 p j)) (Ideal.ofBits .f32 dw))
          * (y (ix2 p k) - Ideal.div (∑ j : Fin n, y (ix2 p j)) (Ideal.ofBits .f32 dw)) :=
    Finset.sum_congr rfl fun k _ => by
      show subf y _ (ix2 p k) * subf y _ (ix2 p k) = _
      rw [hD k]
  rw [hs]

/-- The host's column of row means: its sum (from the zero word) laid as a column, divided by the count laid over the
    column. -/
abbrev hostMeanCol {B n : Nat} (y : FVec Ideal (⟨2, ![B, n]⟩ : Shape) .f32) (dw : BitVec 32)
    (hR : Shape.ReducesTo (⟨2, ![B, n]⟩ : Shape) [(1 : Fin 2)] (⟨1, ![B]⟩ : Shape)) (hu : 0 < (⟨0, ![]⟩ : Shape).numel)
    (h0 : (⟨1, ![B]⟩ : Shape).BroadcastsInDim (⟨2, ![B, 1]⟩ : Shape) ![0])
    (hS : (⟨0, ![]⟩ : Shape).BroadcastsInDim (⟨2, ![B, 1]⟩ : Shape) ![]) : FVec Ideal (⟨2, ![B, 1]⟩ : Shape) .f32 :=
  Host.divf (broadcastInDim (⟨2, ![B, 1]⟩ : Shape) ![0] h0
      (Host.reduceAdd y (constant (F := Ideal) (⟨0, ![]⟩ : Shape) .f32 0x00000000#32) hR hu))
    (broadcastInDim (⟨2, ![B, 1]⟩ : Shape) ![] hS (constant (F := Ideal) (⟨0, ![]⟩ : Shape) .f32 dw))

/-- The host's sum over the lanes from the zero word, at row `p`: the sum of the row's entries. -/
theorem hostLaneSum_apply {B n : Nat} (v : FVec Ideal (⟨2, ![B, n]⟩ : Shape) .f32)
    (hR : Shape.ReducesTo (⟨2, ![B, n]⟩ : Shape) [(1 : Fin 2)] (⟨1, ![B]⟩ : Shape)) (hu : 0 < (⟨0, ![]⟩ : Shape).numel)
    (hr : Shape.Reduces (⟨2, ![B, n]⟩ : Shape) [(1 : Fin 2)] (⟨1, ![B]⟩ : Shape)) (p : Fin B) :
    Host.reduceAdd v (constant (F := Ideal) (⟨0, ![]⟩ : Shape) .f32 0x00000000#32) hR hu (ix1 p)
      = ∑ k : Fin n, v (ix2 p k) := by
  show Ideal.hostReduceAdd hR v (Ideal.ofBits .f32 0x00000000#32) (ix1 p) = _
  rw [Ideal.hostReduceAdd_single hR hr, Ideal.ofBits_zero_f32, zero_add]
  refine Finset.sum_congr rfl fun k _ => ?_
  exact congrArg v (funext fun a => Fin.ext (by match a with | ⟨0, _⟩ => rfl | ⟨1, _⟩ => rfl))

theorem hostMeanCol_apply {B n : Nat} (y : FVec Ideal (⟨2, ![B, n]⟩ : Shape) .f32) (dw : BitVec 32)
    (hR : Shape.ReducesTo (⟨2, ![B, n]⟩ : Shape) [(1 : Fin 2)] (⟨1, ![B]⟩ : Shape)) (hu : 0 < (⟨0, ![]⟩ : Shape).numel)
    (hr : Shape.Reduces (⟨2, ![B, n]⟩ : Shape) [(1 : Fin 2)] (⟨1, ![B]⟩ : Shape))
    (h0 : (⟨1, ![B]⟩ : Shape).BroadcastsInDim (⟨2, ![B, 1]⟩ : Shape) ![0])
    (hS : (⟨0, ![]⟩ : Shape).BroadcastsInDim (⟨2, ![B, 1]⟩ : Shape) ![]) (p : Fin B) :
    hostMeanCol y dw hR hu h0 hS (ix2 p (0 : Fin 1)) = Ideal.div (∑ k : Fin n, y (ix2 p k)) (Ideal.ofBits .f32 dw) := by
  show Ideal.div (broadcastInDim (s := (⟨1, ![B]⟩ : Shape)) (⟨2, ![B, 1]⟩ : Shape) ![0] h0 _ (ix2 p (0 : Fin 1)))
      (broadcastInDim (s := (⟨0, ![]⟩ : Shape)) (⟨2, ![B, 1]⟩ : Shape) ![] hS _ (ix2 p (0 : Fin 1))) = _
  rw [hostFlatCol_apply, hostScalarCol_apply, hostLaneSum_apply y hR hu hr p]
  rfl

/-- THE HOST'S SPELLING of the layer normalisation, read at entry `(p, q)`: `lnRow` of row `p`. -/
theorem hostLN_apply {B n : Nat} (y : FVec Ideal (⟨2, ![B, n]⟩ : Shape) .f32)
    (g b : FVec Ideal (⟨1, ![n]⟩ : Shape) .f32) (dw ew : BitVec 32)
    (hR : Shape.ReducesTo (⟨2, ![B, n]⟩ : Shape) [(1 : Fin 2)] (⟨1, ![B]⟩ : Shape)) (hu : 0 < (⟨0, ![]⟩ : Shape).numel)
    (hr : Shape.Reduces (⟨2, ![B, n]⟩ : Shape) [(1 : Fin 2)] (⟨1, ![B]⟩ : Shape))
    (h0 : (⟨1, ![B]⟩ : Shape).BroadcastsInDim (⟨2, ![B, 1]⟩ : Shape) ![0])
    (hS : (⟨0, ![]⟩ : Shape).BroadcastsInDim (⟨2, ![B, 1]⟩ : Shape) ![])
    (hc : (⟨2, ![B, 1]⟩ : Shape).BroadcastsInDim (⟨2, ![B, n]⟩ : Shape) ![0, 1])
    (h1 : (⟨1, ![n]⟩ : Shape).BroadcastsInDim (⟨2, ![1, n]⟩ : Shape) ![1])
    (h2 : (⟨2, ![1, n]⟩ : Shape).BroadcastsInDim (⟨2, ![B, n]⟩ : Shape) ![0, 1]) (p : Fin B) (q : Fin n) :
    addf (mulf (mulf
        (subf y (broadcastInDim (⟨2, ![B, n]⟩ : Shape) ![0, 1] hc (hostMeanCol y dw hR hu h0 hS)))
        (broadcastInDim (⟨2, ![B, n]⟩ : Shape) ![0, 1] hc (Host.rsqrt (addf
          (Host.divf (broadcastInDim (⟨2, ![B, 1]⟩ : Shape) ![0] h0 (Host.reduceAdd
              (mulf (subf y (broadcastInDim (⟨2, ![B, n]⟩ : Shape) ![0, 1] hc (hostMeanCol y dw hR hu h0 hS)))
                    (subf y (broadcastInDim (⟨2, ![B, n]⟩ : Shape) ![0, 1] hc (hostMeanCol y dw hR hu h0 hS))))
              (constant (F := Ideal) (⟨0, ![]⟩ : Shape) .f32 0x00000000#32) hR hu))
            (broadcastInDim (⟨2, ![B, 1]⟩ : Shape) ![] hS (constant (F := Ideal) (⟨0, ![]⟩ : Shape) .f32 dw)))
          (broadcastInDim (⟨2, ![B, 1]⟩ : Shape) ![] hS (constant (F := Ideal) (⟨0, ![]⟩ : Shape) .f32 ew))))))
        (broadcastInDim (⟨2, ![B, n]⟩ : Shape) ![0, 1] h2 (broadcastInDim (⟨2, ![1, n]⟩ : Shape) ![1] h1 g)))
      (broadcastInDim (⟨2, ![B, n]⟩ : Shape) ![0, 1] h2 (broadcastInDim (⟨2, ![1, n]⟩ : Shape) ![1] h1 b)) (ix2 p q)
      = lnRow (Ideal.ofBits .f32 dw) (Ideal.ofBits .f32 ew) (fun k => y (ix2 p k)) (fun k => g (ix1 k))
          (fun k => b (ix1 k)) q := by
  have hD : ∀ k : Fin n, subf y (broadcastInDim (⟨2, ![B, n]⟩ : Shape) ![0, 1] hc (hostMeanCol y dw hR hu h0 hS)) (ix2 p k)
      = y (ix2 p k) - Ideal.div (∑ j : Fin n, y (ix2 p j)) (Ideal.ofBits .f32 dw) := fun k => by
    show y (ix2 p k) - broadcastInDim (⟨2, ![B, n]⟩ : Shape) ![0, 1] hc (hostMeanCol y dw hR hu h0 hS) (ix2 p k) = _
    rw [Cert.HostRowOps.bcastColHost_apply, hostMeanCol_apply y dw hR hu hr h0 hS p]
  show (subf y (broadcastInDim (⟨2, ![B, n]⟩ : Shape) ![0, 1] hc (hostMeanCol y dw hR hu h0 hS)) (ix2 p q)
      * broadcastInDim (s := (⟨2, ![B, 1]⟩ : Shape)) (⟨2, ![B, n]⟩ : Shape) ![0, 1] hc _ (ix2 p q))
      * broadcastInDim (⟨2, ![B, n]⟩ : Shape) ![0, 1] h2 (broadcastInDim (⟨2, ![1, n]⟩ : Shape) ![1] h1 g) (ix2 p q)
      + broadcastInDim (⟨2, ![B, n]⟩ : Shape) ![0, 1] h2 (broadcastInDim (⟨2, ![1, n]⟩ : Shape) ![1] h1 b) (ix2 p q) = _
  rw [hD q, Cert.HostRowOps.bcastColHost_apply, hostBias_apply g h1 h2 p q, hostBias_apply b h1 h2 p q]
  show _ * Ideal.rsqrt (Ideal.div (broadcastInDim (s := (⟨1, ![B]⟩ : Shape)) (⟨2, ![B, 1]⟩ : Shape) ![0] h0 _ (ix2 p (0 : Fin 1)))
        (broadcastInDim (s := (⟨0, ![]⟩ : Shape)) (⟨2, ![B, 1]⟩ : Shape) ![] hS _ (ix2 p (0 : Fin 1)))
      + broadcastInDim (s := (⟨0, ![]⟩ : Shape)) (⟨2, ![B, 1]⟩ : Shape) ![] hS _ (ix2 p (0 : Fin 1))) * _ + _ = _
  rw [hostFlatCol_apply, hostScalarCol_apply, hostScalarCol_apply, hostLaneSum_apply _ hR hu hr p]
  unfold lnRow
  have hs : (∑ k : Fin n, mulf (subf y (broadcastInDim (⟨2, ![B, n]⟩ : Shape) ![0, 1] hc (hostMeanCol y dw hR hu h0 hS)))
        (subf y (broadcastInDim (⟨2, ![B, n]⟩ : Shape) ![0, 1] hc (hostMeanCol y dw hR hu h0 hS))) (ix2 p k))
      = ∑ k : Fin n, (y (ix2 p k) - Ideal.div (∑ j : Fin n, y (ix2 p j)) (Ideal.ofBits .f32 dw))
          * (y (ix2 p k) - Ideal.div (∑ j : Fin n, y (ix2 p j)) (Ideal.ofBits .f32 dw)) :=
    Finset.sum_congr rfl fun k _ => by
      show subf y _ (ix2 p k) * subf y _ (ix2 p k) = _
      rw [hD k]
  rw [hs]
  rfl

/-! ## One branch on one row: three context rows mixed, two affine layers, the residual, the normalisation -/

/-- An affine layer with transposed weights: lane `c` is `projT x w c + b c`. -/
def affT {K N : Nat} (x : Fin K → EReal) (w : Fin N → Fin K → EReal) (b : Fin N → EReal) : Fin N → EReal :=
  fun c => projT x w c + b c

/-- Three context rows against three weight matrices, added in that grouping, plus a bias. -/
def kvRow {n0 n1 n2 E : Nat} (a0 : Fin n0 → EReal) (a1 : Fin n1 → EReal) (a2 : Fin n2 → EReal)
    (w0 : Fin E → Fin n0 → EReal) (w1 : Fin E → Fin n1 → EReal) (w2 : Fin E → Fin n2 → EReal) (kb : Fin E → EReal) :
    Fin E → EReal :=
  fun c => ((projT a0 w0 c + projT a1 w1 c) + projT a2 w2 c) + kb c

/-- One branch on one row: `x` plus two affine layers of the mixed context, normalised. -/
def branchRow {n0 n1 n2 E : Nat} (d e : EReal) (x : Fin E → EReal)
    (a0 : Fin n0 → EReal) (a1 : Fin n1 → EReal) (a2 : Fin n2 → EReal)
    (w0 : Fin E → Fin n0 → EReal) (w1 : Fin E → Fin n1 → EReal) (w2 : Fin E → Fin n2 → EReal) (kb : Fin E → EReal)
    (vw : Fin E → Fin E → EReal) (vb : Fin E → EReal) (ow : Fin E → Fin E → EReal) (ob : Fin E → EReal)
    (g b : Fin E → EReal) : Fin E → EReal :=
  lnRow d e (fun q => x q + affT (affT (kvRow a0 a1 a2 w0 w1 w2 kb) vw vb) ow ob q) g b

/-- THE WHOLE ARRAY: row `i 0` of the result is `branchRow` of row `i 0` of the data arrays. The context weights are the
    three lane ranges of `kvw`; the inner layer's weights and bias are the rows `off ..` of `inw` and the entries
    `off ..` of `inb`. -/
def mixed {B n0 n1 n2 E : Nat} (off : Nat) (dw ew : BitVec 32)
    (x : (⟨2, ![B, E]⟩ : Shape).Idx → EReal) (a0 : (⟨2, ![B, n0]⟩ : Shape).Idx → EReal)
    (a1 : (⟨2, ![B, n1]⟩ : Shape).Idx → EReal) (a2 : (⟨2, ![B, n2]⟩ : Shape).Idx → EReal)
    (inw : (⟨2, ![off + E, E]⟩ : Shape).Idx → EReal) (inb : (⟨1, ![off + E]⟩ : Shape).Idx → EReal)
    (outw : (⟨2, ![E, E]⟩ : Shape).Idx → EReal) (outb : (⟨1, ![E]⟩ : Shape).Idx → EReal)
    (kvw : (⟨2, ![E, n0 + n1 + n2]⟩ : Shape).Idx → EReal) (kvb lng lnb : (⟨1, ![E]⟩ : Shape).Idx → EReal) :
    (⟨2, ![B, E]⟩ : Shape).Idx → EReal :=
  fun i => branchRow (Ideal.ofBits .f32 dw) (Ideal.ofBits .f32 ew) (fun q => x (ix2 (i 0) q))
    (fun k => a0 (ix2 (i 0) k)) (fun k => a1 (ix2 (i 0) k)) (fun k => a2 (ix2 (i 0) k))
    (fun c k => kvw (ix2 c (Fin.castAdd n2 (Fin.castAdd n1 k))))
    (fun c k => kvw (ix2 c (Fin.castAdd n2 (Fin.natAdd n0 k))))
    (fun c k => kvw (ix2 c (Fin.natAdd (n0 + n1) k))) (fun c => kvb (ix1 c))
    (fun c k => inw (ix2 (Fin.natAdd off c) k)) (fun c => inb (ix1 (Fin.natAdd off c)))
    (fun c k => outw (ix2 c k)) (fun c => outb (ix1 c)) (fun c => lng (ix1 c)) (fun c => lnb (ix1 c)) (i 1)

/-- The kernel's affine layer: a product with transposed weights into the zero accumulator plus a bias row. -/
theorem kernelAffT_apply {B K N : Nat} {φ₁ : FTy} (prec : Option ContractPrecision)
    (l : FVec Ideal (⟨2, ![B, K]⟩ : Shape) φ₁) (w : FVec Ideal (⟨2, ![N, K]⟩ : Shape) .f32)
    (bias : FVec Ideal (⟨2, ![1, N]⟩ : Shape) .f32)
    (htr : (⟨2, ![N, K]⟩ : Shape).Transposes [1, 0] (⟨2, ![K, N]⟩ : Shape))
    (hsc : Shape.ShapeCasts (⟨2, ![1, N]⟩ : Shape) (⟨2, ![1, N]⟩ : Shape))
    (hb : Shape.Broadcasts (⟨2, ![1, N]⟩ : Shape) (⟨2, ![B, N]⟩ : Shape)) (p : Fin B) (c : Fin N) :
    addf (matmul (DotDims.plain B K N) prec l (transpose (⟨2, ![K, N]⟩ : Shape) [1, 0] w htr)
          (constant (F := Ideal) (⟨2, ![B, N]⟩ : Shape) .f32 0x00000000#32))
        (broadcastTo (⟨2, ![B, N]⟩ : Shape) (shapeCast (⟨2, ![1, N]⟩ : Shape) bias hsc) hb) (ix2 p c)
      = affT (fun k => l (ix2 p k)) (fun c k => w (ix2 c k)) (fun c => bias (ix2 (0 : Fin 1) c)) c := by
  show matmul (DotDims.plain B K N) prec l _ _ (ix2 p c) + broadcastTo (⟨2, ![B, N]⟩ : Shape) _ hb (ix2 p c) = _
  rw [kernelProjT_apply, kernelBias_apply]
  rfl

/-- The host's affine layer: `dot_general` with transposed weights plus a flat bias laid down the rows. -/
theorem hostAffT_apply {B K N : Nat} {φ₁ : FTy} (prec : Option ContractPrecision)
    (l : FVec Ideal (⟨2, ![B, K]⟩ : Shape) φ₁) (w : FVec Ideal (⟨2, ![N, K]⟩ : Shape) .f32)
    (bias : FVec Ideal (⟨1, ![N]⟩ : Shape) .f32)
    (htr : (⟨2, ![N, K]⟩ : Shape).Transposes [1, 0] (⟨2, ![K, N]⟩ : Shape))
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l (transpose (⟨2, ![K, N]⟩ : Shape) [1, 0] w htr))
        (broadcastInDim (⟨2, ![B, N]⟩ : Shape) ![0, 1] h2 (broadcastInDim (⟨2, ![1, N]⟩ : Shape) ![1] h1 bias)) (ix2 p c)
      = affT (fun k => l (ix2 p k)) (fun c k => w (ix2 c k)) (fun c => bias (ix1 c)) c := by
  show Host.dotGeneral (F := Ideal) (DotDims.plain B K N) prec l _ (ix2 p c)
      + broadcastInDim (s := (⟨2, ![1, N]⟩ : Shape)) (⟨2, ![B, N]⟩ : Shape) ![0, 1] h2 _ (ix2 p c) = _
  rw [hostProjT_apply, hostBias_apply]
  rfl

/-- The kernel's context mix: three products with transposed weights added, plus a bias row. -/
theorem kernelKv_apply {B n0 n1 n2 E : Nat} (prec : Option ContractPrecision)
    (a0 : FVec Ideal (⟨2, ![B, n0]⟩ : Shape) .f32) (a1 : FVec Ideal (⟨2, ![B, n1]⟩ : Shape) .f32)
    (a2 : FVec Ideal (⟨2, ![B, n2]⟩ : Shape) .f32)
    (w0 : FVec Ideal (⟨2, ![E, n0]⟩ : Shape) .f32) (w1 : FVec Ideal (⟨2, ![E, n1]⟩ : Shape) .f32)
    (w2 : FVec Ideal (⟨2, ![E, n2]⟩ : Shape) .f32) (kb : FVec Ideal (⟨2, ![1, E]⟩ : Shape) .f32)
    (ht0 : (⟨2, ![E, n0]⟩ : Shape).Transposes [1, 0] (⟨2, ![n0, E]⟩ : Shape))
    (ht1 : (⟨2, ![E, n1]⟩ : Shape).Transposes [1, 0] (⟨2, ![n1, E]⟩ : Shape))
    (ht2 : (⟨2, ![E, n2]⟩ : Shape).Transposes [1, 0] (⟨2, ![n2, E]⟩ : Shape))
    (hsc : Shape.ShapeCasts (⟨2, ![1, E]⟩ : Shape) (⟨2, ![1, E]⟩ : Shape))
    (hb : Shape.Broadcasts (⟨2, ![1, E]⟩ : Shape) (⟨2, ![B, E]⟩ : Shape)) (p : Fin B) (c : Fin E) :
    addf (addf (addf
          (matmul (DotDims.plain B n0 E) prec a0 (transpose (⟨2, ![n0, E]⟩ : Shape) [1, 0] w0 ht0)
            (constant (F := Ideal) (⟨2, ![B, E]⟩ : Shape) .f32 0x00000000#32))
          (matmul (DotDims.plain B n1 E) prec a1 (transpose (⟨2, ![n1, E]⟩ : Shape) [1, 0] w1 ht1)
            (constant (F := Ideal) (⟨2, ![B, E]⟩ : Shape) .f32 0x00000000#32)))
          (matmul (DotDims.plain B n2 E) prec a2 (transpose (⟨2, ![n2, E]⟩ : Shape) [1, 0] w2 ht2)
            (constant (F := Ideal) (⟨2, ![B, E]⟩ : Shape) .f32 0x00000000#32)))
        (broadcastTo (⟨2, ![B, E]⟩ : Shape) (shapeCast (⟨2, ![1, E]⟩ : Shape) kb hsc) hb) (ix2 p c)
      = kvRow (fun k => a0 (ix2 p k)) (fun k => a1 (ix2 p k)) (fun k => a2 (ix2 p k))
          (fun c k => w0 (ix2 c k)) (fun c k => w1 (ix2 c k)) (fun c k => w2 (ix2 c k)) (fun c => kb (ix2 (0 : Fin 1) c)) c := by
  show ((matmul (DotDims.plain B n0 E) prec a0 _ _ (ix2 p c) + matmul (DotDims.plain B n1 E) prec a1 _ _ (ix2 p c))
      + matmul (DotDims.plain B n2 E) prec a2 _ _ (ix2 p c)) + broadcastTo (⟨2, ![B, E]⟩ : Shape) _ hb (ix2 p c) = _
  rw [kernelProjT_apply, kernelProjT_apply, kernelProjT_apply, kernelBias_apply]
  rfl

/-- The host's context mix: `dot_general` of the three arrays joined along the lanes with the transposed weights, plus
    a flat bias laid down the rows. The sum over the joined lanes is the three sums added. -/
theorem hostKv_apply {B n0 n1 n2 E : Nat} (prec : Option ContractPrecision)
    (a0 : FVec Ideal (⟨2, ![B, n0]⟩ : Shape) .f32) (a1 : FVec Ideal (⟨2, ![B, n1]⟩ : Shape) .f32)
    (a2 : FVec Ideal (⟨2, ![B, n2]⟩ : Shape) .f32)
    (kvw : FVec Ideal (⟨2, ![E, n0 + n1 + n2]⟩ : Shape) .f32) (kvb : FVec Ideal (⟨1, ![E]⟩ : Shape) .f32)
    (hc : Shape.Concatenates [(⟨2, ![B, n0]⟩ : Shape), (⟨2, ![B, n1]⟩ : Shape), (⟨2, ![B, n2]⟩ : Shape)]
      (⟨2, ![B, n0 + n1 + n2]⟩ : Shape) (1 : Fin 2))
    (htr : (⟨2, ![E, n0 + n1 + n2]⟩ : Shape).Transposes [1, 0] (⟨2, ![n0 + n1 + n2, E]⟩ : Shape))
    (h1 : (⟨1, ![E]⟩ : Shape).BroadcastsInDim (⟨2, ![1, E]⟩ : Shape) ![1])
    (h2 : (⟨2, ![1, E]⟩ : Shape).BroadcastsInDim (⟨2, ![B, E]⟩ : Shape) ![0, 1]) (p : Fin B) (c : Fin E) :
    addf (Host.dotGeneral (F := Ideal) (DotDims.plain B (n0 + n1 + n2) E) prec
          (concatenate (⟨2, ![B, n0 + n1 + n2]⟩ : Shape) (1 : Fin 2)
            [⟨(⟨2, ![B, n0]⟩ : Shape), a0⟩, ⟨(⟨2, ![B, n1]⟩ : Shape), a1⟩, ⟨(⟨2, ![B, n2]⟩ : Shape), a2⟩] hc)
          (transpose (⟨2, ![n0 + n1 + n2, E]⟩ : Shape) [1, 0] kvw htr))
        (broadcastInDim (⟨2, ![B, E]⟩ : Shape) ![0, 1] h2 (broadcastInDim (⟨2, ![1, E]⟩ : Shape) ![1] h1 kvb)) (ix2 p c)
      = kvRow (fun k => a0 (ix2 p k)) (fun k => a1 (ix2 p k)) (fun k => a2 (ix2 p k))
          (fun c k => kvw (ix2 c (Fin.castAdd n2 (Fin.castAdd n1 k))))
          (fun c k => kvw (ix2 c (Fin.castAdd n2 (Fin.natAdd n0 k))))
          (fun c k => kvw (ix2 c (Fin.natAdd (n0 + n1) k))) (fun c => kvb (ix1 c)) c := by
  show Host.dotGeneral (F := Ideal) (DotDims.plain B (n0 + n1 + n2) E) prec _ _ (ix2 p c)
      + broadcastInDim (s := (⟨2, ![1, E]⟩ : Shape)) (⟨2, ![B, E]⟩ : Shape) ![0, 1] h2 _ (ix2 p c) = _
  rw [hostProjT_apply, hostBias_apply, projT_join3]
  rfl

end Cert.NormRow

end
-- ==== Proof.KernelBlocks.lean ====
/-
  The kernel's windows, block by block.

  The grid has 1024 points. At point `t` each of the three data windows holds rows `2048 t .. 2048 t + 2047` of its array,
  all lanes; every weight window holds its whole (small) array at every point. The weight arrays the region finds were
  written by the host operations before it: the last rows of a stacked weight matrix, the last entries of a stacked bias
  laid as one row, three lane ranges of the context weights, and flat vectors laid as one row. Each lemma reads one
  window's block at an entry in terms of the launch contents of an argument array.
-/
import proofs.«137668_j54631984005204_1_alg».proof.Proof.KernelIdealFrameP
import Idealize.ShloMosaic.Lib.StableHlo.Run
import proofs.«137668_j54631984005204_1_alg».proof.Proof.LibNormRow

set_option maxRecDepth 16384

noncomputable section

namespace Cert.KernelIdeal.Blocks

open Cert.KernelIdeal Cert.KernelIdeal.Gen Cert.KernelIdeal.GenP Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-! ## Where each window's block sits: decided over the 1024 points -/

/-- A data or result window's block index at point `t` is `(t, 0)`. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- A data or result window's block index at point `t` is `(t, 0)`. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- A data or result window's block index at point `t` is `(t, 0)`. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- A data or result window's block index at point `t` is `(t, 0)`. -/
theorem idx33 : ∀ t : Fin cfg0.N, win0_33.index t (0 : Fin 2) = t.val ∧ win0_33.index t (1 : Fin 2) = 0 :=
  (by decide +kernel : ∀ t : Fin grid0.N, win0_33.index t (0 : Fin 2) = t.val ∧ win0_33.index t (1 : Fin 2) = 0)

/-- A data or result window's block index at point `t` is `(t, 0)`. -/
theorem idx34 : ∀ t : Fin cfg0.N, win0_34.index t (0 : Fin 2) = t.val ∧ win0_34.index t (1 : Fin 2) = 0 :=
  (by decide +kernel : ∀ t : Fin grid0.N, win0_34.index t (0 : Fin 2) = t.val ∧ win0_34.index t (1 : Fin 2) = 0)

/-- A data or result window's block index at point `t` is `(t, 0)`. -/
theorem idx35 : ∀ t : Fin cfg0.N, win0_35.index t (0 : Fin 2) = t.val ∧ win0_35.index t (1 : Fin 2) = 0 :=
  (by decide +kernel : ∀ t : Fin grid0.N, win0_35.index t (0 : Fin 2) = t.val ∧ win0_35.index t (1 : Fin 2) = 0)

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

theorem idx15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)

theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

theorem idx17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)

theorem idx18 : ∀ t : Fin cfg0.N, win0_18.index t (0 : Fin 2) = 0 ∧ win0_18.index t (1 : Fin 2) = 0 :=
  (by decide +kernel : ∀ t : Fin grid0.N, win0_18.index t (0 : Fin 2) = 0 ∧ win0_18.index t (1 : Fin 2) = 0)

theorem idx19 : ∀ t : Fin cfg0.N, win0_19.index t (0 : Fin 2) = 0 ∧ win0_19.index t (1 : Fin 2) = 0 :=
  (by decide +kernel : ∀ t : Fin grid0.N, win0_19.index t (0 : Fin 2) = 0 ∧ win0_19.index t (1 : Fin 2) = 0)

theorem idx20 : ∀ t : Fin cfg0.N, win0_20.index t (0 : Fin 2) = 0 ∧ win0_20.index t (1 : Fin 2) = 0 :=
  (by decide +kernel : ∀ t : Fin grid0.N, win0_20.index t (0 : Fin 2) = 0 ∧ win0_20.index t (1 : Fin 2) = 0)

theorem idx21 : ∀ t : Fin cfg0.N, win0_21.index t (0 : Fin 2) = 0 ∧ win0_21.index t (1 : Fin 2) = 0 :=
  (by decide +kernel : ∀ t : Fin grid0.N, win0_21.index t (0 : Fin 2) = 0 ∧ win0_21.index t (1 : Fin 2) = 0)

theorem idx22 : ∀ t : Fin cfg0.N, win0_22.index t (0 : Fin 2) = 0 ∧ win0_22.index t (1 : Fin 2) = 0 :=
  (by decide +kernel : ∀ t : Fin grid0.N, win0_22.index t (0 : Fin 2) = 0 ∧ win0_22.index t (1 : Fin 2) = 0)

theorem idx23 : ∀ t : Fin cfg0.N, win0_23.index t (0 : Fin 2) = 0 ∧ win0_23.index t (1 : Fin 2) = 0 :=
  (by decide +kernel : ∀ t : Fin grid0.N, win0_23.index t (0 : Fin 2) = 0 ∧ win0_23.index t (1 : Fin 2) = 0)

theorem idx24 : ∀ t : Fin cfg0.N, win0_24.index t (0 : Fin 2) = 0 ∧ win0_24.index t (1 : Fin 2) = 0 :=
  (by decide +kernel : ∀ t : Fin grid0.N, win0_24.index t (0 : Fin 2) = 0 ∧ win0_24.index t (1 : Fin 2) = 0)

theorem idx25 : ∀ t : Fin cfg0.N, win0_25.index t (0 : Fin 2) = 0 ∧ win0_25.index t (1 : Fin 2) = 0 :=
  (by decide +kernel : ∀ t : Fin grid0.N, win0_25.index t (0 : Fin 2) = 0 ∧ win0_25.index t (1 : Fin 2) = 0)

theorem idx26 : ∀ t : Fin cfg0.N, win0_26.index t (0 : Fin 2) = 0 ∧ win0_26.index t (1 : Fin 2) = 0 :=
  (by decide +kernel : ∀ t : Fin grid0.N, win0_26.index t (0 : Fin 2) = 0 ∧ win0_26.index t (1 : Fin 2) = 0)

theorem idx27 : ∀ t : Fin cfg0.N, win0_27.index t (0 : Fin 2) = 0 ∧ win0_27.index t (1 : Fin 2) = 0 :=
  (by decide +kernel : ∀ t : Fin grid0.N, win0_27.index t (0 : Fin 2) = 0 ∧ win0_27.index t (1 : Fin 2) = 0)

theorem idx28 : ∀ t : Fin cfg0.N, win0_28.index t (0 : Fin 2) = 0 ∧ win0_28.index t (1 : Fin 2) = 0 :=
  (by decide +kernel : ∀ t : Fin grid0.N, win0_28.index t (0 : Fin 2) = 0 ∧ win0_28.index t (1 : Fin 2) = 0)

theorem idx29 : ∀ t : Fin cfg0.N, win0_29.index t (0 : Fin 2) = 0 ∧ win0_29.index t (1 : Fin 2) = 0 :=
  (by decide +kernel : ∀ t : Fin grid0.N, win0_29.index t (0 : Fin 2) = 0 ∧ win0_29.index t (1 : Fin 2) = 0)

theorem idx30 : ∀ t : Fin cfg0.N, win0_30.index t (0 : Fin 2) = 0 ∧ win0_30.index t (1 : Fin 2) = 0 :=
  (by decide +kernel : ∀ t : Fin grid0.N, win0_30.index t (0 : Fin 2) = 0 ∧ win0_30.index t (1 : Fin 2) = 0)

theorem idx31 : ∀ t : Fin cfg0.N, win0_31.index t (0 : Fin 2) = 0 ∧ win0_31.index t (1 : Fin 2) = 0 :=
  (by decide +kernel : ∀ t : Fin grid0.N, win0_31.index t (0 : Fin 2) = 0 ∧ win0_31.index t (1 : Fin 2) = 0)

theorem idx32 : ∀ t : Fin cfg0.N, win0_32.index t (0 : Fin 2) = 0 ∧ win0_32.index t (1 : Fin 2) = 0 :=
  (by decide +kernel : ∀ t : Fin grid0.N, win0_32.index t (0 : Fin 2) = 0 ∧ win0_32.index t (1 : Fin 2) = 0)

/-! ## The blocks read at an entry -/

/-- Data window 0 at point `t`: entry `(p, k)` of the block is entry `(2048 t + p, k)` of the array. -/
theorem blk0 (c : Dev nD) (t : Fin cfg0.N) (p : Fin 2048) (k : Fin 15) (r : Fin 2097152) (hr : r.val = t.val * 2048 + p.val) :
    iblk m c 0 t (ix2 p k) = (m ((c : Thread nD τ).loc main_arg0)) (ix2 r k) := by
  show V m c main_arg0 (((cfg0.win 0).blk t).view.emb (ix2 p k)) = _
  rw [V_main_arg0]
  refine congrArg _ (funext fun d => Fin.ext ?_)
  obtain ⟨e0, e1⟩ := idx0 t
  match d with
  | ⟨0, _⟩ => show win0_0.index t (0 : Fin 2) * 2048 + 1 * p.val = r.val; omega
  | ⟨1, _⟩ => show win0_0.index t (1 : Fin 2) * 15 + 1 * k.val = k.val; omega

/-- Data window 1 at point `t`: entry `(p, k)` of the block is entry `(2048 t + p, k)` of the array. -/
theorem blk1 (c : Dev nD) (t : Fin cfg0.N) (p : Fin 2048) (k : Fin 14) (r : Fin 2097152) (hr : r.val = t.val * 2048 + p.val) :
    iblk m c 1 t (ix2 p k) = (m ((c : Thread nD τ).loc main_arg1)) (ix2 r k) := by
  show V m c main_arg1 (((cfg0.win 1).blk t).view.emb (ix2 p k)) = _
  rw [V_main_arg1]
  refine congrArg _ (funext fun d => Fin.ext ?_)
  obtain ⟨e0, e1⟩ := idx1 t
  match d with
  | ⟨0, _⟩ => show win0_1.index t (0 : Fin 2) * 2048 + 1 * p.val = r.val; omega
  | ⟨1, _⟩ => show win0_1.index t (1 : Fin 2) * 14 + 1 * k.val = k.val; omega

/-- Data window 2 at point `t`: entry `(p, k)` of the block is entry `(2048 t + p, k)` of the array. -/
theorem blk2 (c : Dev nD) (t : Fin cfg0.N) (p : Fin 2048) (k : Fin 13) (r : Fin 2097152) (hr : r.val = t.val * 2048 + p.val) :
    iblk m c 2 t (ix2 p k) = (m ((c : Thread nD τ).loc main_arg2)) (ix2 r k) := by
  show V m c main_arg2 (((cfg0.win 2).blk t).view.emb (ix2 p k)) = _
  rw [V_main_arg2]
  refine congrArg _ (funext fun d => Fin.ext ?_)
  obtain ⟨e0, e1⟩ := idx2 t
  match d with
  | ⟨0, _⟩ => show win0_2.index t (0 : Fin 2) * 2048 + 1 * p.val = r.val; omega
  | ⟨1, _⟩ => show win0_2.index t (1 : Fin 2) * 13 + 1 * k.val = k.val; omega

/-- Weight window 3 holds what the host operations before the region made of argument 3. -/
theorem blk3 (c : Dev nD) (t : Fin cfg0.N) (a : Fin 15) (b : Fin 15) :
    iblk m c 3 t (ix2 a b) = (m ((c : Thread nD τ).loc main_arg3)) (ix2 (Fin.natAdd 30 a) b) := by
  show V m c main_v0 (((cfg0.win 3).blk t).view.emb (ix2 a b)) = _
  have e : (V m c main_v0 : S15x15.Idx → EReal) = extractStridedSlice S15x15 ![30, 0] (m ((c : Thread nD τ).loc main_arg3)) slices_S45x15_S15x15_30_0 := by
    dsimp only [GenP.V, Gen.hostOps0]; after_results <;> rfl
  have hi : ((cfg0.win 3).blk t).view.emb (ix2 a b) = (ix2 a b) := (funext fun d => Fin.ext (by
    obtain ⟨e0, e1⟩ := idx3 t
    match d with
    | ⟨0, _⟩ => show win0_3.index t (0 : Fin 2) * 15 + 1 * a.val = a.val; omega
    | ⟨1, _⟩ => show win0_3.index t (1 : Fin 2) * 15 + 1 * b.val = b.val; omega))
  rw [hi, e]
  exact Cert.NormRow.sliceRows_apply 30 _ _ a b (Fin.natAdd 30 a) rfl

/-- Weight window 4 holds what the host operations before the region made of argument 4. -/
theorem blk4 (c : Dev nD) (t : Fin cfg0.N) (b : Fin 15) :
    iblk m c 4 t (ix2 (0 : Fin 1) b) = (m ((c : Thread nD τ).loc main_arg4)) (ix1 (Fin.natAdd 30 b)) := by
  show V m c main_v2 (((cfg0.win 4).blk t).view.emb (ix2 (0 : Fin 1) b)) = _
  have e : (V m c main_v2 : S1x15.Idx → EReal) = shapeCast S1x15 (extractStridedSlice S15 ![30] (m ((c : Thread nD τ).loc main_arg4)) slices_S45_S15_30) shapeCasts_S15_S1x15 := by
    dsimp only [GenP.V, Gen.hostOps0]; after_results <;> rfl
  have hi : ((cfg0.win 4).blk t).view.emb (ix2 (0 : Fin 1) b) = (ix2 (0 : Fin 1) b) := (funext fun d => Fin.ext (by
    obtain ⟨e0, e1⟩ := idx4 t
    match d with
    | ⟨0, _⟩ => show win0_4.index t (0 : Fin 2) * 1 + 1 * (0 : Fin 1).val = (0 : Fin 1).val; omega
    | ⟨1, _⟩ => show win0_4.index t (1 : Fin 2) * 15 + 1 * b.val = b.val; omega))
  rw [hi, e]
  exact (Cert.RowBias.castRow_apply _ _ b).trans (Cert.NormRow.sliceFlat_apply 30 _ _ b (Fin.natAdd 30 b) rfl)

/-- Weight window 5: the whole array, as launched. -/
theorem blk5 (c : Dev nD) (t : Fin cfg0.N) (a : Fin 15) (b : Fin 15) :
    iblk m c 5 t (ix2 a b) = (m ((c : Thread nD τ).loc main_arg5)) (ix2 a b) := by
  show V m c main_arg5 (((cfg0.win 5).blk t).view.emb (ix2 a b)) = _
  rw [V_main_arg5]
  exact congrArg _ (funext fun d => Fin.ext (by
    obtain ⟨e0, e1⟩ := idx5 t
    match d with
    | ⟨0, _⟩ => show win0_5.index t (0 : Fin 2) * 15 + 1 * a.val = a.val; omega
    | ⟨1, _⟩ => show win0_5.index t (1 : Fin 2) * 15 + 1 * b.val = b.val; omega))

/-- Weight window 6 holds what the host operations before the region made of argument 6. -/
theorem blk6 (c : Dev nD) (t : Fin cfg0.N) (b : Fin 15) :
    iblk m c 6 t (ix2 (0 : Fin 1) b) = (m ((c : Thread nD τ).loc main_arg6)) (ix1 b) := by
  show V m c main_v7 (((cfg0.win 6).blk t).view.emb (ix2 (0 : Fin 1) b)) = _
  have e : (V m c main_v7 : S1x15.Idx → EReal) = shapeCast S1x15 (m ((c : Thread nD τ).loc main_arg6)) shapeCasts_S15_S1x15 := by
    dsimp only [GenP.V, Gen.hostOps0]; after_results <;> rfl
  have hi : ((cfg0.win 6).blk t).view.emb (ix2 (0 : Fin 1) b) = (ix2 (0 : Fin 1) b) := (funext fun d => Fin.ext (by
    obtain ⟨e0, e1⟩ := idx6 t
    match d with
    | ⟨0, _⟩ => show win0_6.index t (0 : Fin 2) * 1 + 1 * (0 : Fin 1).val = (0 : Fin 1).val; omega
    | ⟨1, _⟩ => show win0_6.index t (1 : Fin 2) * 15 + 1 * b.val = b.val; omega))
  rw [hi, e]
  exact Cert.RowBias.castRow_apply _ _ b

/-- Weight window 7 holds what the host operations before the region made of argument 7. -/
theorem blk7 (c : Dev nD) (t : Fin cfg0.N) (a : Fin 15) (b : Fin 15) :
    iblk m c 7 t (ix2 a b) = (m ((c : Thread nD τ).loc main_arg7)) (ix2 a (Fin.castAdd 13 (Fin.castAdd 14 b))) := by
  show V m c main_v3 (((cfg0.win 7).blk t).view.emb (ix2 a b)) = _
  have e : (V m c main_v3 : S15x15.Idx → EReal) = extractStridedSlice S15x15 ![0, 0] (m ((c : Thread nD τ).loc main_arg7)) slices_S15x42_S15x15_0_0 := by
    dsimp only [GenP.V, Gen.hostOps0]; after_results <;> rfl
  have hi : ((cfg0.win 7).blk t).view.emb (ix2 a b) = (ix2 a b) := (funext fun d => Fin.ext (by
    obtain ⟨e0, e1⟩ := idx7 t
    match d with
    | ⟨0, _⟩ => show win0_7.index t (0 : Fin 2) * 15 + 1 * a.val = a.val; omega
    | ⟨1, _⟩ => show win0_7.index t (1 : Fin 2) * 15 + 1 * b.val = b.val; omega))
  rw [hi, e]
  exact Cert.NormRow.sliceCols_apply 0 _ _ a b (Fin.castAdd 13 (Fin.castAdd 14 b)) (by show b.val = 0 + b.val; omega)

/-- Weight window 8 holds what the host operations before the region made of argument 7. -/
theorem blk8 (c : Dev nD) (t : Fin cfg0.N) (a : Fin 15) (b : Fin 14) :
    iblk m c 8 t (ix2 a b) = (m ((c : Thread nD τ).loc main_arg7)) (ix2 a (Fin.castAdd 13 (Fin.natAdd 15 b))) := by
  show V m c main_v4 (((cfg0.win 8).blk t).view.emb (ix2 a b)) = _
  have e : (V m c main_v4 : S15x14.Idx → EReal) = extractStridedSlice S15x14 ![0, 15] (m ((c : Thread nD τ).loc main_arg7)) slices_S15x42_S15x14_0_15 := by
    dsimp only [GenP.V, Gen.hostOps0]; after_results <;> rfl
  have hi : ((cfg0.win 8).blk t).view.emb (ix2 a b) = (ix2 a b) := (funext fun d => Fin.ext (by
    obtain ⟨e0, e1⟩ := idx8 t
    match d with
    | ⟨0, _⟩ => show win0_8.index t (0 : Fin 2) * 15 + 1 * a.val = a.val; omega
    | ⟨1, _⟩ => show win0_8.index t (1 : Fin 2) * 14 + 1 * b.val = b.val; omega))
  rw [hi, e]
  exact Cert.NormRow.sliceCols_apply 15 _ _ a b (Fin.castAdd 13 (Fin.natAdd 15 b)) rfl

/-- Weight window 9 holds what the host operations before the region made of argument 7. -/
theorem blk9 (c : Dev nD) (t : Fin cfg0.N) (a : Fin 15) (b : Fin 13) :
    iblk m c 9 t (ix2 a b) = (m ((c : Thread nD τ).loc main_arg7)) (ix2 a (Fin.natAdd (15 + 14) b)) := by
  show V m c main_v5 (((cfg0.win 9).blk t).view.emb (ix2 a b)) = _
  have e : (V m c main_v5 : S15x13.Idx → EReal) = extractStridedSlice S15x13 ![0, 29] (m ((c : Thread nD τ).loc main_arg7)) slices_S15x42_S15x13_0_29 := by
    dsimp only [GenP.V, Gen.hostOps0]; after_results <;> rfl
  have hi : ((cfg0.win 9).blk t).view.emb (ix2 a b) = (ix2 a b) := (funext fun d => Fin.ext (by
    obtain ⟨e0, e1⟩ := idx9 t
    match d with
    | ⟨0, _⟩ => show win0_9.index t (0 : Fin 2) * 15 + 1 * a.val = a.val; omega
    | ⟨1, _⟩ => show win0_9.index t (1 : Fin 2) * 13 + 1 * b.val = b.val; omega))
  rw [hi, e]
  exact Cert.NormRow.sliceCols_apply 29 _ _ a b (Fin.natAdd (15 + 14) b) rfl

/-- Weight window 10 holds what the host operations before the region made of argument 8. -/
theorem blk10 (c : Dev nD) (t : Fin cfg0.N) (b : Fin 15) :
    iblk m c 10 t (ix2 (0 : Fin 1) b) = (m ((c : Thread nD τ).loc main_arg8)) (ix1 b) := by
  show V m c main_v6 (((cfg0.win 10).blk t).view.emb (ix2 (0 : Fin 1) b)) = _
  have e : (V m c main_v6 : S1x15.Idx → EReal) = shapeCast S1x15 (m ((c : Thread nD τ).loc main_arg8)) shapeCasts_S15_S1x15 := by
    dsimp only [GenP.V, Gen.hostOps0]; after_results <;> rfl
  have hi : ((cfg0.win 10).blk t).view.emb (ix2 (0 : Fin 1) b) = (ix2 (0 : Fin 1) b) := (funext fun d => Fin.ext (by
    obtain ⟨e0, e1⟩ := idx10 t
    match d with
    | ⟨0, _⟩ => show win0_10.index t (0 : Fin 2) * 1 + 1 * (0 : Fin 1).val = (0 : Fin 1).val; omega
    | ⟨1, _⟩ => show win0_10.index t (1 : Fin 2) * 15 + 1 * b.val = b.val; omega))
  rw [hi, e]
  exact Cert.RowBias.castRow_apply _ _ b

/-- Weight window 11 holds what the host operations before the region made of argument 9. -/
theorem blk11 (c : Dev nD) (t : Fin cfg0.N) (b : Fin 15) :
    iblk m c 11 t (ix2 (0 : Fin 1) b) = (m ((c : Thread nD τ).loc main_arg9)) (ix1 b) := by
  show V m c main_v8 (((cfg0.win 11).blk t).view.emb (ix2 (0 : Fin 1) b)) = _
  have e : (V m c main_v8 : S1x15.Idx → EReal) = shapeCast S1x15 (m ((c : Thread nD τ).loc main_arg9)) shapeCasts_S15_S1x15 := by
    dsimp only [GenP.V, Gen.hostOps0]; after_results <;> rfl
  have hi : ((cfg0.win 11).blk t).view.emb (ix2 (0 : Fin 1) b) = (ix2 (0 : Fin 1) b) := (funext fun d => Fin.ext (by
    obtain ⟨e0, e1⟩ := idx11 t
    match d with
    | ⟨0, _⟩ => show win0_11.index t (0 : Fin 2) * 1 + 1 * (0 : Fin 1).val = (0 : Fin 1).val; omega
    | ⟨1, _⟩ => show win0_11.index t (1 : Fin 2) * 15 + 1 * b.val = b.val; omega))
  rw [hi, e]
  exact Cert.RowBias.castRow_apply _ _ b

/-- Weight window 12 holds what the host operations before the region made of argument 10. -/
theorem blk12 (c : Dev nD) (t : Fin cfg0.N) (b : Fin 15) :
    iblk m c 12 t (ix2 (0 : Fin 1) b) = (m ((c : Thread nD τ).loc main_arg10)) (ix1 b) := by
  show V m c main_v9 (((cfg0.win 12).blk t).view.emb (ix2 (0 : Fin 1) b)) = _
  have e : (V m c main_v9 : S1x15.Idx → EReal) = shapeCast S1x15 (m ((c : Thread nD τ).loc main_arg10)) shapeCasts_S15_S1x15 := by
    dsimp only [GenP.V, Gen.hostOps0]; after_results <;> rfl
  have hi : ((cfg0.win 12).blk t).view.emb (ix2 (0 : Fin 1) b) = (ix2 (0 : Fin 1) b) := (funext fun d => Fin.ext (by
    obtain ⟨e0, e1⟩ := idx12 t
    match d with
    | ⟨0, _⟩ => show win0_12.index t (0 : Fin 2) * 1 + 1 * (0 : Fin 1).val = (0 : Fin 1).val; omega
    | ⟨1, _⟩ => show win0_12.index t (1 : Fin 2) * 15 + 1 * b.val = b.val; omega))
  rw [hi, e]
  exact Cert.RowBias.castRow_apply _ _ b

/-- Weight window 13 holds what the host operations before the region made of argument 11. -/
theorem blk13 (c : Dev nD) (t : Fin cfg0.N) (a : Fin 14) (b : Fin 14) :
    iblk m c 13 t (ix2 a b) = (m ((c : Thread nD τ).loc main_arg11)) (ix2 (Fin.natAdd 28 a) b) := by
  show V m c main_v10 (((cfg0.win 13).blk t).view.emb (ix2 a b)) = _
  have e : (V m c main_v10 : S14x14.Idx → EReal) = extractStridedSlice S14x14 ![28, 0] (m ((c : Thread nD τ).loc main_arg11)) slices_S42x14_S14x14_28_0 := by
    dsimp only [GenP.V, Gen.hostOps0]; after_results <;> rfl
  have hi : ((cfg0.win 13).blk t).view.emb (ix2 a b) = (ix2 a b) := (funext fun d => Fin.ext (by
    obtain ⟨e0, e1⟩ := idx13 t
    match d with
    | ⟨0, _⟩ => show win0_13.index t (0 : Fin 2) * 14 + 1 * a.val = a.val; omega
    | ⟨1, _⟩ => show win0_13.index t (1 : Fin 2) * 14 + 1 * b.val = b.val; omega))
  rw [hi, e]
  exact Cert.NormRow.sliceRows_apply 28 _ _ a b (Fin.natAdd 28 a) rfl

/-- Weight window 14 holds what the host operations before the region made of argument 12. -/
theorem blk14 (c : Dev nD) (t : Fin cfg0.N) (b : Fin 14) :
    iblk m c 14 t (ix2 (0 : Fin 1) b) = (m ((c : Thread nD τ).loc main_arg12)) (ix1 (Fin.natAdd 28 b)) := by
  show V m c main_v12 (((cfg0.win 14).blk t).view.emb (ix2 (0 : Fin 1) b)) = _
  have e : (V m c main_v12 : S1x14.Idx → EReal) = shapeCast S1x14 (extractStridedSlice S14 ![28] (m ((c : Thread nD τ).loc main_arg12)) slices_S42_S14_28) shapeCasts_S14_S1x14 := by
    dsimp only [GenP.V, Gen.hostOps0]; after_results <;> rfl
  have hi : ((cfg0.win 14).blk t).view.emb (ix2 (0 : Fin 1) b) = (ix2 (0 : Fin 1) b) := (funext fun d => Fin.ext (by
    obtain ⟨e0, e1⟩ := idx14 t
    match d with
    | ⟨0, _⟩ => show win0_14.index t (0 : Fin 2) * 1 + 1 * (0 : Fin 1).val = (0 : Fin 1).val; omega
    | ⟨1, _⟩ => show win0_14.index t (1 : Fin 2) * 14 + 1 * b.val = b.val; omega))
  rw [hi, e]
  exact (Cert.RowBias.castRow_apply _ _ b).trans (Cert.NormRow.sliceFlat_apply 28 _ _ b (Fin.natAdd 28 b) rfl)

/-- Weight window 15: the whole array, as launched. -/
theorem blk15 (c : Dev nD) (t : Fin cfg0.N) (a : Fin 14) (b : Fin 14) :
    iblk m c 15 t (ix2 a b) = (m ((c : Thread nD τ).loc main_arg13)) (ix2 a b) := by
  show V m c main_arg13 (((cfg0.win 15).blk t).view.emb (ix2 a b)) = _
  rw [V_main_arg13]
  exact congrArg _ (funext fun d => Fin.ext (by
    obtain ⟨e0, e1⟩ := idx15 t
    match d with
    | ⟨0, _⟩ => show win0_15.index t (0 : Fin 2) * 14 + 1 * a.val = a.val; omega
    | ⟨1, _⟩ => show win0_15.index t (1 : Fin 2) * 14 + 1 * b.val = b.val; omega))

/-- Weight window 16 holds what the host operations before the region made of argument 14. -/
theorem blk16 (c : Dev nD) (t : Fin cfg0.N) (b : Fin 14) :
    iblk m c 16 t (ix2 (0 : Fin 1) b) = (m ((c : Thread nD τ).loc main_arg14)) (ix1 b) := by
  show V m c main_v17 (((cfg0.win 16).blk t).view.emb (ix2 (0 : Fin 1) b)) = _
  have e : (V m c main_v17 : S1x14.Idx → EReal) = shapeCast S1x14 (m ((c : Thread nD τ).loc main_arg14)) shapeCasts_S14_S1x14 := by
    dsimp only [GenP.V, Gen.hostOps0]; after_results <;> rfl
  have hi : ((cfg0.win 16).blk t).view.emb (ix2 (0 : Fin 1) b) = (ix2 (0 : Fin 1) b) := (funext fun d => Fin.ext (by
    obtain ⟨e0, e1⟩ := idx16 t
    match d with
    | ⟨0, _⟩ => show win0_16.index t (0 : Fin 2) * 1 + 1 * (0 : Fin 1).val = (0 : Fin 1).val; omega
    | ⟨1, _⟩ => show win0_16.index t (1 : Fin 2) * 14 + 1 * b.val = b.val; omega))
  rw [hi, e]
  exact Cert.RowBias.castRow_apply _ _ b

/-- Weight window 17 holds what the host operations before the region made of argument 15. -/
theorem blk17 (c : Dev nD) (t : Fin cfg0.N) (a : Fin 14) (b : Fin 15) :
    iblk m c 17 t (ix2 a b) = (m ((c : Thread nD τ).loc main_arg15)) (ix2 a (Fin.castAdd 13 (Fin.castAdd 14 b))) := by
  show V m c main_v13 (((cfg0.win 17).blk t).view.emb (ix2 a b)) = _
  have e : (V m c main_v13 : S14x15.Idx → EReal) = extractStridedSlice S14x15 ![0, 0] (m ((c : Thread nD τ).loc main_arg15)) slices_S14x42_S14x15_0_0 := by
    dsimp only [GenP.V, Gen.hostOps0]; after_results <;> rfl
  have hi : ((cfg0.win 17).blk t).view.emb (ix2 a b) = (ix2 a b) := (funext fun d => Fin.ext (by
    obtain ⟨e0, e1⟩ := idx17 t
    match d with
    | ⟨0, _⟩ => show win0_17.index t (0 : Fin 2) * 14 + 1 * a.val = a.val; omega
    | ⟨1, _⟩ => show win0_17.index t (1 : Fin 2) * 15 + 1 * b.val = b.val; omega))
  rw [hi, e]
  exact Cert.NormRow.sliceCols_apply 0 _ _ a b (Fin.castAdd 13 (Fin.castAdd 14 b)) (by show b.val = 0 + b.val; omega)

/-- Weight window 18 holds what the host operations before the region made of argument 15. -/
theorem blk18 (c : Dev nD) (t : Fin cfg0.N) (a : Fin 14) (b : Fin 14) :
    iblk m c 18 t (ix2 a b) = (m ((c : Thread nD τ).loc main_arg15)) (ix2 a (Fin.castAdd 13 (Fin.natAdd 15 b))) := by
  show V m c main_v14 (((cfg0.win 18).blk t).view.emb (ix2 a b)) = _
  have e : (V m c main_v14 : S14x14.Idx → EReal) = extractStridedSlice S14x14 ![0, 15] (m ((c : Thread nD τ).loc main_arg15)) slices_S14x42_S14x14_0_15 := by
    dsimp only [GenP.V, Gen.hostOps0]; after_results <;> rfl
  have hi : ((cfg0.win 18).blk t).view.emb (ix2 a b) = (ix2 a b) := (funext fun d => Fin.ext (by
    obtain ⟨e0, e1⟩ := idx18 t
    match d with
    | ⟨0, _⟩ => show win0_18.index t (0 : Fin 2) * 14 + 1 * a.val = a.val; omega
    | ⟨1, _⟩ => show win0_18.index t (1 : Fin 2) * 14 + 1 * b.val = b.val; omega))
  rw [hi, e]
  exact Cert.NormRow.sliceCols_apply 15 _ _ a b (Fin.castAdd 13 (Fin.natAdd 15 b)) rfl

/-- Weight window 19 holds what the host operations before the region made of argument 15. -/
theorem blk19 (c : Dev nD) (t : Fin cfg0.N) (a : Fin 14) (b : Fin 13) :
    iblk m c 19 t (ix2 a b) = (m ((c : Thread nD τ).loc main_arg15)) (ix2 a (Fin.natAdd (15 + 14) b)) := by
  show V m c main_v15 (((cfg0.win 19).blk t).view.emb (ix2 a b)) = _
  have e : (V m c main_v15 : S14x13.Idx → EReal) = extractStridedSlice S14x13 ![0, 29] (m ((c : Thread nD τ).loc main_arg15)) slices_S14x42_S14x13_0_29 := by
    dsimp only [GenP.V, Gen.hostOps0]; after_results <;> rfl
  have hi : ((cfg0.win 19).blk t).view.emb (ix2 a b) = (ix2 a b) := (funext fun d => Fin.ext (by
    obtain ⟨e0, e1⟩ := idx19 t
    match d with
    | ⟨0, _⟩ => show win0_19.index t (0 : Fin 2) * 14 + 1 * a.val = a.val; omega
    | ⟨1, _⟩ => show win0_19.index t (1 : Fin 2) * 13 + 1 * b.val = b.val; omega))
  rw [hi, e]
  exact Cert.NormRow.sliceCols_apply 29 _ _ a b (Fin.natAdd (15 + 14) b) rfl

/-- Weight window 20 holds what the host operations before the region made of argument 16. -/
theorem blk20 (c : Dev nD) (t : Fin cfg0.N) (b : Fin 14) :
    iblk m c 20 t (ix2 (0 : Fin 1) b) = (m ((c : Thread nD τ).loc main_arg16)) (ix1 b) := by
  show V m c main_v16 (((cfg0.win 20).blk t).view.emb (ix2 (0 : Fin 1) b)) = _
  have e : (V m c main_v16 : S1x14.Idx → EReal) = shapeCast S1x14 (m ((c : Thread nD τ).loc main_arg16)) shapeCasts_S14_S1x14 := by
    dsimp only [GenP.V, Gen.hostOps0]; after_results <;> rfl
  have hi : ((cfg0.win 20).blk t).view.emb (ix2 (0 : Fin 1) b) = (ix2 (0 : Fin 1) b) := (funext fun d => Fin.ext (by
    obtain ⟨e0, e1⟩ := idx20 t
    match d with
    | ⟨0, _⟩ => show win0_20.index t (0 : Fin 2) * 1 + 1 * (0 : Fin 1).val = (0 : Fin 1).val; omega
    | ⟨1, _⟩ => show win0_20.index t (1 : Fin 2) * 14 + 1 * b.val = b.val; omega))
  rw [hi, e]
  exact Cert.RowBias.castRow_apply _ _ b

/-- Weight window 21 holds what the host operations before the region made of argument 17. -/
theorem blk21 (c : Dev nD) (t : Fin cfg0.N) (b : Fin 14) :
    iblk m c 21 t (ix2 (0 : Fin 1) b) = (m ((c : Thread nD τ).loc main_arg17)) (ix1 b) := by
  show V m c main_v18 (((cfg0.win 21).blk t).view.emb (ix2 (0 : Fin 1) b)) = _
  have e : (V m c main_v18 : S1x14.Idx → EReal) = shapeCast S1x14 (m ((c : Thread nD τ).loc main_arg17)) shapeCasts_S14_S1x14 := by
    dsimp only [GenP.V, Gen.hostOps0]; after_results <;> rfl
  have hi : ((cfg0.win 21).blk t).view.emb (ix2 (0 : Fin 1) b) = (ix2 (0 : Fin 1) b) := (funext fun d => Fin.ext (by
    obtain ⟨e0, e1⟩ := idx21 t
    match d with
    | ⟨0, _⟩ => show win0_21.index t (0 : Fin 2) * 1 + 1 * (0 : Fin 1).val = (0 : Fin 1).val; omega
    | ⟨1, _⟩ => show win0_21.index t (1 : Fin 2) * 14 + 1 * b.val = b.val; omega))
  rw [hi, e]
  exact Cert.RowBias.castRow_apply _ _ b

/-- Weight window 22 holds what the host operations before the region made of argument 18. -/
theorem blk22 (c : Dev nD) (t : Fin cfg0.N) (b : Fin 14) :
    iblk m c 22 t (ix2 (0 : Fin 1) b) = (m ((c : Thread nD τ).loc main_arg18)) (ix1 b) := by
  show V m c main_v19 (((cfg0.win 22).blk t).view.emb (ix2 (0 : Fin 1) b)) = _
  have e : (V m c main_v19 : S1x14.Idx → EReal) = shapeCast S1x14 (m ((c : Thread nD τ).loc main_arg18)) shapeCasts_S14_S1x14 := by
    dsimp only [GenP.V, Gen.hostOps0]; after_results <;> rfl
  have hi : ((cfg0.win 22).blk t).view.emb (ix2 (0 : Fin 1) b) = (ix2 (0 : Fin 1) b) := (funext fun d => Fin.ext (by
    obtain ⟨e0, e1⟩ := idx22 t
    match d with
    | ⟨0, _⟩ => show win0_22.index t (0 : Fin 2) * 1 + 1 * (0 : Fin 1).val = (0 : Fin 1).val; omega
    | ⟨1, _⟩ => show win0_22.index t (1 : Fin 2) * 14 + 1 * b.val = b.val; omega))
  rw [hi, e]
  exact Cert.RowBias.castRow_apply _ _ b

/-- Weight window 23 holds what the host operations before the region made of argument 19. -/
theorem blk23 (c : Dev nD) (t : Fin cfg0.N) (a : Fin 13) (b : Fin 13) :
    iblk m c 23 t (ix2 a b) = (m ((c : Thread nD τ).loc main_arg19)) (ix2 (Fin.natAdd 26 a) b) := by
  show V m c main_v20 (((cfg0.win 23).blk t).view.emb (ix2 a b)) = _
  have e : (V m c main_v20 : S13x13.Idx → EReal) = extractStridedSlice S13x13 ![26, 0] (m ((c : Thread nD τ).loc main_arg19)) slices_S39x13_S13x13_26_0 := by
    dsimp only [GenP.V, Gen.hostOps0]; after_results <;> rfl
  have hi : ((cfg0.win 23).blk t).view.emb (ix2 a b) = (ix2 a b) := (funext fun d => Fin.ext (by
    obtain ⟨e0, e1⟩ := idx23 t
    match d with
    | ⟨0, _⟩ => show win0_23.index t (0 : Fin 2) * 13 + 1 * a.val = a.val; omega
    | ⟨1, _⟩ => show win0_23.index t (1 : Fin 2) * 13 + 1 * b.val = b.val; omega))
  rw [hi, e]
  exact Cert.NormRow.sliceRows_apply 26 _ _ a b (Fin.natAdd 26 a) rfl

/-- Weight window 24 holds what the host operations before the region made of argument 20. -/
theorem blk24 (c : Dev nD) (t : Fin cfg0.N) (b : Fin 13) :
    iblk m c 24 t (ix2 (0 : Fin 1) b) = (m ((c : Thread nD τ).loc main_arg20)) (ix1 (Fin.natAdd 26 b)) := by
  show V m c main_v22 (((cfg0.win 24).blk t).view.emb (ix2 (0 : Fin 1) b)) = _
  have e : (V m c main_v22 : S1x13.Idx → EReal) = shapeCast S1x13 (extractStridedSlice S13 ![26] (m ((c : Thread nD τ).loc main_arg20)) slices_S39_S13_26) shapeCasts_S13_S1x13 := by
    dsimp only [GenP.V, Gen.hostOps0]; after_results <;> rfl
  have hi : ((cfg0.win 24).blk t).view.emb (ix2 (0 : Fin 1) b) = (ix2 (0 : Fin 1) b) := (funext fun d => Fin.ext (by
    obtain ⟨e0, e1⟩ := idx24 t
    match d with
    | ⟨0, _⟩ => show win0_24.index t (0 : Fin 2) * 1 + 1 * (0 : Fin 1).val = (0 : Fin 1).val; omega
    | ⟨1, _⟩ => show win0_24.index t (1 : Fin 2) * 13 + 1 * b.val = b.val; omega))
  rw [hi, e]
  exact (Cert.RowBias.castRow_apply _ _ b).trans (Cert.NormRow.sliceFlat_apply 26 _ _ b (Fin.natAdd 26 b) rfl)

/-- Weight window 25: the whole array, as launched. -/
theorem blk25 (c : Dev nD) (t : Fin cfg0.N) (a : Fin 13) (b : Fin 13) :
    iblk m c 25 t (ix2 a b) = (m ((c : Thread nD τ).loc main_arg21)) (ix2 a b) := by
  show V m c main_arg21 (((cfg0.win 25).blk t).view.emb (ix2 a b)) = _
  rw [V_main_arg21]
  exact congrArg _ (funext fun d => Fin.ext (by
    obtain ⟨e0, e1⟩ := idx25 t
    match d with
    | ⟨0, _⟩ => show win0_25.index t (0 : Fin 2) * 13 + 1 * a.val = a.val; omega
    | ⟨1, _⟩ => show win0_25.index t (1 : Fin 2) * 13 + 1 * b.val = b.val; omega))

/-- Weight window 26 holds what the host operations before the region made of argument 22. -/
theorem blk26 (c : Dev nD) (t : Fin cfg0.N) (b : Fin 13) :
    iblk m c 26 t (ix2 (0 : Fin 1) b) = (m ((c : Thread nD τ).loc main_arg22)) (ix1 b) := by
  show V m c main_v27 (((cfg0.win 26).blk t).view.emb (ix2 (0 : Fin 1) b)) = _
  have e : (V m c main_v27 : S1x13.Idx → EReal) = shapeCast S1x13 (m ((c : Thread nD τ).loc main_arg22)) shapeCasts_S13_S1x13 := by
    dsimp only [GenP.V, Gen.hostOps0]; after_results <;> rfl
  have hi : ((cfg0.win 26).blk t).view.emb (ix2 (0 : Fin 1) b) = (ix2 (0 : Fin 1) b) := (funext fun d => Fin.ext (by
    obtain ⟨e0, e1⟩ := idx26 t
    match d with
    | ⟨0, _⟩ => show win0_26.index t (0 : Fin 2) * 1 + 1 * (0 : Fin 1).val = (0 : Fin 1).val; omega
    | ⟨1, _⟩ => show win0_26.index t (1 : Fin 2) * 13 + 1 * b.val = b.val; omega))
  rw [hi, e]
  exact Cert.RowBias.castRow_apply _ _ b

/-- Weight window 27 holds what the host operations before the region made of argument 23. -/
theorem blk27 (c : Dev nD) (t : Fin cfg0.N) (a : Fin 13) (b : Fin 15) :
    iblk m c 27 t (ix2 a b) = (m ((c : Thread nD τ).loc main_arg23)) (ix2 a (Fin.castAdd 13 (Fin.castAdd 14 b))) := by
  show V m c main_v23 (((cfg0.win 27).blk t).view.emb (ix2 a b)) = _
  have e : (V m c main_v23 : S13x15.Idx → EReal) = extractStridedSlice S13x15 ![0, 0] (m ((c : Thread nD τ).loc main_arg23)) slices_S13x42_S13x15_0_0 := by
    dsimp only [GenP.V, Gen.hostOps0]; after_results <;> rfl
  have hi : ((cfg0.win 27).blk t).view.emb (ix2 a b) = (ix2 a b) := (funext fun d => Fin.ext (by
    obtain ⟨e0, e1⟩ := idx27 t
    match d with
    | ⟨0, _⟩ => show win0_27.index t (0 : Fin 2) * 13 + 1 * a.val = a.val; omega
    | ⟨1, _⟩ => show win0_27.index t (1 : Fin 2) * 15 + 1 * b.val = b.val; omega))
  rw [hi, e]
  exact Cert.NormRow.sliceCols_apply 0 _ _ a b (Fin.castAdd 13 (Fin.castAdd 14 b)) (by show b.val = 0 + b.val; omega)

/-- Weight window 28 holds what the host operations before the region made of argument 23. -/
theorem blk28 (c : Dev nD) (t : Fin cfg0.N) (a : Fin 13) (b : Fin 14) :
    iblk m c 28 t (ix2 a b) = (m ((c : Thread nD τ).loc main_arg23)) (ix2 a (Fin.castAdd 13 (Fin.natAdd 15 b))) := by
  show V m c main_v24 (((cfg0.win 28).blk t).view.emb (ix2 a b)) = _
  have e : (V m c main_v24 : S13x14.Idx → EReal) = extractStridedSlice S13x14 ![0, 15] (m ((c : Thread nD τ).loc main_arg23)) slices_S13x42_S13x14_0_15 := by
    dsimp only [GenP.V, Gen.hostOps0]; after_results <;> rfl
  have hi : ((cfg0.win 28).blk t).view.emb (ix2 a b) = (ix2 a b) := (funext fun d => Fin.ext (by
    obtain ⟨e0, e1⟩ := idx28 t
    match d with
    | ⟨0, _⟩ => show win0_28.index t (0 : Fin 2) * 13 + 1 * a.val = a.val; omega
    | ⟨1, _⟩ => show win0_28.index t (1 : Fin 2) * 14 + 1 * b.val = b.val; omega))
  rw [hi, e]
  exact Cert.NormRow.sliceCols_apply 15 _ _ a b (Fin.castAdd 13 (Fin.natAdd 15 b)) rfl

/-- Weight window 29 holds what the host operations before the region made of argument 23. -/
theorem blk29 (c : Dev nD) (t : Fin cfg0.N) (a : Fin 13) (b : Fin 13) :
    iblk m c 29 t (ix2 a b) = (m ((c : Thread nD τ).loc main_arg23)) (ix2 a (Fin.natAdd (15 + 14) b)) := by
  show V m c main_v25 (((cfg0.win 29).blk t).view.emb (ix2 a b)) = _
  have e : (V m c main_v25 : S13x13.Idx → EReal) = extractStridedSlice S13x13 ![0, 29] (m ((c : Thread nD τ).loc main_arg23)) slices_S13x42_S13x13_0_29 := by
    dsimp only [GenP.V, Gen.hostOps0]; after_results <;> rfl
  have hi : ((cfg0.win 29).blk t).view.emb (ix2 a b) = (ix2 a b) := (funext fun d => Fin.ext (by
    obtain ⟨e0, e1⟩ := idx29 t
    match d with
    | ⟨0, _⟩ => show win0_29.index t (0 : Fin 2) * 13 + 1 * a.val = a.val; omega
    | ⟨1, _⟩ => show win0_29.index t (1 : Fin 2) * 13 + 1 * b.val = b.val; omega))
  rw [hi, e]
  exact Cert.NormRow.sliceCols_apply 29 _ _ a b (Fin.natAdd (15 + 14) b) rfl

/-- Weight window 30 holds what the host operations before the region made of argument 24. -/
theorem blk30 (c : Dev nD) (t : Fin cfg0.N) (b : Fin 13) :
    iblk m c 30 t (ix2 (0 : Fin 1) b) = (m ((c : Thread nD τ).loc main_arg24)) (ix1 b) := by
  show V m c main_v26 (((cfg0.win 30).blk t).view.emb (ix2 (0 : Fin 1) b)) = _
  have e : (V m c main_v26 : S1x13.Idx → EReal) = shapeCast S1x13 (m ((c : Thread nD τ).loc main_arg24)) shapeCasts_S13_S1x13 := by
    dsimp only [GenP.V, Gen.hostOps0]; after_results <;> rfl
  have hi : ((cfg0.win 30).blk t).view.emb (ix2 (0 : Fin 1) b) = (ix2 (0 : Fin 1) b) := (funext fun d => Fin.ext (by
    obtain ⟨e0, e1⟩ := idx30 t
    match d with
    | ⟨0, _⟩ => show win0_30.index t (0 : Fin 2) * 1 + 1 * (0 : Fin 1).val = (0 : Fin 1).val; omega
    | ⟨1, _⟩ => show win0_30.index t (1 : Fin 2) * 13 + 1 * b.val = b.val; omega))
  rw [hi, e]
  exact Cert.RowBias.castRow_apply _ _ b

/-- Weight window 31 holds what the host operations before the region made of argument 25. -/
theorem blk31 (c : Dev nD) (t : Fin cfg0.N) (b : Fin 13) :
    iblk m c 31 t (ix2 (0 : Fin 1) b) = (m ((c : Thread nD τ).loc main_arg25)) (ix1 b) := by
  show V m c main_v28 (((cfg0.win 31).blk t).view.emb (ix2 (0 : Fin 1) b)) = _
  have e : (V m c main_v28 : S1x13.Idx → EReal) = shapeCast S1x13 (m ((c : Thread nD τ).loc main_arg25)) shapeCasts_S13_S1x13 := by
    dsimp only [GenP.V, Gen.hostOps0]; after_results <;> rfl
  have hi : ((cfg0.win 31).blk t).view.emb (ix2 (0 : Fin 1) b) = (ix2 (0 : Fin 1) b) := (funext fun d => Fin.ext (by
    obtain ⟨e0, e1⟩ := idx31 t
    match d with
    | ⟨0, _⟩ => show win0_31.index t (0 : Fin 2) * 1 + 1 * (0 : Fin 1).val = (0 : Fin 1).val; omega
    | ⟨1, _⟩ => show win0_31.index t (1 : Fin 2) * 13 + 1 * b.val = b.val; omega))
  rw [hi, e]
  exact Cert.RowBias.castRow_apply _ _ b

/-- Weight window 32 holds what the host operations before the region made of argument 26. -/
theorem blk32 (c : Dev nD) (t : Fin cfg0.N) (b : Fin 13) :
    iblk m c 32 t (ix2 (0 : Fin 1) b) = (m ((c : Thread nD τ).loc main_arg26)) (ix1 b) := by
  show V m c main_v29 (((cfg0.win 32).blk t).view.emb (ix2 (0 : Fin 1) b)) = _
  have e : (V m c main_v29 : S1x13.Idx → EReal) = shapeCast S1x13 (m ((c : Thread nD τ).loc main_arg26)) shapeCasts_S13_S1x13 := by
    dsimp only [GenP.V, Gen.hostOps0]; after_results <;> rfl
  have hi : ((cfg0.win 32).blk t).view.emb (ix2 (0 : Fin 1) b) = (ix2 (0 : Fin 1) b) := (funext fun d => Fin.ext (by
    obtain ⟨e0, e1⟩ := idx32 t
    match d with
    | ⟨0, _⟩ => show win0_32.index t (0 : Fin 2) * 1 + 1 * (0 : Fin 1).val = (0 : Fin 1).val; omega
    | ⟨1, _⟩ => show win0_32.index t (1 : Fin 2) * 13 + 1 * b.val = b.val; omega))
  rw [hi, e]
  exact Cert.RowBias.castRow_apply _ _ b

end Cert.KernelIdeal.Blocks

end
-- ==== Proof.KernelPayCxr.lean ====
/-
  What the kernel's body stores, row by row.

  The body loads the three data blocks `[2048, 15]`, `[2048, 14]`, `[2048, 13]` and, per branch, ten small weight blocks. For
  each branch it multiplies the three data blocks by the transposes of three context weight blocks in the matrix unit, adds
  the three products and a bias row (the mixed context), applies two affine layers with transposed weights, adds the
  branch's own data block, and normalises every row (lane sum, mean, squared deviations, lane sum, reciprocal square
  root, scale, shift). Entry `(p, q)` of each stored value depends on row `p` of the three data blocks only: it is
  `branchRow` of those rows.
-/
import proofs.«137668_j54631984005204_1_alg».proof.Proof.Gen.KernelIdeal.Skeleton
import proofs.«137668_j54631984005204_1_alg».proof.Proof.LibNormRow

noncomputable section

open scoped BigOperators

namespace Cert.KernelIdeal.Pay

open Cert.KernelIdeal Cert.KernelIdeal.Gen Idealize.ShloMosaic Idealize.ShloMosaic.ValueIdx Cert.NormRow

/-- The value stored to result window 33, at entry `(p, q)` of the block: `branchRow` of row `p` of the loaded blocks. The
    data row is `v0`; the three context rows are `v0`, `v1`, `v2`. -/
theorem pay33_apply (v0 : Vec Ideal S2048x15 .f32) (v1 : Vec Ideal S2048x14 .f32) (v2 : Vec Ideal S2048x13 .f32)
    (w0 : Vec Ideal S15x15 .f32) (w1 : Vec Ideal S15x14 .f32) (w2 : Vec Ideal S15x13 .f32) (kb : Vec Ideal S1x15 .f32)
    (vw : Vec Ideal S15x15 .f32) (vb : Vec Ideal S1x15 .f32) (ow : Vec Ideal S15x15 .f32) (ob lg lb : Vec Ideal S1x15 .f32)
    (p : Fin 2048) (q : Fin 15) :
    k0_pay3 v0 (k0_pay2 v0 v1 v2 w0 w1 w2 kb vw vb ow) ob lg lb (ix2 p q)
      = branchRow (Ideal.ofBits .f32 0x41700000#32) (Ideal.ofBits .f32 0x3727C5AC#32) (fun q => v0 (ix2 p q))
          (fun k => v0 (ix2 p k)) (fun k => v1 (ix2 p k)) (fun k => v2 (ix2 p k))
          (fun c k => w0 (ix2 c k)) (fun c k => w1 (ix2 c k)) (fun c k => w2 (ix2 c k)) (fun c => kb (ix2 (0 : Fin 1) c))
          (fun c k => vw (ix2 c k)) (fun c => vb (ix2 (0 : Fin 1) c)) (fun c k => ow (ix2 c k)) (fun c => ob (ix2 (0 : Fin 1) c))
          (fun c => lg (ix2 (0 : Fin 1) c)) (fun c => lb (ix2 (0 : Fin 1) c)) q := by
  -- the normalisation, over the residual sum as a whole
  refine (kernelLN_apply (addf v0 (addf (k0_pay2 v0 v1 v2 w0 w1 w2 kb vw vb ow) (broadcastTo S2048x15 (shapeCast S1x15 ob shapeCasts_S1x15_S1x15) broadcasts_S1x15_S2048x15))) lg lb 0x41700000#32 0x3727C5AC#32 _ _ _ _ _ _ _ p q).trans ?_
  unfold branchRow
  refine congrArg (fun y => lnRow _ _ y _ _ q) (funext fun k => ?_)
  -- the residual sum: the data row plus the outer affine layer
  show v0 (ix2 p k) + _ = v0 (ix2 p k) + _
  refine congrArg (v0 (ix2 p k) + ·) ?_
  refine (kernelAffT_apply none _ ow ob _ _ _ p k).trans ?_
  refine congrArg (fun r => affT r (fun c j => ow (ix2 c j)) (fun c => ob (ix2 (0 : Fin 1) c)) k) (funext fun j => ?_)
  -- the inner affine layer
  refine (kernelAffT_apply none _ (shapeCast S15x15 vw shapeCasts_S15x15_S15x15) vb _ _ _ p j).trans ?_
  rw [shapeCast_self vw]
  refine congrArg (fun r => affT r (fun c l => vw (ix2 c l)) (fun c => vb (ix2 (0 : Fin 1) c)) j) (funext fun l => ?_)
  -- the mixed context: three products with transposed weights, added, plus the bias row
  refine (kernelKv_apply none v0 v1 v2 (shapeCast S15x15 w0 shapeCasts_S15x15_S15x15)
    (shapeCast S15x14 w1 shapeCasts_S15x14_S15x14) (shapeCast S15x13 w2 shapeCasts_S15x13_S15x13) kb _ _ _ _ _ p l).trans ?_
  simp only [shapeCast_self]

end Cert.KernelIdeal.Pay

end
-- ==== Proof.KernelPayEcg.lean ====
/-
  What the kernel's body stores, row by row.

  The body loads the three data blocks `[2048, 15]`, `[2048, 14]`, `[2048, 13]` and, per branch, ten small weight blocks. For
  each branch it multiplies the three data blocks by the transposes of three context weight blocks in the matrix unit, adds
  the three products and a bias row (the mixed context), applies two affine layers with transposed weights, adds the
  branch's own data block, and normalises every row (lane sum, mean, squared deviations, lane sum, reciprocal square
  root, scale, shift). Entry `(p, q)` of each stored value depends on row `p` of the three data blocks only: it is
  `branchRow` of those rows.
-/
import proofs.«137668_j54631984005204_1_alg».proof.Proof.Gen.KernelIdeal.Skeleton
import proofs.«137668_j54631984005204_1_alg».proof.Proof.LibNormRow

noncomputable section

open scoped BigOperators

namespace Cert.KernelIdeal.Pay

open Cert.KernelIdeal Cert.KernelIdeal.Gen Idealize.ShloMosaic Idealize.ShloMosaic.ValueIdx Cert.NormRow

/-- The value stored to result window 34, at entry `(p, q)` of the block: `branchRow` of row `p` of the loaded blocks. The
    data row is `v1`; the three context rows are `v0`, `v1`, `v2`. -/
theorem pay34_apply (v0 : Vec Ideal S2048x15 .f32) (v1 : Vec Ideal S2048x14 .f32) (v2 : Vec Ideal S2048x13 .f32)
    (w0 : Vec Ideal S14x15 .f32) (w1 : Vec Ideal S14x14 .f32) (w2 : Vec Ideal S14x13 .f32) (kb : Vec Ideal S1x14 .f32)
    (vw : Vec Ideal S14x14 .f32) (vb : Vec Ideal S1x14 .f32) (ow : Vec Ideal S14x14 .f32) (ob lg lb : Vec Ideal S1x14 .f32)
    (p : Fin 2048) (q : Fin 14) :
    k0_pay9 (k0_pay7 v1 v2 (k0_pay4 v0 v1 w0 w1) w2 kb vw vb ow ob) (k0_pay8 v1 v2 (k0_pay4 v0 v1 w0 w1) w2 kb vw vb ow ob) lg lb (ix2 p q)
      = branchRow (Ideal.ofBits .f32 0x41600000#32) (Ideal.ofBits .f32 0x3727C5AC#32) (fun q => v1 (ix2 p q))
          (fun k => v0 (ix2 p k)) (fun k => v1 (ix2 p k)) (fun k => v2 (ix2 p k))
          (fun c k => w0 (ix2 c k)) (fun c k => w1 (ix2 c k)) (fun c k => w2 (ix2 c k)) (fun c => kb (ix2 (0 : Fin 1) c))
          (fun c k => vw (ix2 c k)) (fun c => vb (ix2 (0 : Fin 1) c)) (fun c k => ow (ix2 c k)) (fun c => ob (ix2 (0 : Fin 1) c))
          (fun c => lg (ix2 (0 : Fin 1) c)) (fun c => lb (ix2 (0 : Fin 1) c)) q := by
  -- the normalisation, over the residual sum as a whole
  refine (kernelLN_apply (k0_pay5 v1 v2 (k0_pay4 v0 v1 w0 w1) w2 kb vw vb ow ob) lg lb 0x41600000#32 0x3727C5AC#32 _ _ _ _ _ _ _ p q).trans ?_
  unfold branchRow
  refine congrArg (fun y => lnRow _ _ y _ _ q) (funext fun k => ?_)
  -- the residual sum: the data row plus the outer affine layer
  show v1 (ix2 p k) + _ = v1 (ix2 p k) + _
  refine congrArg (v1 (ix2 p k) + ·) ?_
  refine (kernelAffT_apply none _ ow ob _ _ _ p k).trans ?_
  refine congrArg (fun r => affT r (fun c j => ow (ix2 c j)) (fun c => ob (ix2 (0 : Fin 1) c)) k) (funext fun j => ?_)
  -- the inner affine layer
  refine (kernelAffT_apply none _ (shapeCast S14x14 vw shapeCasts_S14x14_S14x14) vb _ _ _ p j).trans ?_
  rw [shapeCast_self vw]
  refine congrArg (fun r => affT r (fun c l => vw (ix2 c l)) (fun c => vb (ix2 (0 : Fin 1) c)) j) (funext fun l => ?_)
  -- the mixed context: three products with transposed weights, added, plus the bias row
  refine (kernelKv_apply none v0 v1 v2 (shapeCast S14x15 w0 shapeCasts_S14x15_S14x15)
    (shapeCast S14x14 w1 shapeCasts_S14x14_S14x14) (shapeCast S14x13 w2 shapeCasts_S14x13_S14x13) kb _ _ _ _ _ p l).trans ?_
  simp only [shapeCast_self]

end Cert.KernelIdeal.Pay

end
-- ==== Proof.KernelPayEhr.lean ====
/-
  What the kernel's body stores, row by row.

  The body loads the three data blocks `[2048, 15]`, `[2048, 14]`, `[2048, 13]` and, per branch, ten small weight blocks. For
  each branch it multiplies the three data blocks by the transposes of three context weight blocks in the matrix unit, adds
  the three products and a bias row (the mixed context), applies two affine layers with transposed weights, adds the
  branch's own data block, and normalises every row (lane sum, mean, squared deviations, lane sum, reciprocal square
  root, scale, shift). Entry `(p, q)` of each stored value depends on row `p` of the three data blocks only: it is
  `branchRow` of those rows.
-/
import proofs.«137668_j54631984005204_1_alg».proof.Proof.Gen.KernelIdeal.Skeleton
import proofs.«137668_j54631984005204_1_alg».proof.Proof.LibNormRow

noncomputable section

open scoped BigOperators

namespace Cert.KernelIdeal.Pay

open Cert.KernelIdeal Cert.KernelIdeal.Gen Idealize.ShloMosaic Idealize.ShloMosaic.ValueIdx Cert.NormRow

/-- The value stored to result window 35, at entry `(p, q)` of the block: `branchRow` of row `p` of the loaded blocks. The
    data row is `v2`; the three context rows are `v0`, `v1`, `v2`. -/
theorem pay35_apply (v0 : Vec Ideal S2048x15 .f32) (v1 : Vec Ideal S2048x14 .f32) (v2 : Vec Ideal S2048x13 .f32)
    (w0 : Vec Ideal S13x15 .f32) (w1 : Vec Ideal S13x14 .f32) (w2 : Vec Ideal S13x13 .f32) (kb : Vec Ideal S1x13 .f32)
    (vw : Vec Ideal S13x13 .f32) (vb : Vec Ideal S1x13 .f32) (ow : Vec Ideal S13x13 .f32) (ob lg lb : Vec Ideal S1x13 .f32)
    (p : Fin 2048) (q : Fin 13) :
    k0_pay1 v2 (k0_pay10 v0 v1 v2 w0 w1 w2 kb vw vb) ow ob lg lb (ix2 p q)
      = branchRow (Ideal.ofBits .f32 0x41500000#32) (Ideal.ofBits .f32 0x3727C5AC#32) (fun q => v2 (ix2 p q))
          (fun k => v0 (ix2 p k)) (fun k => v1 (ix2 p k)) (fun k => v2 (ix2 p k))
          (fun c k => w0 (ix2 c k)) (fun c k => w1 (ix2 c k)) (fun c k => w2 (ix2 c k)) (fun c => kb (ix2 (0 : Fin 1) c))
          (fun c k => vw (ix2 c k)) (fun c => vb (ix2 (0 : Fin 1) c)) (fun c k => ow (ix2 c k)) (fun c => ob (ix2 (0 : Fin 1) c))
          (fun c => lg (ix2 (0 : Fin 1) c)) (fun c => lb (ix2 (0 : Fin 1) c)) q := by
  -- the normalisation, over the residual sum as a whole
  refine (kernelLN_apply (addf v2 (addf (matmul dot_S2048x13_S13x13_S2048x13_1_0_0_1_n_n none (k0_pay10 v0 v1 v2 w0 w1 w2 kb vw vb) (transpose S13x13 [1, 0] ow transposes_S13x13_p1_0_S13x13) (constant S2048x13 .f32 0x00000000#32)) (broadcastTo S2048x13 (shapeCast S1x13 ob shapeCasts_S1x13_S1x13) broadcasts_S1x13_S2048x13))) lg lb 0x41500000#32 0x3727C5AC#32 _ _ _ _ _ _ _ p q).trans ?_
  unfold branchRow
  refine congrArg (fun y => lnRow _ _ y _ _ q) (funext fun k => ?_)
  -- the residual sum: the data row plus the outer affine layer
  show v2 (ix2 p k) + _ = v2 (ix2 p k) + _
  refine congrArg (v2 (ix2 p k) + ·) ?_
  refine (kernelAffT_apply none _ ow ob _ _ _ p k).trans ?_
  refine congrArg (fun r => affT r (fun c j => ow (ix2 c j)) (fun c => ob (ix2 (0 : Fin 1) c)) k) (funext fun j => ?_)
  -- the inner affine layer
  refine (kernelAffT_apply none _ (shapeCast S13x13 vw shapeCasts_S13x13_S13x13) vb _ _ _ p j).trans ?_
  rw [shapeCast_self vw]
  refine congrArg (fun r => affT r (fun c l => vw (ix2 c l)) (fun c => vb (ix2 (0 : Fin 1) c)) j) (funext fun l => ?_)
  -- the mixed context: three products with transposed weights, added, plus the bias row
  refine (kernelKv_apply none v0 v1 v2 (shapeCast S13x15 w0 shapeCasts_S13x15_S13x15)
    (shapeCast S13x14 w1 shapeCasts_S13x14_S13x14) (shapeCast S13x13 w2 shapeCasts_S13x13_S13x13) kb _ _ _ _ _ p l).trans ?_
  simp only [shapeCast_self]

end Cert.KernelIdeal.Pay

end
-- ==== Proof.LibRunAnd.lean ====
/-
  Two facts about every execution of one program from one state hold together.

  `θ_run defs p s Q` says: every weakly fair execution of `p` from `s` terminates, without a fault, in a state
  satisfying `Q`. Termination and absence of faults do not mention `Q`, and a final state reached satisfies both posts
  if it satisfies each: so two such statements about the same program and state give the statement for the conjunction.
-/
import Idealize.ShloMosaic.Machine.Run

namespace Cert.RunAnd

open Idealize.ShloMosaic Idealize.SL.Sem

variable {nD : Nat} {τ : Topo} {sig : RefSig} {Val : EltTy → Type} {Λ : Labels}

/-- If every weakly fair execution of `p` from `s` ends in `Q`, and every one ends in `Q'`, then every one ends in
    `Q ∧ Q'`. General: any mesh, signature, value type and body table. -/
theorem θ_run_and (defs : Defs nD τ sig Val Λ) (p : (c : Thread nD τ) → Prog (TpuEff nD τ sig Val Λ c.2) PUnit)
    (s : MemSt nD τ sig Val) {Q Q' : PUnit × MemSt nD τ sig Val → Prop}
    (h : θ_run defs p s Q) (h' : θ_run defs p s Q') : θ_run defs p s (fun r => Q r ∧ Q' r) := by
  have h1 : MeshRun defs (fun m' => Q (⟨⟩, m')) (load p s) := h
  have h2 : MeshRun defs (fun m' => Q' (⟨⟩, m')) (load p s) := h'
  exact (⟨fun t ht hf => ⟨h1.post t ht hf, h2.post t ht hf⟩, h1.progress, h1.fair⟩ :
    MeshRun defs (fun m' => Q (⟨⟩, m') ∧ Q' (⟨⟩, m')) (load p s))

end Cert.RunAnd
-- ==== Proof.KernelArrays.lean ====
/-
  From blocks to whole arrays.

  Each of the 1024 grid points writes back one block `[2048, E]` of each result array: rows `2048 t .. 2048 t + 2047`,
  all lanes. What it writes is the body's stored value of the blocks it loaded, and by the row-wise reading of that value
  it is the same rows of ONE whole-array function of the argument arrays, `mixed`. The 1024 blocks tile the 2097152 rows,
  so after the run each result array IS that function of the launch contents, and the run leaves every argument array as
  launched.
-/
import proofs.«137668_j54631984005204_1_alg».proof.Proof.KernelBlocks
import proofs.«137668_j54631984005204_1_alg».proof.Proof.KernelPayCxr
import proofs.«137668_j54631984005204_1_alg».proof.Proof.KernelPayEcg
import proofs.«137668_j54631984005204_1_alg».proof.Proof.KernelPayEhr
import proofs.«137668_j54631984005204_1_alg».proof.Proof.LibRunAnd

set_option maxRecDepth 16384

noncomputable section

namespace Cert.KernelIdeal.Arrays

open Cert.KernelIdeal Cert.KernelIdeal.Gen Cert.KernelIdeal.GenP Idealize.ShloMosaic Idealize.ShloMosaic.TcCoe Idealize.SL.Sem
open Idealize.ShloMosaic.ValueIdx Cert.NormRow
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Result window 33 -/

/-- What the result array 0 ends holding: `mixed` of the launch contents of the argument arrays. -/
abbrev G33 (c : Dev nD) : S2097152x15.Idx → EReal :=
  (mixed (B := 2097152) (n0 := 15) (n1 := 14) (n2 := 13) (E := 15) 30 0x41700000#32 0x3727C5AC#32 (m ((c : Thread nD τ).loc main_arg0)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))

/-- WHAT POINT `t` WRITES BACK is block `t` of `G33`: rows `2048 t ..` of the data arrays enter, and the whole weight arrays. -/
theorem flushed33_eq (c : Dev nD) (t : Fin cfg0.N) :
    (dats m 0 c).flushed 33 t = ((cfg0.win 33).blk t).view.read (Elt Ideal) (G33 m c) := by
  show (cfg0.win 33).cut (grid0.coords t) ((dats m 0 c).after 33 t) = _
  rw [after0_33]
  unfold out0_33
  rw [View.canon_unit_zero hz]
  simp only [View.ld_unit_zero (S := S2048x15) hz, View.ld_unit_zero (S := S2048x14) hz, View.ld_unit_zero (S := S2048x13) hz, View.ld_unit_zero (S := S15x15) hz, View.ld_unit_zero (S := S15x14) hz, View.ld_unit_zero (S := S15x13) hz, View.ld_unit_zero (S := S1x15) hz, View.ld_unit_zero (S := S14x15) hz, View.ld_unit_zero (S := S14x14) hz, View.ld_unit_zero (S := S14x13) hz, View.ld_unit_zero (S := S1x14) hz, View.ld_unit_zero (S := S13x15) hz, View.ld_unit_zero (S := S13x14) hz, View.ld_unit_zero (S := S13x13) hz, View.ld_unit_zero (S := S1x13) hz]
  funext y
  obtain ⟨p, q, rfl⟩ : ∃ (p : Fin 2048) (q : Fin 15), y = ix2 p q := ⟨y 0, y 1, eq_ix2 y⟩
  have ht : t.val < 1024 := t.isLt
  have hp : p.val < 2048 := p.isLt
  have hrlt : t.val * 2048 + p.val < 2097152 := by omega
  have hi : ((cfg0.win 33).blk t).view.emb (ix2 p q) = ix2 (⟨t.val * 2048 + p.val, hrlt⟩ : Fin 2097152) q :=
    funext fun d => Fin.ext (by
      obtain ⟨e0, e1⟩ := Blocks.idx33 t
      match d with
      | ⟨0, _⟩ => show win0_33.index t (0 : Fin 2) * 2048 + 1 * p.val = t.val * 2048 + p.val; omega
      | ⟨1, _⟩ => show win0_33.index t (1 : Fin 2) * 15 + 1 * q.val = q.val; omega)
  show k0_pay3 (iblk m c 0 t) (k0_pay2 (iblk m c 0 t) (iblk m c 1 t) (iblk m c 2 t) (iblk m c 7 t) (iblk m c 8 t) (iblk m c 9 t) (iblk m c 10 t) (iblk m c 3 t) (iblk m c 4 t) (iblk m c 5 t)) (iblk m c 6 t) (iblk m c 11 t) (iblk m c 12 t) (ix2 p q) = G33 m c (((cfg0.win 33).blk t).view.emb (ix2 p q))
  rw [hi]
  refine (Pay.pay33_apply (iblk m c 0 t) (iblk m c 1 t) (iblk m c 2 t) (iblk m c 7 t) (iblk m c 8 t) (iblk m c 9 t) (iblk m c 10 t) (iblk m c 3 t) (iblk m c 4 t) (iblk m c 5 t) (iblk m c 6 t) (iblk m c 11 t) (iblk m c 12 t) p q).trans ?_
  simp only [Blocks.blk0 m c t _ _ (⟨t.val * 2048 + p.val, hrlt⟩ : Fin 2097152) rfl,
    Blocks.blk1 m c t _ _ (⟨t.val * 2048 + p.val, hrlt⟩ : Fin 2097152) rfl,
    Blocks.blk2 m c t _ _ (⟨t.val * 2048 + p.val, hrlt⟩ : Fin 2097152) rfl,
    Blocks.blk7 m c t, Blocks.blk8 m c t, Blocks.blk9 m c t, Blocks.blk10 m c t, Blocks.blk3 m c t, Blocks.blk4 m c t, Blocks.blk5 m c t, Blocks.blk6 m c t, Blocks.blk11 m c t, Blocks.blk12 m c t]
  rfl

/-- An index of the array is in point `t`'s block iff each coordinate is in the block's range on its axis. -/
theorem mem_blk33 (t : Fin cfg0.N) (i : S2097152x15.Idx) :
    i ∈ ((cfg0.win 33).blk t).view.set ↔ ∀ a : Fin 2, win0_33.index t a * S2048x15.size a ≤ (i a).val ∧ (i a).val < win0_33.index t a * S2048x15.size a + S2048x15.size a := by
  show i ∈ ((View.whole main_v30_0).slice (win0_33.rect t)).set ↔ _
  rw [View.set_slice_whole, Rect.mem_set_unit]
  exact Iff.rfl

/-- Every row of the array is in some point's block: row `r` in the block of point `r / 2048`. -/
theorem cover33 (i : S2097152x15.Idx) :
    ∃ t : Fin cfg0.N, (cfg0.win 33).flush t = true ∧ i ∈ ((cfg0.win 33).blk t).view.set := by
  have h0 : (i 0).val < 2097152 := (i 0).isLt
  have h1 : (i 1).val < 15 := (i 1).isLt
  have hlt : (i 0).val / 2048 < cfg0.N := by show (i 0).val / 2048 < 1024; omega
  refine ⟨(⟨(i 0).val / 2048, hlt⟩ : Fin cfg0.N), flush0_33 _, ?_⟩
  rw [mem_blk33]
  obtain ⟨e0, e1⟩ := Blocks.idx33 (⟨(i 0).val / 2048, hlt⟩ : Fin cfg0.N)
  have e0' : win0_33.index (⟨(i 0).val / 2048, hlt⟩ : Fin cfg0.N) (0 : Fin 2) = (i 0).val / 2048 := e0
  intro a
  match a with
  | ⟨0, _⟩ =>
      show win0_33.index (⟨(i 0).val / 2048, hlt⟩ : Fin cfg0.N) (0 : Fin 2) * 2048 ≤ (i 0).val
        ∧ (i 0).val < win0_33.index (⟨(i 0).val / 2048, hlt⟩ : Fin cfg0.N) (0 : Fin 2) * 2048 + 2048
      omega
  | ⟨1, _⟩ =>
      show win0_33.index (⟨(i 0).val / 2048, hlt⟩ : Fin cfg0.N) (1 : Fin 2) * 15 ≤ (i 1).val
        ∧ (i 1).val < win0_33.index (⟨(i 0).val / 2048, hlt⟩ : Fin cfg0.N) (1 : Fin 2) * 15 + 15
      omega

/-- THE ARRAY after the run is `G33`. -/
theorem final33 (c : Dev nD) : (dats m 0 c).arrAt 33 cfg0.N = G33 m c :=
  (dats m 0 c).arrAt_eq_of_cover 33 (G33 m c) (fun t _ => flushed33_eq m c t) (cover33)

/-! ## Result window 34 -/

/-- What the result array 1 ends holding: `mixed` of the launch contents of the argument arrays. -/
abbrev G34 (c : Dev nD) : S2097152x14.Idx → EReal :=
  (mixed (B := 2097152) (n0 := 15) (n1 := 14) (n2 := 13) (E := 14) 28 0x41600000#32 0x3727C5AC#32 (m ((c : Thread nD τ).loc main_arg1)) (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)))

/-- WHAT POINT `t` WRITES BACK is block `t` of `G34`: rows `2048 t ..` of the data arrays enter, and the whole weight arrays. -/
theorem flushed34_eq (c : Dev nD) (t : Fin cfg0.N) :
    (dats m 0 c).flushed 34 t = ((cfg0.win 34).blk t).view.read (Elt Ideal) (G34 m c) := by
  show (cfg0.win 34).cut (grid0.coords t) ((dats m 0 c).after 34 t) = _
  rw [after0_34]
  unfold out0_34
  rw [View.canon_unit_zero hz]
  simp only [View.ld_unit_zero (S := S2048x15) hz, View.ld_unit_zero (S := S2048x14) hz, View.ld_unit_zero (S := S2048x13) hz, View.ld_unit_zero (S := S15x15) hz, View.ld_unit_zero (S := S15x14) hz, View.ld_unit_zero (S := S15x13) hz, View.ld_unit_zero (S := S1x15) hz, View.ld_unit_zero (S := S14x15) hz, View.ld_unit_zero (S := S14x14) hz, View.ld_unit_zero (S := S14x13) hz, View.ld_unit_zero (S := S1x14) hz, View.ld_unit_zero (S := S13x15) hz, View.ld_unit_zero (S := S13x14) hz, View.ld_unit_zero (S := S13x13) hz, View.ld_unit_zero (S := S1x13) hz]
  funext y
  obtain ⟨p, q, rfl⟩ : ∃ (p : Fin 2048) (q : Fin 14), y = ix2 p q := ⟨y 0, y 1, eq_ix2 y⟩
  have ht : t.val < 1024 := t.isLt
  have hp : p.val < 2048 := p.isLt
  have hrlt : t.val * 2048 + p.val < 2097152 := by omega
  have hi : ((cfg0.win 34).blk t).view.emb (ix2 p q) = ix2 (⟨t.val * 2048 + p.val, hrlt⟩ : Fin 2097152) q :=
    funext fun d => Fin.ext (by
      obtain ⟨e0, e1⟩ := Blocks.idx34 t
      match d with
      | ⟨0, _⟩ => show win0_34.index t (0 : Fin 2) * 2048 + 1 * p.val = t.val * 2048 + p.val; omega
      | ⟨1, _⟩ => show win0_34.index t (1 : Fin 2) * 14 + 1 * q.val = q.val; omega)
  show k0_pay9 (k0_pay7 (iblk m c 1 t) (iblk m c 2 t) (k0_pay4 (iblk m c 0 t) (iblk m c 1 t) (iblk m c 17 t) (iblk m c 18 t)) (iblk m c 19 t) (iblk m c 20 t) (iblk m c 13 t) (iblk m c 14 t) (iblk m c 15 t) (iblk m c 16 t)) (k0_pay8 (iblk m c 1 t) (iblk m c 2 t) (k0_pay4 (iblk m c 0 t) (iblk m c 1 t) (iblk m c 17 t) (iblk m c 18 t)) (iblk m c 19 t) (iblk m c 20 t) (iblk m c 13 t) (iblk m c 14 t) (iblk m c 15 t) (iblk m c 16 t)) (iblk m c 21 t) (iblk m c 22 t) (ix2 p q) = G34 m c (((cfg0.win 34).blk t).view.emb (ix2 p q))
  rw [hi]
  refine (Pay.pay34_apply (iblk m c 0 t) (iblk m c 1 t) (iblk m c 2 t) (iblk m c 17 t) (iblk m c 18 t) (iblk m c 19 t) (iblk m c 20 t) (iblk m c 13 t) (iblk m c 14 t) (iblk m c 15 t) (iblk m c 16 t) (iblk m c 21 t) (iblk m c 22 t) p q).trans ?_
  simp only [Blocks.blk0 m c t _ _ (⟨t.val * 2048 + p.val, hrlt⟩ : Fin 2097152) rfl,
    Blocks.blk1 m c t _ _ (⟨t.val * 2048 + p.val, hrlt⟩ : Fin 2097152) rfl,
    Blocks.blk2 m c t _ _ (⟨t.val * 2048 + p.val, hrlt⟩ : Fin 2097152) rfl,
    Blocks.blk17 m c t, Blocks.blk18 m c t, Blocks.blk19 m c t, Blocks.blk20 m c t, Blocks.blk13 m c t, Blocks.blk14 m c t, Blocks.blk15 m c t, Blocks.blk16 m c t, Blocks.blk21 m c t, Blocks.blk22 m c t]
  rfl

/-- An index of the array is in point `t`'s block iff each coordinate is in the block's range on its axis. -/
theorem mem_blk34 (t : Fin cfg0.N) (i : S2097152x14.Idx) :
    i ∈ ((cfg0.win 34).blk t).view.set ↔ ∀ a : Fin 2, win0_34.index t a * S2048x14.size a ≤ (i a).val ∧ (i a).val < win0_34.index t a * S2048x14.size a + S2048x14.size a := by
  show i ∈ ((View.whole main_v30_1).slice (win0_34.rect t)).set ↔ _
  rw [View.set_slice_whole, Rect.mem_set_unit]
  exact Iff.rfl

/-- Every row of the array is in some point's block: row `r` in the block of point `r / 2048`. -/
theorem cover34 (i : S2097152x14.Idx) :
    ∃ t : Fin cfg0.N, (cfg0.win 34).flush t = true ∧ i ∈ ((cfg0.win 34).blk t).view.set := by
  have h0 : (i 0).val < 2097152 := (i 0).isLt
  have h1 : (i 1).val < 14 := (i 1).isLt
  have hlt : (i 0).val / 2048 < cfg0.N := by show (i 0).val / 2048 < 1024; omega
  refine ⟨(⟨(i 0).val / 2048, hlt⟩ : Fin cfg0.N), flush0_34 _, ?_⟩
  rw [mem_blk34]
  obtain ⟨e0, e1⟩ := Blocks.idx34 (⟨(i 0).val / 2048, hlt⟩ : Fin cfg0.N)
  have e0' : win0_34.index (⟨(i 0).val / 2048, hlt⟩ : Fin cfg0.N) (0 : Fin 2) = (i 0).val / 2048 := e0
  intro a
  match a with
  | ⟨0, _⟩ =>
      show win0_34.index (⟨(i 0).val / 2048, hlt⟩ : Fin cfg0.N) (0 : Fin 2) * 2048 ≤ (i 0).val
        ∧ (i 0).val < win0_34.index (⟨(i 0).val / 2048, hlt⟩ : Fin cfg0.N) (0 : Fin 2) * 2048 + 2048
      omega
  | ⟨1, _⟩ =>
      show win0_34.index (⟨(i 0).val / 2048, hlt⟩ : Fin cfg0.N) (1 : Fin 2) * 14 ≤ (i 1).val
        ∧ (i 1).val < win0_34.index (⟨(i 0).val / 2048, hlt⟩ : Fin cfg0.N) (1 : Fin 2) * 14 + 14
      omega

/-- THE ARRAY after the run is `G34`. -/
theorem final34 (c : Dev nD) : (dats m 0 c).arrAt 34 cfg0.N = G34 m c :=
  (dats m 0 c).arrAt_eq_of_cover 34 (G34 m c) (fun t _ => flushed34_eq m c t) (cover34)

/-! ## Result window 35 -/

/-- What the result array 2 ends holding: `mixed` of the launch contents of the argument arrays. -/
abbrev G35 (c : Dev nD) : S2097152x13.Idx → EReal :=
  (mixed (B := 2097152) (n0 := 15) (n1 := 14) (n2 := 13) (E := 13) 26 0x41500000#32 0x3727C5AC#32 (m ((c : Thread nD τ).loc main_arg2)) (m ((c : Thread nD τ).loc main_arg0)) (m ((c : Thread nD τ).loc main_arg1)) (m ((c : Thread nD τ).loc main_arg2)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)))

/-- WHAT POINT `t` WRITES BACK is block `t` of `G35`: rows `2048 t ..` of the data arrays enter, and the whole weight arrays. -/
theorem flushed35_eq (c : Dev nD) (t : Fin cfg0.N) :
    (dats m 0 c).flushed 35 t = ((cfg0.win 35).blk t).view.read (Elt Ideal) (G35 m c) := by
  show (cfg0.win 35).cut (grid0.coords t) ((dats m 0 c).after 35 t) = _
  rw [after0_35]
  unfold out0_35
  rw [View.canon_unit_zero hz]
  simp only [View.ld_unit_zero (S := S2048x15) hz, View.ld_unit_zero (S := S2048x14) hz, View.ld_unit_zero (S := S2048x13) hz, View.ld_unit_zero (S := S15x15) hz, View.ld_unit_zero (S := S15x14) hz, View.ld_unit_zero (S := S15x13) hz, View.ld_unit_zero (S := S1x15) hz, View.ld_unit_zero (S := S14x15) hz, View.ld_unit_zero (S := S14x14) hz, View.ld_unit_zero (S := S14x13) hz, View.ld_unit_zero (S := S1x14) hz, View.ld_unit_zero (S := S13x15) hz, View.ld_unit_zero (S := S13x14) hz, View.ld_unit_zero (S := S13x13) hz, View.ld_unit_zero (S := S1x13) hz]
  funext y
  obtain ⟨p, q, rfl⟩ : ∃ (p : Fin 2048) (q : Fin 13), y = ix2 p q := ⟨y 0, y 1, eq_ix2 y⟩
  have ht : t.val < 1024 := t.isLt
  have hp : p.val < 2048 := p.isLt
  have hrlt : t.val * 2048 + p.val < 2097152 := by omega
  have hi : ((cfg0.win 35).blk t).view.emb (ix2 p q) = ix2 (⟨t.val * 2048 + p.val, hrlt⟩ : Fin 2097152) q :=
    funext fun d => Fin.ext (by
      obtain ⟨e0, e1⟩ := Blocks.idx35 t
      match d with
      | ⟨0, _⟩ => show win0_35.index t (0 : Fin 2) * 2048 + 1 * p.val = t.val * 2048 + p.val; omega
      | ⟨1, _⟩ => show win0_35.index t (1 : Fin 2) * 13 + 1 * q.val = q.val; omega)
  show k0_pay1 (iblk m c 2 t) (k0_pay10 (iblk m c 0 t) (iblk m c 1 t) (iblk m c 2 t) (iblk m c 27 t) (iblk m c 28 t) (iblk m c 29 t) (iblk m c 30 t) (iblk m c 23 t) (iblk m c 24 t)) (iblk m c 25 t) (iblk m c 26 t) (iblk m c 31 t) (iblk m c 32 t) (ix2 p q) = G35 m c (((cfg0.win 35).blk t).view.emb (ix2 p q))
  rw [hi]
  refine (Pay.pay35_apply (iblk m c 0 t) (iblk m c 1 t) (iblk m c 2 t) (iblk m c 27 t) (iblk m c 28 t) (iblk m c 29 t) (iblk m c 30 t) (iblk m c 23 t) (iblk m c 24 t) (iblk m c 25 t) (iblk m c 26 t) (iblk m c 31 t) (iblk m c 32 t) p q).trans ?_
  simp only [Blocks.blk0 m c t _ _ (⟨t.val * 2048 + p.val, hrlt⟩ : Fin 2097152) rfl,
    Blocks.blk1 m c t _ _ (⟨t.val * 2048 + p.val, hrlt⟩ : Fin 2097152) rfl,
    Blocks.blk2 m c t _ _ (⟨t.val * 2048 + p.val, hrlt⟩ : Fin 2097152) rfl,
    Blocks.blk27 m c t, Blocks.blk28 m c t, Blocks.blk29 m c t, Blocks.blk30 m c t, Blocks.blk23 m c t, Blocks.blk24 m c t, Blocks.blk25 m c t, Blocks.blk26 m c t, Blocks.blk31 m c t, Blocks.blk32 m c t]
  rfl

/-- An index of the array is in point `t`'s block iff each coordinate is in the block's range on its axis. -/
theorem mem_blk35 (t : Fin cfg0.N) (i : S2097152x13.Idx) :
    i ∈ ((cfg0.win 35).blk t).view.set ↔ ∀ a : Fin 2, win0_35.index t a * S2048x13.size a ≤ (i a).val ∧ (i a).val < win0_35.index t a * S2048x13.size a + S2048x13.size a := by
  show i ∈ ((View.whole main_v30_2).slice (win0_35.rect t)).set ↔ _
  rw [View.set_slice_whole, Rect.mem_set_unit]
  exact Iff.rfl

/-- Every row of the array is in some point's block: row `r` in the block of point `r / 2048`. -/
theorem cover35 (i : S2097152x13.Idx) :
    ∃ t : Fin cfg0.N, (cfg0.win 35).flush t = true ∧ i ∈ ((cfg0.win 35).blk t).view.set := by
  have h0 : (i 0).val < 2097152 := (i 0).isLt
  have h1 : (i 1).val < 13 := (i 1).isLt
  have hlt : (i 0).val / 2048 < cfg0.N := by show (i 0).val / 2048 < 1024; omega
  refine ⟨(⟨(i 0).val / 2048, hlt⟩ : Fin cfg0.N), flush0_35 _, ?_⟩
  rw [mem_blk35]
  obtain ⟨e0, e1⟩ := Blocks.idx35 (⟨(i 0).val / 2048, hlt⟩ : Fin cfg0.N)
  have e0' : win0_35.index (⟨(i 0).val / 2048, hlt⟩ : Fin cfg0.N) (0 : Fin 2) = (i 0).val / 2048 := e0
  intro a
  match a with
  | ⟨0, _⟩ =>
      show win0_35.index (⟨(i 0).val / 2048, hlt⟩ : Fin cfg0.N) (0 : Fin 2) * 2048 ≤ (i 0).val
        ∧ (i 0).val < win0_35.index (⟨(i 0).val / 2048, hlt⟩ : Fin cfg0.N) (0 : Fin 2) * 2048 + 2048
      omega
  | ⟨1, _⟩ =>
      show win0_35.index (⟨(i 0).val / 2048, hlt⟩ : Fin cfg0.N) (1 : Fin 2) * 13 ≤ (i 1).val
        ∧ (i 1).val < win0_35.index (⟨(i 0).val / 2048, hlt⟩ : Fin cfg0.N) (1 : Fin 2) * 13 + 13
      omega

/-- THE ARRAY after the run is `G35`. -/
theorem final35 (c : Dev nD) : (dats m 0 c).arrAt 35 cfg0.N = G35 m c :=
  (dats m 0 c).arrAt_eq_of_cover 35 (G35 m c) (fun t _ => flushed35_eq m c t) (cover35)

/-! ## The run, read -/

/-- Every weakly fair execution of the kernel's @main terminates with each result array at `mixed` of the launch contents
    and every argument array as launched. -/
theorem run : θ_run defs (onTc (τ := τ) (main (F := Ideal))) ⟨m, fun _ => 0, ρ⟩ fun r => ∀ c : Dev nD,
      r.2.mem ((c.tc : Thread nD τ).loc main_v30_0) = G33 m c
      ∧ r.2.mem ((c.tc : Thread nD τ).loc main_v30_1) = G34 m c
      ∧ r.2.mem ((c.tc : Thread nD τ).loc main_v30_2) = G35 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c => ⟨((h.1 c).1 33).trans (final33 m c), ((h.1 c).1 34).trans (final34 m c),
      ((h.1 c).1 35).trans (final35 m c), h.2 c⟩)
    (Cert.RunAnd.θ_run_and _ _ _ (run_main m ρ) (GenP.frame m ρ))

end Cert.KernelIdeal.Arrays

end
-- ==== Proof.RefCxr.lean ====
/-
  The reference's result 0, read row by row.

  The host program joins the three data arrays along the lanes, contracts the join with the transposed context weights and
  adds a bias (the mixed context), passes it through two affine layers with transposed weights (the inner one's weights
  and bias are the last 15 rows of a 45-row array), adds the data array, and normalises each row. Every stage at
  entry (p, q) depends on row p only, so the whole result at (p, q) is the row function `branchRow` of row p of the three
  data arrays: `mixed`.
-/
import proofs.«137668_j54631984005204_1_alg».proof.Proof.Gen.ReferenceIdeal.Read
import proofs.«137668_j54631984005204_1_alg».proof.Proof.LibNormRow

noncomputable section

open scoped BigOperators

namespace Cert.ReferenceIdeal.RefValue

open Cert.ReferenceIdeal Cert.ReferenceIdeal.Gen Cert.ReferenceIdeal.Read
open Idealize.ShloMosaic Idealize.ShloMosaic.ValueIdx Cert.NormRow

/-- The reference's result 0 is `mixed` of its arguments. -/
theorem out0_eq (x0 : (⟨S2097152x15, .f32⟩ : BufTy).Contents (Elt Ideal)) (x1 : (⟨S2097152x14, .f32⟩ : BufTy).Contents (Elt Ideal)) (x2 : (⟨S2097152x13, .f32⟩ : BufTy).Contents (Elt Ideal)) (x3 : (⟨S45x15, .f32⟩ : BufTy).Contents (Elt Ideal)) (x4 : (⟨S45, .f32⟩ : BufTy).Contents (Elt Ideal)) (x5 : (⟨S15x15, .f32⟩ : BufTy).Contents (Elt Ideal)) (x6 : (⟨S15, .f32⟩ : BufTy).Contents (Elt Ideal)) (x7 : (⟨S15x42, .f32⟩ : BufTy).Contents (Elt Ideal)) (x8 x9 x10 : (⟨S15, .f32⟩ : BufTy).Contents (Elt Ideal)) :
    val_main_v42 (F := Ideal) x0 x1 x2 x3 x4 x5 x6 x7 x8 x9 x10
      = mixed (B := 2097152) (n0 := 15) (n1 := 14) (n2 := 13) (E := 15) 30 0x41700000#32 0x3727C5AC#32 x0 x0 x1 x2 x3 x4 x5 x6 x7 x8 x9 x10 := by
  funext i
  obtain ⟨p, q, rfl⟩ : ∃ (p : Fin 2097152) (q : Fin 15), i = ix2 p q := ⟨i 0, i 1, eq_ix2 i⟩
  -- the normalisation, over the residual sum as a whole
  refine (hostLN_apply (val_main_v18 (F := Ideal) x0 x1 x2 x3 x4 x5 x6 x7 x8) x9 x10 0x41700000#32 0x3727C5AC#32 _ _ (by decide) _ _ _ _ _ p q).trans ?_
  show lnRow _ _ _ _ _ q = branchRow _ _ _ _ _ _ _ _ _ _ _ _ _ _ _ _ q
  unfold branchRow
  refine congrArg (fun y => lnRow _ _ y _ _ q) (funext fun k => ?_)
  -- the residual sum: the data row plus the outer affine layer
  show x0 (ix2 p k) + val_main_v17 (F := Ideal) x0 x1 x2 x3 x4 x5 x6 x7 x8 (ix2 p k) = x0 (ix2 p k) + _
  refine congrArg (x0 (ix2 p k) + ·) ?_
  refine (hostAffT_apply none (val_main_v12 (F := Ideal) x0 x1 x2 x3 x4 x7 x8) x5 x6 _ _ _ p k).trans ?_
  refine congrArg (fun r => affT r (fun c j => x5 (ix2 c j)) (fun c => x6 (ix1 c)) k) (funext fun j => ?_)
  -- the inner affine layer: its weights the rows 30.. of the 45-row array, its bias the entries 30..
  refine (hostAffT_apply none (val_main_v5 (F := Ideal) x0 x1 x2 x7 x8) _ _ _ _ _ p j).trans ?_
  show affT _ (fun (c : Fin 15) (l : Fin 15) => extractStridedSlice S15x15 ![30, 0] x3 slices_S45x15_S15x15_30_0 (ix2 c l))
      (fun (c : Fin 15) => extractStridedSlice S15 ![30] x4 slices_S45_S15_30 (ix1 c)) j = _
  have hw : (fun (c : Fin 15) (l : Fin 15) => extractStridedSlice S15x15 ![30, 0] x3 slices_S45x15_S15x15_30_0 (ix2 c l))
      = fun c l => x3 (ix2 (Fin.natAdd 30 c) l) :=
    funext fun c => funext fun l => sliceRows_apply 30 x3 _ c l (Fin.natAdd 30 c) rfl
  have hb : (fun (c : Fin 15) => extractStridedSlice S15 ![30] x4 slices_S45_S15_30 (ix1 c))
      = fun c => x4 (ix1 (Fin.natAdd 30 c)) :=
    funext fun c => sliceFlat_apply 30 x4 _ c (Fin.natAdd 30 c) rfl
  rw [hw, hb]
  refine congrArg (fun r => affT r (fun c l => x3 (ix2 (Fin.natAdd 30 c) l)) (fun c => x4 (ix1 (Fin.natAdd 30 c))) j) (funext fun l => ?_)
  -- the mixed context: one contraction over the 42 joined lanes is the three contractions added
  exact hostKv_apply (n0 := 15) (n1 := 14) (n2 := 13) none x0 x1 x2 x7 x8 _ _ _ _ p l

end Cert.ReferenceIdeal.RefValue

end
-- ==== Proof.RefEcg.lean ====
/-
  The reference's result 1, read row by row.

  The host program joins the three data arrays along the lanes, contracts the join with the transposed context weights and
  adds a bias (the mixed context), passes it through two affine layers with transposed weights (the inner one's weights
  and bias are the last 14 rows of a 42-row array), adds the data array, and normalises each row. Every stage at
  entry (p, q) depends on row p only, so the whole result at (p, q) is the row function `branchRow` of row p of the three
  data arrays: `mixed`.
-/
import proofs.«137668_j54631984005204_1_alg».proof.Proof.Gen.ReferenceIdeal.Read
import proofs.«137668_j54631984005204_1_alg».proof.Proof.LibNormRow

noncomputable section

open scoped BigOperators

namespace Cert.ReferenceIdeal.RefValue

open Cert.ReferenceIdeal Cert.ReferenceIdeal.Gen Cert.ReferenceIdeal.Read
open Idealize.ShloMosaic Idealize.ShloMosaic.ValueIdx Cert.NormRow

/-- The reference's result 1 is `mixed` of its arguments. -/
theorem out1_eq (x0 : (⟨S2097152x15, .f32⟩ : BufTy).Contents (Elt Ideal)) (x1 : (⟨S2097152x14, .f32⟩ : BufTy).Contents (Elt Ideal)) (x2 : (⟨S2097152x13, .f32⟩ : BufTy).Contents (Elt Ideal)) (x11 : (⟨S42x14, .f32⟩ : BufTy).Contents (Elt Ideal)) (x12 : (⟨S42, .f32⟩ : BufTy).Contents (Elt Ideal)) (x13 : (⟨S14x14, .f32⟩ : BufTy).Contents (Elt Ideal)) (x14 : (⟨S14, .f32⟩ : BufTy).Contents (Elt Ideal)) (x15 : (⟨S14x42, .f32⟩ : BufTy).Contents (Elt Ideal)) (x16 x17 x18 : (⟨S14, .f32⟩ : BufTy).Contents (Elt Ideal)) :
    val_main_v84 (F := Ideal) x0 x1 x2 x11 x12 x13 x14 x15 x16 x17 x18
      = mixed (B := 2097152) (n0 := 15) (n1 := 14) (n2 := 13) (E := 14) 28 0x41600000#32 0x3727C5AC#32 x1 x0 x1 x2 x11 x12 x13 x14 x15 x16 x17 x18 := by
  funext i
  obtain ⟨p, q, rfl⟩ : ∃ (p : Fin 2097152) (q : Fin 14), i = ix2 p q := ⟨i 0, i 1, eq_ix2 i⟩
  -- the normalisation, over the residual sum as a whole
  refine (hostLN_apply (val_main_v60 (F := Ideal) x0 x1 x2 x11 x12 x13 x14 x15 x16) x17 x18 0x41600000#32 0x3727C5AC#32 _ _ (by decide) _ _ _ _ _ p q).trans ?_
  show lnRow _ _ _ _ _ q = branchRow _ _ _ _ _ _ _ _ _ _ _ _ _ _ _ _ q
  unfold branchRow
  refine congrArg (fun y => lnRow _ _ y _ _ q) (funext fun k => ?_)
  -- the residual sum: the data row plus the outer affine layer
  show x1 (ix2 p k) + val_main_v59 (F := Ideal) x0 x1 x2 x11 x12 x13 x14 x15 x16 (ix2 p k) = x1 (ix2 p k) + _
  refine congrArg (x1 (ix2 p k) + ·) ?_
  refine (hostAffT_apply none (val_main_v54 (F := Ideal) x0 x1 x2 x11 x12 x15 x16) x13 x14 _ _ _ p k).trans ?_
  refine congrArg (fun r => affT r (fun c j => x13 (ix2 c j)) (fun c => x14 (ix1 c)) k) (funext fun j => ?_)
  -- the inner affine layer: its weights the rows 28.. of the 42-row array, its bias the entries 28..
  refine (hostAffT_apply none (val_main_v47 (F := Ideal) x0 x1 x2 x15 x16) _ _ _ _ _ p j).trans ?_
  show affT _ (fun (c : Fin 14) (l : Fin 14) => extractStridedSlice S14x14 ![28, 0] x11 slices_S42x14_S14x14_28_0 (ix2 c l))
      (fun (c : Fin 14) => extractStridedSlice S14 ![28] x12 slices_S42_S14_28 (ix1 c)) j = _
  have hw : (fun (c : Fin 14) (l : Fin 14) => extractStridedSlice S14x14 ![28, 0] x11 slices_S42x14_S14x14_28_0 (ix2 c l))
      = fun c l => x11 (ix2 (Fin.natAdd 28 c) l) :=
    funext fun c => funext fun l => sliceRows_apply 28 x11 _ c l (Fin.natAdd 28 c) rfl
  have hb : (fun (c : Fin 14) => extractStridedSlice S14 ![28] x12 slices_S42_S14_28 (ix1 c))
      = fun c => x12 (ix1 (Fin.natAdd 28 c)) :=
    funext fun c => sliceFlat_apply 28 x12 _ c (Fin.natAdd 28 c) rfl
  rw [hw, hb]
  refine congrArg (fun r => affT r (fun c l => x11 (ix2 (Fin.natAdd 28 c) l)) (fun c => x12 (ix1 (Fin.natAdd 28 c))) j) (funext fun l => ?_)
  -- the mixed context: one contraction over the 42 joined lanes is the three contractions added
  exact hostKv_apply (n0 := 15) (n1 := 14) (n2 := 13) none x0 x1 x2 x15 x16 _ _ _ _ p l

end Cert.ReferenceIdeal.RefValue

end
-- ==== Proof.RefEhr.lean ====
/-
  The reference's result 2, read row by row.

  The host program joins the three data arrays along the lanes, contracts the join with the transposed context weights and
  adds a bias (the mixed context), passes it through two affine layers with transposed weights (the inner one's weights
  and bias are the last 13 rows of a 39-row array), adds the data array, and normalises each row. Every stage at
  entry (p, q) depends on row p only, so the whole result at (p, q) is the row function `branchRow` of row p of the three
  data arrays: `mixed`.
-/
import proofs.«137668_j54631984005204_1_alg».proof.Proof.Gen.ReferenceIdeal.Read
import proofs.«137668_j54631984005204_1_alg».proof.Proof.LibNormRow

noncomputable section

open scoped BigOperators

namespace Cert.ReferenceIdeal.RefValue

open Cert.ReferenceIdeal Cert.ReferenceIdeal.Gen Cert.ReferenceIdeal.Read
open Idealize.ShloMosaic Idealize.ShloMosaic.ValueIdx Cert.NormRow

/-- The reference's result 2 is `mixed` of its arguments. -/
theorem out2_eq (x0 : (⟨S2097152x15, .f32⟩ : BufTy).Contents (Elt Ideal)) (x1 : (⟨S2097152x14, .f32⟩ : BufTy).Contents (Elt Ideal)) (x2 : (⟨S2097152x13, .f32⟩ : BufTy).Contents (Elt Ideal)) (x19 : (⟨S39x13, .f32⟩ : BufTy).Contents (Elt Ideal)) (x20 : (⟨S39, .f32⟩ : BufTy).Contents (Elt Ideal)) (x21 : (⟨S13x13, .f32⟩ : BufTy).Contents (Elt Ideal)) (x22 : (⟨S13, .f32⟩ : BufTy).Contents (Elt Ideal)) (x23 : (⟨S13x42, .f32⟩ : BufTy).Contents (Elt Ideal)) (x24 x25 x26 : (⟨S13, .f32⟩ : BufTy).Contents (Elt Ideal)) :
    val_main_v126 (F := Ideal) x0 x1 x2 x19 x20 x21 x22 x23 x24 x25 x26
      = mixed (B := 2097152) (n0 := 15) (n1 := 14) (n2 := 13) (E := 13) 26 0x41500000#32 0x3727C5AC#32 x2 x0 x1 x2 x19 x20 x21 x22 x23 x24 x25 x26 := by
  funext i
  obtain ⟨p, q, rfl⟩ : ∃ (p : Fin 2097152) (q : Fin 13), i = ix2 p q := ⟨i 0, i 1, eq_ix2 i⟩
  -- the normalisation, over the residual sum as a whole
  refine (hostLN_apply (val_main_v102 (F := Ideal) x0 x1 x2 x19 x20 x21 x22 x23 x24) x25 x26 0x41500000#32 0x3727C5AC#32 _ _ (by decide) _ _ _ _ _ p q).trans ?_
  show lnRow _ _ _ _ _ q = branchRow _ _ _ _ _ _ _ _ _ _ _ _ _ _ _ _ q
  unfold branchRow
  refine congrArg (fun y => lnRow _ _ y _ _ q) (funext fun k => ?_)
  -- the residual sum: the data row plus the outer affine layer
  show x2 (ix2 p k) + val_main_v101 (F := Ideal) x0 x1 x2 x19 x20 x21 x22 x23 x24 (ix2 p k) = x2 (ix2 p k) + _
  refine congrArg (x2 (ix2 p k) + ·) ?_
  refine (hostAffT_apply none (val_main_v96 (F := Ideal) x0 x1 x2 x19 x20 x23 x24) x21 x22 _ _ _ p k).trans ?_
  refine congrArg (fun r => affT r (fun c j => x21 (ix2 c j)) (fun c => x22 (ix1 c)) k) (funext fun j => ?_)
  -- the inner affine layer: its weights the rows 26.. of the 39-row array, its bias the entries 26..
  refine (hostAffT_apply none (val_main_v89 (F := Ideal) x0 x1 x2 x23 x24) _ _ _ _ _ p j).trans ?_
  show affT _ (fun (c : Fin 13) (l : Fin 13) => extractStridedSlice S13x13 ![26, 0] x19 slices_S39x13_S13x13_26_0 (ix2 c l))
      (fun (c : Fin 13) => extractStridedSlice S13 ![26] x20 slices_S39_S13_26 (ix1 c)) j = _
  have hw : (fun (c : Fin 13) (l : Fin 13) => extractStridedSlice S13x13 ![26, 0] x19 slices_S39x13_S13x13_26_0 (ix2 c l))
      = fun c l => x19 (ix2 (Fin.natAdd 26 c) l) :=
    funext fun c => funext fun l => sliceRows_apply 26 x19 _ c l (Fin.natAdd 26 c) rfl
  have hb : (fun (c : Fin 13) => extractStridedSlice S13 ![26] x20 slices_S39_S13_26 (ix1 c))
      = fun c => x20 (ix1 (Fin.natAdd 26 c)) :=
    funext fun c => sliceFlat_apply 26 x20 _ c (Fin.natAdd 26 c) rfl
  rw [hw, hb]
  refine congrArg (fun r => affT r (fun c l => x19 (ix2 (Fin.natAdd 26 c) l)) (fun c => x20 (ix1 (Fin.natAdd 26 c))) j) (funext fun l => ?_)
  -- the mixed context: one contraction over the 42 joined lanes is the three contractions added
  exact hostKv_apply (n0 := 15) (n1 := 14) (n2 := 13) none x0 x1 x2 x23 x24 _ _ _ _ p l

end Cert.ReferenceIdeal.RefValue

end
-- ==== Proof.lean ====
/-
  The kernel and its reference compute one function.

  Three data arrays of 2097152 rows and 15, 14 and 13 lanes go through three branches. Each branch mixes the three arrays into a
  context (the 42 joined lanes against the transposed context weights, plus a bias), passes the context through two affine
  layers with transposed weights (the inner one's weights and bias the last third of a stacked array), adds the branch's own
  data array, and normalises every row: mean, variance, reciprocal square root with a small constant added, scale, shift.

  The reference joins the three arrays along the lanes and contracts the join once; the kernel, point by point over blocks of
  2048 rows, multiplies the three blocks by three lane ranges of the context weights and adds the three products. On the
  exact extended reals the sum over the 42 joined lanes is the three sums added, whatever the entries are: only the order and
  grouping of a finite sum changes, so no finiteness of the inputs is used. Every other step is the same operation of the
  same row on both sides. Both programs therefore end with each result array at `mixed` of the argument arrays
  (Proof/LibNormRow.lean): the kernel's by its blocks tiling the rows (Proof/KernelArrays.lean), the reference's stage by
  stage (Proof/RefCxr.lean, RefEcg.lean, RefEhr.lean).

  The idealisation rewrote nothing, so its conjunct is trivial; the frames are the generated frame runs, and the
  reference's is its generated run with the results dropped.
-/
import proofs.«137668_j54631984005204_1_alg».proof.Defs
import proofs.«137668_j54631984005204_1_alg».proof.Proof.Gen.Kernel
import proofs.«137668_j54631984005204_1_alg».proof.Proof.Gen.Kernel.Skeleton
import proofs.«137668_j54631984005204_1_alg».proof.Proof.Gen.Kernel.Launch
import proofs.«137668_j54631984005204_1_alg».proof.Proof.Gen.Kernel.Points
import proofs.«137668_j54631984005204_1_alg».proof.Proof.KernelFrameP
import proofs.«137668_j54631984005204_1_alg».proof.Proof.Gen.KernelIdeal
import proofs.«137668_j54631984005204_1_alg».proof.Proof.Gen.KernelIdeal.Skeleton
import proofs.«137668_j54631984005204_1_alg».proof.Proof.Gen.KernelIdeal.Launch
import proofs.«137668_j54631984005204_1_alg».proof.Proof.Gen.KernelIdeal.Points
import proofs.«137668_j54631984005204_1_alg».proof.Proof.KernelIdealFrameP
import proofs.«137668_j54631984005204_1_alg».proof.Proof.Gen.ReferenceIdeal
import proofs.«137668_j54631984005204_1_alg».proof.Proof.Gen.Pre_finite_inputs
import proofs.«137668_j54631984005204_1_alg».proof.Proof.Gen.ReferenceIdeal.Run
import proofs.«137668_j54631984005204_1_alg».proof.Proof.Gen.ReferenceIdeal.Read
import proofs.«137668_j54631984005204_1_alg».proof.Proof.KernelArrays
import proofs.«137668_j54631984005204_1_alg».proof.Proof.RefCxr
import proofs.«137668_j54631984005204_1_alg».proof.Proof.RefEcg
import proofs.«137668_j54631984005204_1_alg».proof.Proof.RefEhr
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the three result arrays at `mixed` of arguments that agree. -/
theorem algebraic : Cert.algebraic_KernelIdeal_ReferenceIdeal := by
  intro m ρ m' ρ' _ hagree
  refine ⟨fun c => Cert.KernelIdeal.Arrays.G33 m c, fun c => Cert.KernelIdeal.Arrays.G34 m c,
    fun c => Cert.KernelIdeal.Arrays.G35 m c, Cert.KernelIdeal.Arrays.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · -- result 0
    obtain ⟨a0, a1, a2, a3, a4, a5, a6, a7, a8, a9, a10, a11, a12, a13, a14, a15, a16, a17, a18, a19, a20, a21, a22, a23, a24, a25, a26⟩ := hagree c
    rw [Cert.ReferenceIdeal.Read.val_main_v42_eq, Cert.ReferenceIdeal.RefValue.out0_eq, a0, a1, a2, a3, a4, a5, a6, a7, a8, a9, a10]
  · -- result 1
    obtain ⟨a0, a1, a2, a3, a4, a5, a6, a7, a8, a9, a10, a11, a12, a13, a14, a15, a16, a17, a18, a19, a20, a21, a22, a23, a24, a25, a26⟩ := hagree c
    rw [Cert.ReferenceIdeal.Read.val_main_v84_eq, Cert.ReferenceIdeal.RefValue.out1_eq, a0, a1, a2, a11, a12, a13, a14, a15, a16, a17, a18]
  · -- result 2
    obtain ⟨a0, a1, a2, a3, a4, a5, a6, a7, a8, a9, a10, a11, a12, a13, a14, a15, a16, a17, a18, a19, a20, a21, a22, a23, a24, a25, a26⟩ := hagree c
    rw [Cert.ReferenceIdeal.Read.val_main_v126_eq, Cert.ReferenceIdeal.RefValue.out2_eq, a0, a1, a2, a19, a20, a21, a22, a23, a24, a25, a26]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
